-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : FVec F S4096x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S4096x128 : Shape := ⟨2, ![4096, 128]⟩
abbrev S4096x1 : Shape := ⟨2, ![4096, 1]⟩
abbrev S512x128 : Shape := ⟨2, ![512, 128]⟩
abbrev S512x1 : Shape := ⟨2, ![512, 1]⟩
abbrev S512 : Shape := ⟨1, ![512]⟩
abbrev S8192x128 : Shape := ⟨2, ![8192, 128]⟩
abbrev S8192x1 : Shape := ⟨2, ![8192, 1]⟩
abbrev S1024x128 : Shape := ⟨2, ![1024, 128]⟩
abbrev S1024x1 : Shape := ⟨2, ![1024, 1]⟩
abbrev S128x1024 : Shape := ⟨2, ![128, 1024]⟩
abbrev S1024x1024 : Shape := ⟨2, ![1024, 1024]⟩
abbrev S1024 : Shape := ⟨1, ![1024]⟩
abbrev S_ : Shape := ⟨0, ![]⟩

abbrev nBuf : Space → Nat
  | .hbm => 17
  | .vmem => 16
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .bf16⟩
  | .hbm, ⟨3, _⟩ => ⟨S4096x128, .bf16⟩
  | .hbm, ⟨4, _⟩ => ⟨S4096x1, .f32⟩
  | .hbm, ⟨5, _⟩ => ⟨S8192x128, .bf16⟩
  | .hbm, ⟨6, _⟩ => ⟨S8192x1, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x1, .f32⟩
  | .local _ .vmem, ⟨9, _⟩ => ⟨S512x1, .f32⟩
  | .local _ .vmem, ⟨10, _⟩ => ⟨S1024x128, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S1024x1, .f32⟩
  | .local _ .vmem, ⟨15, _⟩ => ⟨S1024x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S512x128_S512x128_0_0 : ∀ a, (![0, 0] : Fin 2 → Nat) a + S512x128.size a ≤ S512x128.size a
  h_S512x128 : 0 < S512x128.numel
  reduces_S512x128_S512 : S512x128.Reduces [1] S512
  shapeCasts_S512_S512x1 : S512.ShapeCasts S512x1
  broadcasts_S512x1_S512x128 : S512x1.Broadcasts S512x128
  bitsLt_bf16_f32 : FTy.bits .bf16 < FTy.bits .f32
  packedbf16_S512x128_S512x128_0_0 : (Rect.unit (s := S512x128) ![0, 0] S512x128.size inb_S512x128_S512x128_0_0).PackedRows (EltTy.packing .bf16)
  inb_S512x1_S512x1_0_0 : ∀ a, (![0, 0] : Fin 2 → Nat) a + S512x1.size a ≤ S512x1.size a
  h_S512x1 : 0 < S512x1.numel
  concatenates_S4096x128_S4096x128_S8192x128_d0 : Shape.Concatenates [S4096x128, S4096x128] S8192x128 0
  inb_S1024x1_S1024x1_0_0 : ∀ a, (![0, 0] : Fin 2 → Nat) a + S1024x1.size a ≤ S1024x1.size a
  h_S1024x1 : 0 < S1024x1.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  shapeCasts_S1024x1_S1024x1 : S1024x1.ShapeCasts S1024x1
  reduces_S1024x1024_S1024 : S1024x1024.Reduces [1] S1024
  shapeCasts_S1024_S1024x1 : S1024.ShapeCasts S1024x1
  reduces_S1024x128_S1024 : S1024x128.Reduces [1] S1024
  concatenates_S4096x1_S4096x1_S8192x1_d0 : Shape.Concatenates [S4096x1, S4096x1] S8192x1 0
  bcast_S_S8192x1 : S_.BroadcastsInDim S8192x1 (![] : Fin 0 → Fin S8192x1.rank)
  reducesTo_S8192x1_S_d0_1 : S8192x1.ReducesTo [0, 1] S_
  h_S_ : 0 < S_.numel
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S4096x128.size a
  hwx0_0 : ∀ i : grid0.Coords, EltTy.bits .f32 = 32 ∨ (Rect.block (s := S4096x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S4096x128.size a
  hwx0_1 : ∀ i : grid0.Coords, EltTy.bits .f32 = 32 ∨ (Rect.block (s := S4096x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .bf16 = 32 ∨ (Rect.block (s := S4096x128) S512x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S4096x128.size a
  hwx0_3 : ∀ i : grid0.Coords, EltTy.bits .bf16 = 32 ∨ (Rect.block (s := S4096x128) S512x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .bf16 = 32 ∨ (Rect.block (s := S8192x128) S1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .bf16 = 32 ∨ (Rect.block (s := S8192x128) S1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S512x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S8192x128 : Shape := ⟨2, ![8192, 128]⟩
abbrev S128x8192 : Shape := ⟨2, ![128, 8192]⟩
abbrev S8192x8192 : Shape := ⟨2, ![8192, 8192]⟩
abbrev S4096x2 : Shape := ⟨2, ![4096, 2]⟩
abbrev S8192 : Shape := ⟨1, ![8192]⟩

abbrev nBuf : Space → Nat
  | .hbm => 100
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x128, .f32⟩
  | .hbm, ⟨21, _⟩ => ⟨S4096x128, .f32⟩
  | .hbm, ⟨22, _⟩ => ⟨S8192x128, .f32⟩
  | .hbm, ⟨23, _⟩ => ⟨S128x8192, .f32⟩
  | .hbm, ⟨24, _⟩ => ⟨S8192x8192, .f32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S4096x1, .i32⟩
  | .hbm, ⟨46, _⟩ => ⟨S4096x2, .i32⟩
  | .hbm, ⟨47, _⟩ => ⟨S4096, .f32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S4096x1, .i32⟩
  | .hbm, ⟨69, _⟩ => ⟨S4096x2, .i32⟩
  | .hbm, ⟨70, _⟩ => ⟨S4096, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192, .f32⟩
  | .hbm, ⟨76, _⟩ => ⟨S8192x8192, .i32⟩
  | .hbm, ⟨77, _⟩ => ⟨S8192x8192, .i32⟩
  | .hbm, ⟨78, _⟩ => ⟨S_, .i32⟩
  | .hbm, ⟨79, _⟩ => ⟨S8192x8192, .i32⟩
  | .hbm, ⟨80, _⟩ => ⟨S8192x8192, .i32⟩
  | .hbm, ⟨81, _⟩ => ⟨S8192x8192, .i1⟩
  | .hbm, ⟨82, _⟩ => ⟨S8192x8192, .f32⟩
  | .hbm, ⟨83, _⟩ => ⟨S_, .f32⟩
  | .hbm, ⟨84, _⟩ => ⟨S8192x8192, .f32⟩
  | .hbm, ⟨85, _⟩ => ⟨S8192x8192, .f32⟩
  | .hbm, ⟨86, _⟩ => ⟨S_, .f32⟩
  | .hbm, ⟨87, _⟩ => ⟨S8192x8192, .f32⟩
  | .hbm, ⟨88, _⟩ => ⟨S8192x8192, .f32⟩
  | .hbm, ⟨89, _⟩ => ⟨S8192x8192, .f32⟩
  | .hbm, ⟨90, _⟩ => ⟨S8192x8192, .f32⟩
  | .hbm, ⟨91, _⟩ => ⟨S_, .f32⟩
  | .hbm, ⟨92, _⟩ => ⟨S8192, .f32⟩
  | .hbm, ⟨93, _⟩ => ⟨S8192, .f32⟩
  | .hbm, ⟨94, _⟩ => ⟨S8192, .f32⟩
  | .hbm, ⟨95, _⟩ => ⟨S8192, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_v1 : Ref sig .tc := ⟨.hbm, 26, rfl⟩
abbrev main_call0_c : Ref sig .tc := ⟨.hbm, 27, rfl⟩
abbrev main_call0_v2 : Ref sig .tc := ⟨.hbm, 28, rfl⟩
abbrev main_call0_v3 : Ref sig .tc := ⟨.hbm, 29, rfl⟩
abbrev main_call0_c_0 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c_2 : Ref sig .tc := ⟨.hbm, 37, rfl⟩
abbrev main_call0_v9 : Ref sig .tc := ⟨.hbm, 38, rfl⟩
abbrev main_call0_v10 : Ref sig .tc := ⟨.hbm, 39, rfl⟩
abbrev main_call0_c_3 : Ref sig .tc := ⟨.hbm, 40, rfl⟩
abbrev main_call0_v11 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_v15 : Ref sig .tc := ⟨.hbm, 45, rfl⟩
abbrev main_call0_v16 : Ref sig .tc := ⟨.hbm, 46, rfl⟩
abbrev main_v19 : Ref sig .tc := ⟨.hbm, 47, rfl⟩
abbrev main_call1_v0 : Ref sig .tc := ⟨.hbm, 48, rfl⟩
abbrev main_call1_v1 : Ref sig .tc := ⟨.hbm, 49, rfl⟩
abbrev main_call1_c : Ref sig .tc := ⟨.hbm, 50, rfl⟩
abbrev main_call1_v2 : Ref sig .tc := ⟨.hbm, 51, rfl⟩
abbrev main_call1_v3 : Ref sig .tc := ⟨.hbm, 52, rfl⟩
abbrev main_call1_c_0 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_c_2 : Ref sig .tc := ⟨.hbm, 60, rfl⟩
abbrev main_call1_v9 : Ref sig .tc := ⟨.hbm, 61, rfl⟩
abbrev main_call1_v10 : Ref sig .tc := ⟨.hbm, 62, rfl⟩
abbrev main_call1_c_3 : Ref sig .tc := ⟨.hbm, 63, rfl⟩
abbrev main_call1_v11 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_v15 : Ref sig .tc := ⟨.hbm, 68, rfl⟩
abbrev main_call1_v16 : Ref sig .tc := ⟨.hbm, 69, rfl⟩
abbrev main_v20 : Ref sig .tc := ⟨.hbm, 70, rfl⟩
abbrev main_v21 : Ref sig .tc := ⟨.hbm, 71, rfl⟩
abbrev main_cst_3 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_c : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_cst_4 : Ref sig .tc := ⟨.hbm, 83, rfl⟩
abbrev main_v31 : Ref sig .tc := ⟨.hbm, 84, rfl⟩
abbrev main_v32 : Ref sig .tc := ⟨.hbm, 85, rfl⟩
abbrev main_cst_5 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_cst_6 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_cst_7 : Ref sig .tc := ⟨.hbm, 96, rfl⟩
abbrev main_v41 : Ref sig .tc := ⟨.hbm, 97, rfl⟩
abbrev main_cst_8 : Ref sig .tc := ⟨.hbm, 98, rfl⟩
abbrev main_v42 : Ref sig .tc := ⟨.hbm, 99, rfl⟩

abbrev nD : Nat := 1
abbrev τ : Topo := Topo.v7x

variable {F : FTy → Type} [FloatOps F]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  concatenates_S4096x128_S4096x128_S8192x128_d0 : Shape.Concatenates [S4096x128, S4096x128] S8192x128 0
  transposes_S8192x128_S128x8192_1_0 : S8192x128.Transposes [1, 0] S128x8192
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S8192 : S_.BroadcastsInDim S8192 (![] : Fin 0 → Fin S8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x128_S128x8192_S8192x8192_1_0_0_1_n_n_wf : DotDims.WF S8192x128 S128x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.K.Data.lean ====
/-
  What each of the two kernel regions leaves in its windows' buffers, point by point, stated for any reading of the
  floats. Region 0 (8 points, one per block of 512 rows): the two input blocks stay as fetched; the three outputs
  are the unit rows of each input block and the row-wise inner product of the two. Region 1 (an 8 × 8 grid of
  points t = 8·i + j, row tile i against column tile j): the two input blocks stay as fetched; the output block of
  1024 running denominators is reset at j = 0, has the tile's row sums added, and at i = j has the diagonal term
  taken back out — so its contents after point t are a recursion on t.
  Both input windows of region 1 read one array: each holds half of it.
-/
import proofs.«170189_j19258633355799_1_alg».proof.Proof.Gen.Kernel.Launch
import proofs.«170189_j19258633355799_1_alg».proof.Proof.Gen.Kernel.Skeleton
import proofs.«170189_j19258633355799_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

-- the buffer contents of a core when a region is entered: every statement below is at this parameter
variable (V : (c : Dev nD) → (b : Ref sig .tc) → Buf (Elt F) ((c : Thread nD τ).loc b))

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: inputs stay at their blocks; the outputs are the body's three stored values. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (iblk0 V c 0 t)
    | ⟨3, _⟩ => k0_pay4 (iblk0 V c 1 t)
    | ⟨4, _⟩ => k0_pay5 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (iblk0 V c 0 t) := by dsimp only [dat0]
theorem after0_3 (c : Dev nD) (t : Fin cfg0.N) : (dat0 V c).after 3 t = k0_pay4 (iblk0 V c 1 t) := by dsimp only [dat0]
theorem after0_4 (c : Dev nD) (t : Fin cfg0.N) : (dat0 V c).after 4 t = k0_pay5 (iblk0 V c 0 t) (iblk0 V c 1 t) := by dsimp only [dat0]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's effect on the block of running denominators: at a first column tile (t % 8 = 0) start from the
    stored zeros, else from what the point before left; add the tile's row sums; on the diagonal (t / 8 = t % 8)
    subtract the self term. -/
def accStep (c : Dev nD) (t : Nat) (prev : Vec F S1024x1 .f32) : Vec F S1024x1 .f32 :=
  if h : t < cfg1.N then
    let base : Vec F S1024x1 .f32 := if t % 8 = 0 then k1_pay1 (F := F) else prev
    let s : Vec F S1024x1 .f32 := k1_pay3 (iblk1 V c 0 ⟨t, h⟩) (iblk1 V c 1 ⟨t, h⟩) base
    if t / 8 = t % 8 then k1_pay4 (iblk1 V c 0 ⟨t, h⟩) s else s
  else prev

/-- The block of running denominators after the body at point `t`. -/
def acc1 (c : Dev nD) : Nat → Vec F S1024x1 .f32
  | 0 => accStep V c 0 (k1_pay1 (F := F))
  | t + 1 => accStep V c (t + 1) (acc1 c t)

theorem acc1_zero (c : Dev nD) : acc1 V c 0 = accStep V c 0 (k1_pay1 (F := F)) := rfl
theorem acc1_succ (c : Dev nD) (t : Nat) : acc1 V c (t + 1) = accStep V c (t + 1) (acc1 V c t) := rfl

/-- The two halves of the full share: what each of region 1's input windows holds of the array they both read. -/
def shareA : PosShare TreeShare := (fullShare : PosShare TreeShare).left
def shareB : PosShare TreeShare := (fullShare : PosShare TreeShare).right
/-- The two halves make the whole. -/
theorem shareA_op_shareB : (shareA ·? shareB) = Part.some (fullShare : PosShare TreeShare) := PosShare.left_op_right fullShare

/-- Region 1's proof data: inputs stay at their blocks, each on half of the shared array; the output is `acc1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val
  Φ _ := Pipeline.ΦA spec1 c
  q w := match w with
    | ⟨0, _⟩ => shareA
    | ⟨1, _⟩ => shareB
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val := by dsimp only [dat1]

end Cert.Kernel.Hand

end
-- ==== Proof.K.Body0.lean ====
/-
  Region 0's body, run at any point from its blocks, leaves what the proof data says.
-/
import proofs.«170189_j19258633355799_1_alg».proof.Proof.K.Data
import Idealize.ShloMosaic.Lib.Pipeline.Value

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' buffers hold their blocks -/

/-- The first input's current buffer holds its block of 512 rows at every point: the window is fetched whole,
    is never idle, and the body leaves it as found. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The second input's likewise. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## Whole-buffer loads and stores -/

/-- The offsets of every access of this body: zero on both axes. -/
theorem body0_off_zero : (![0, 0] : Fin 2 → ℕ) = fun _ => 0 :=
  funext fun a => by match a with | ⟨0, _⟩ => rfl | ⟨1, _⟩ => rfl

/-- A load through the whole-shape rectangle at zero offsets reads the buffer's contents. -/
theorem body0_load_whole {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a) :
    v.readAt (Elt F) (Rect.unit off S.size inb).toLoadRect f = v.read (Elt F) f := by
  rw [View.readAt_eq_ld, View.ld_unit_zero h]

/-- One store through that rectangle covers the buffer, so whatever was there before, the buffer reads back as the
    stored value. -/
theorem body0_store_whole {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) :
    v.read (Elt F) (v.writes (Elt F) f [⟨Rect.unit off S.size inb, w⟩]) = w := by
  rw [View.read_writes_eq_canon v f _ (fun y => ⟨_, List.mem_singleton_self _, View.mem_set_unit_zero h inb y⟩),
    View.canon_unit_zero h]

/-! ## The body's triple -/

set_option maxHeartbeats 1000000 in
/-- The body on whole staging memrefs — the two inputs' at read contents `x0`, `x1`, the three outputs' at anything —
    runs to the continuation holding the inputs' as they were and the outputs' at the three stored values: the unit
    rows of `x0`, the unit rows of `x1`, and the row-wise inner products of the two. Each output is first loaded
    (the value is dropped) and then overwritten whole. -/
theorem sound_kernel0 (c : Dev nD) (E : Set ℕ) (i : grid0.Coords)
    (arg1 : Memref sig .tc .vmem S512x128 .f32) (harg1 : arg1.IsWhole)
    (arg2 : Memref sig .tc .vmem S512x128 .f32) (harg2 : arg2.IsWhole)
    (arg3 : Memref sig .tc .vmem S512x128 .bf16) (harg3 : arg3.IsWhole)
    (arg4 : Memref sig .tc .vmem S512x128 .bf16) (harg4 : arg4.IsWhole)
    (arg5 : Memref sig .tc .vmem S512x1 .f32) (harg5 : arg5.IsWhole)
    (x0 x1 : Vec F S512x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x0 ∗ owns (c : Thread nD τ) arg2 fullShare x1
            ∗ owns (c : Thread nD τ) arg3 fullShare (k0_pay3 x0) ∗ owns (c : Thread nD τ) arg4 fullShare (k0_pay4 x1)
            ∗ owns (c : Thread nD τ) arg5 fullShare (k0_pay5 x0 x1)) -∗ K ⟨⟩))
      ⊢ wp frame (wpE (defs₀ (F := F)) Variants.none c none) E
          (cc0__normalize_kernel i arg1 harg1 arg2 harg2 arg3 harg3 arg4 harg4 arg5 harg5) K := by
  simp only [cc0__normalize_kernel_eq_skeleton]; unfold cc0__normalize_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [body0_store_whole _ _ body0_off_zero, body0_load_whole _ _ body0_off_zero]
  isplitl [H3]
  · iexists _; isplitr
    swap; · iexact H3
    ipureintro
    rw [body0_store_whole _ _ body0_off_zero, body0_load_whole _ _ body0_off_zero]
  iexists _; isplitr
  swap; · iexact H4
  ipureintro
  rw [body0_store_whole _ _ body0_off_zero, body0_load_whole _ _ body0_off_zero, body0_load_whole _ _ body0_off_zero]

/-! ## The body obligation, at a generic point -/

/-- What the body is called with at point `t`: the invariant, what the core owes, and the five windows' current
    buffers, each at what it held before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns: the same, the buffers at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, the outputs' hold something, so the body's triple
    applies; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1Run.lean ====
/-
  Region 1's body on any whole staging memrefs, in each of the four control cases of its two conditionals
  (first column tile or not; diagonal tile or not): what it leaves in the block of running denominators.
-/
import proofs.«170189_j19258633355799_1_alg».proof.Proof.K.Data
import Idealize.ShloMosaic.Lib.Pipeline.Value

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, in closed form over the grid -/

/-- The condition of the first conditional: the column-tile coordinate is zero. -/
abbrev cond1_0 (i : grid1.Coords) : Prop :=
  (Scalar.cmpi .ne (Scalar.extui (Scalar.cmpi .eq (BitVec.ofNat 32 (i 1).val) 0#32)) 0#32) = 1#1
/-- The condition of the second conditional: the row-tile and column-tile coordinates agree. -/
abbrev cond1_1 (i : grid1.Coords) : Prop :=
  (Scalar.cmpi .ne (Scalar.extui (Scalar.cmpi .eq (BitVec.ofNat 32 (i 0).val) (BitVec.ofNat 32 (i 1).val))) 0#32) = 1#1

/-- Point t = 8·i + j has j = 0 exactly when t ≡ 0 (mod 8): decided over the 64 points. -/
theorem hcond1_0 : ∀ t : Fin cfg1.N, cond1_0 (grid1.coords t) ↔ t.val % 8 = 0 :=
  (by decide +kernel : ∀ t : Fin grid1.N, cond1_0 (grid1.coords t) ↔ t.val % 8 = 0)
/-- Point t = 8·i + j has i = j exactly when t / 8 = t % 8: decided over the 64 points. -/
theorem hcond1_1 : ∀ t : Fin cfg1.N, cond1_1 (grid1.coords t) ↔ t.val / 8 = t.val % 8 :=
  (by decide +kernel : ∀ t : Fin grid1.N, cond1_1 (grid1.coords t) ↔ t.val / 8 = t.val % 8)

/-! ## Reading back a buffer stored and loaded through its whole rectangle -/

theorem zeros_S1024x1 : (![0, 0] : Fin S1024x1.rank → Nat) = fun _ => 0 := funext fun a => by fin_cases a <;> rfl
theorem zeros_S1024x128 : (![0, 0] : Fin S1024x128.rank → Nat) = fun _ => 0 := funext fun a => by fin_cases a <;> rfl

/-- The whole-buffer rectangle of the block of denominators. -/
abbrev rAcc : Rect S1024x1 := Rect.unit (s := S1024x1) ![0, 0] S1024x1.size inb_S1024x1_S1024x1_0_0
/-- The whole-buffer rectangle of an input tile. -/
abbrev rTile : Rect S1024x128 := Rect.unit (s := S1024x128) ![0, 0] S1024x128.size inb_S1024x128_S1024x128_0_0

/-- After a last store through the whole rectangle the buffer reads as that store's payload, whatever came before. -/
theorem read_writes_whole {κ : Kind} {sp : Space} (v : View sig κ sp S1024x1 .f32) (f : v.ty.Contents (Elt F))
    (w : Vec F S1024x1 .f32) (L : List (View.Piece (Elt F) S1024x1 .f32)) :
    v.read (Elt F) (v.writes (Elt F) f (⟨rAcc, w⟩ :: L)) = w := by
  rw [View.read_writes_eq_canon _ _ _ (fun y => ⟨_, List.mem_cons_self, View.mem_set_unit_zero zeros_S1024x1 inb_S1024x1_S1024x1_0_0 y⟩),
    View.canon_cons_unit_zero zeros_S1024x1]

/-- A load of an input tile through the whole rectangle reads the buffer's contents. -/
theorem readAt_whole_tile {κ : Kind} {sp : Space} (v : View sig κ sp S1024x128 .bf16) (f : v.ty.Contents (Elt F)) :
    v.readAt (Elt F) rTile.toLoadRect f = v.read (Elt F) f := by
  rw [View.readAt_eq_ld, View.ld_unit_zero zeros_S1024x128]

/-- A load of the block of denominators through the whole rectangle reads the buffer's contents. -/
theorem readAt_whole_acc {κ : Kind} {sp : Space} (v : View sig κ sp S1024x1 .f32) (f : v.ty.Contents (Elt F)) :
    v.readAt (Elt F) rAcc.toLoadRect f = v.read (Elt F) f := by
  rw [View.readAt_eq_ld, View.ld_unit_zero zeros_S1024x1]

/-! ## The body's triple, case by case

In every case the two input tiles are only read; the block of denominators is stored through its whole
rectangle, so what it holds at the end is the last store's payload, each earlier store read back by the load
that follows it. -/

set_option maxHeartbeats 1000000 in
/-- First column tile, on the diagonal (the point t = 0): the block is zeroed, the tile's row sums are added, the diagonal term is taken out; whatever the block held before is overwritten unread. -/
theorem run_reset_diag (c : Dev nD) (E : Set ℕ) (i : grid1.Coords)
    (arg2 : Memref sig .tc .vmem S1024x128 .bf16) (harg2 : arg2.IsWhole)
    (arg3 : Memref sig .tc .vmem S1024x128 .bf16) (harg3 : arg3.IsWhole)
    (arg4 : Memref sig .tc .vmem S1024x1 .f32) (harg4 : arg4.IsWhole)
    (hc0 : cond1_0 i) (hc1 : cond1_1 i)
    (x0 x1 : Vec F S1024x128 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k1_pay4 x0 (k1_pay3 x0 x1 (k1_pay1 (F := F))))) -∗ K ⟨⟩))
      ⊢ wp frame (wpE (defs₀ (F := F)) Variants.none c none) E (cc1__contrastive_kernel i arg2 harg2 arg3 harg3 arg4 harg4) K := by
  simp only [cc1__contrastive_kernel_eq_skeleton]; unfold cc1__contrastive_kernel_skel
  unfold owns
  iintro ⟨⟨%f0, %hf0, H0⟩, ⟨%f1, %hf1, H1⟩, ⟨%d2, %f2, -, H2⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try sl_unfold_run_names
  rw [read_writes_whole, readAt_whole_tile arg2.view f0, readAt_whole_tile arg3.view f1]
  simp only [View.readCov_cons_toLoadRect]

set_option maxHeartbeats 1000000 in
/-- First column tile, off the diagonal: the block is zeroed and the tile's row sums are added; whatever the block held before is overwritten unread. -/
theorem run_reset_off (c : Dev nD) (E : Set ℕ) (i : grid1.Coords)
    (arg2 : Memref sig .tc .vmem S1024x128 .bf16) (harg2 : arg2.IsWhole)
    (arg3 : Memref sig .tc .vmem S1024x128 .bf16) (harg3 : arg3.IsWhole)
    (arg4 : Memref sig .tc .vmem S1024x1 .f32) (harg4 : arg4.IsWhole)
    (hc0 : cond1_0 i) (hc1 : ¬cond1_1 i)
    (x0 x1 : Vec F S1024x128 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k1_pay3 x0 x1 (k1_pay1 (F := F)))) -∗ K ⟨⟩))
      ⊢ wp frame (wpE (defs₀ (F := F)) Variants.none c none) E (cc1__contrastive_kernel i arg2 harg2 arg3 harg3 arg4 harg4) K := by
  simp only [cc1__contrastive_kernel_eq_skeleton]; unfold cc1__contrastive_kernel_skel
  unfold owns
  iintro ⟨⟨%f0, %hf0, H0⟩, ⟨%f1, %hf1, H1⟩, ⟨%d2, %f2, -, H2⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try sl_unfold_run_names
  rw [read_writes_whole, readAt_whole_tile arg2.view f0, readAt_whole_tile arg3.view f1]
  simp only [View.readCov_cons_toLoadRect]

set_option maxHeartbeats 1000000 in
/-- A later column tile, on the diagonal: the tile's row sums are added to the block as found, and the diagonal term is taken out. -/
theorem run_carry_diag (c : Dev nD) (E : Set ℕ) (i : grid1.Coords)
    (arg2 : Memref sig .tc .vmem S1024x128 .bf16) (harg2 : arg2.IsWhole)
    (arg3 : Memref sig .tc .vmem S1024x128 .bf16) (harg3 : arg3.IsWhole)
    (arg4 : Memref sig .tc .vmem S1024x1 .f32) (harg4 : arg4.IsWhole)
    (hc0 : ¬cond1_0 i) (hc1 : cond1_1 i)
    (x0 x1 : Vec F S1024x128 .bf16) (xo : Vec F S1024x1 .f32) (K : PUnit → sProp 𝕄) :
    iprop(owns (c : Thread nD τ) arg2 fullShare x0 ∗ owns (c : Thread nD τ) arg3 fullShare x1
        ∗ owns (c : Thread nD τ) arg4 fullShare xo
        ∗ (iprop(owns (c : Thread nD τ) arg2 fullShare x0 ∗ owns (c : Thread nD τ) arg3 fullShare x1
            ∗ owns (c : Thread nD τ) arg4 fullShare (k1_pay4 x0 (k1_pay3 x0 x1 xo))) -∗ K ⟨⟩))
      ⊢ wp frame (wpE (defs₀ (F := F)) Variants.none c none) E (cc1__contrastive_kernel i arg2 harg2 arg3 harg3 arg4 harg4) K := by
  simp only [cc1__contrastive_kernel_eq_skeleton]; unfold cc1__contrastive_kernel_skel
  unfold owns
  iintro ⟨⟨%f0, %hf0, H0⟩, ⟨%f1, %hf1, H1⟩, ⟨%f2, %hf2, H2⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try sl_unfold_run_names
  rw [read_writes_whole, readAt_whole_tile arg2.view f0, readAt_whole_tile arg3.view f1, readAt_whole_acc arg4.view f2]
  simp only [View.readCov_cons_toLoadRect]

set_option maxHeartbeats 1000000 in
/-- A later column tile, off the diagonal: the tile's row sums are added to the block as found. -/
theorem run_carry_off (c : Dev nD) (E : Set ℕ) (i : grid1.Coords)
    (arg2 : Memref sig .tc .vmem S1024x128 .bf16) (harg2 : arg2.IsWhole)
    (arg3 : Memref sig .tc .vmem S1024x128 .bf16) (harg3 : arg3.IsWhole)
    (arg4 : Memref sig .tc .vmem S1024x1 .f32) (harg4 : arg4.IsWhole)
    (hc0 : ¬cond1_0 i) (hc1 : ¬cond1_1 i)
    (x0 x1 : Vec F S1024x128 .bf16) (xo : Vec F S1024x1 .f32) (K : PUnit → sProp 𝕄) :
    iprop(owns (c : Thread nD τ) arg2 fullShare x0 ∗ owns (c : Thread nD τ) arg3 fullShare x1
        ∗ owns (c : Thread nD τ) arg4 fullShare xo
        ∗ (iprop(owns (c : Thread nD τ) arg2 fullShare x0 ∗ owns (c : Thread nD τ) arg3 fullShare x1
            ∗ owns (c : Thread nD τ) arg4 fullShare (k1_pay3 x0 x1 xo)) -∗ K ⟨⟩))
      ⊢ wp frame (wpE (defs₀ (F := F)) Variants.none c none) E (cc1__contrastive_kernel i arg2 harg2 arg3 harg3 arg4 harg4) K := by
  simp only [cc1__contrastive_kernel_eq_skeleton]; unfold cc1__contrastive_kernel_skel
  unfold owns
  iintro ⟨⟨%f0, %hf0, H0⟩, ⟨%f1, %hf1, H1⟩, ⟨%f2, %hf2, H2⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try sl_unfold_run_names
  rw [read_writes_whole, readAt_whole_tile arg2.view f0, readAt_whole_tile arg3.view f1, readAt_whole_acc arg4.view f2]

end Cert.Kernel.Hand

end
-- ==== Proof.K.Body1.lean ====
/-
  Region 1's body, run at any point from its blocks and the running denominators, leaves what the proof data says.
-/
import proofs.«170189_j19258633355799_1_alg».proof.Proof.K.Body1Run

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable (V : (c : Dev nD) → (b : Ref sig .tc) → Buf (Elt F) ((c : Thread nD τ).loc b))

local notation "𝕄" => MT nD τ sig Unit (Elt F) ℕ (UR sig nD τ) ℕ

/-! ## The recursion of the running denominators, one step opened -/

/-- At a first column tile (t ≡ 0 mod 8) a step starts from the stored zeros, whatever came before. -/
theorem accStep_reset (c : Dev nD) (t : Fin cfg1.N) (h0 : t.val % 8 = 0) (prev : Vec F S1024x1 .f32) :
    accStep V c t.val prev =
      if t.val / 8 = t.val % 8 then k1_pay4 (iblk1 V c 0 t) (k1_pay3 (iblk1 V c 0 t) (iblk1 V c 1 t) (k1_pay1 (F := F)))
      else k1_pay3 (iblk1 V c 0 t) (iblk1 V c 1 t) (k1_pay1 (F := F)) := by
  unfold accStep; rw [dif_pos t.isLt]; dsimp only; rw [if_pos h0]

/-- At a later column tile a step starts from what the point before left. -/
theorem accStep_carry (c : Dev nD) (t : Fin cfg1.N) (h0 : ¬t.val % 8 = 0) (prev : Vec F S1024x1 .f32) :
    accStep V c t.val prev =
      if t.val / 8 = t.val % 8 then k1_pay4 (iblk1 V c 0 t) (k1_pay3 (iblk1 V c 0 t) (iblk1 V c 1 t) prev)
      else k1_pay3 (iblk1 V c 0 t) (iblk1 V c 1 t) prev := by
  unfold accStep; rw [dif_pos t.isLt]; dsimp only; rw [if_neg h0]

/-- The denominators after a point on a first column tile. -/
theorem acc1_reset (c : Dev nD) (t : Fin cfg1.N) (h0 : t.val % 8 = 0) :
    acc1 V c t.val =
      if t.val / 8 = t.val % 8 then k1_pay4 (iblk1 V c 0 t) (k1_pay3 (iblk1 V c 0 t) (iblk1 V c 1 t) (k1_pay1 (F := F)))
      else k1_pay3 (iblk1 V c 0 t) (iblk1 V c 1 t) (k1_pay1 (F := F)) := by
  obtain ⟨n, hn⟩ := t
  cases n with
  | zero => exact accStep_reset V c ⟨0, hn⟩ h0 _
  | succ n => exact accStep_reset V c ⟨n + 1, hn⟩ h0 _

/-- The denominators after a point on a later column tile, from those after the point before. -/
theorem acc1_carry (c : Dev nD) (t : Fin cfg1.N) (h0 : ¬t.val % 8 = 0) :
    acc1 V c t.val =
      if t.val / 8 = t.val % 8 then k1_pay4 (iblk1 V c 0 t) (k1_pay3 (iblk1 V c 0 t) (iblk1 V c 1 t) (acc1 V c (t.val - 1)))
      else k1_pay3 (iblk1 V c 0 t) (iblk1 V c 1 t) (acc1 V c (t.val - 1)) := by
  obtain ⟨n, hn⟩ := t
  cases n with
  | zero => exact absurd (Nat.zero_mod 8) h0
  | succ n => exact accStep_carry V c ⟨n + 1, hn⟩ h0 _

/-! ## What the body finds in each window's buffer -/

/-- The row tile's buffer holds its block at every point: fetched at t ≡ 0 (mod 8), and kept through the seven
    points after, the block index depending on the row-tile coordinate alone. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The column tile's buffer holds its block at every point: it is fetched at every point. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- At a later column tile the block of denominators holds what the point before left: that point is in the same
    row tile and not its last, so the block was not written back in between. -/
theorem before1_2 (c : Dev nD) (t : Fin cfg1.N) (h0 : ¬t.val % 8 = 0) (d) :
    (dat1 V c).before 2 t d = acc1 V c (t.val - 1) := by
  have hN : t.val < 64 := lt_of_lt_of_eq t.isLt (show cfg1.N = 64 from N_1)
  rw [Dat.before_out_kept _ 2 rfl t (by omega)
    (Bool.eq_false_iff.mpr fun h => by have := (flush1_2 _).mp h; dsimp only at this; omega)
    (fun _ => rfl) (fun _ _ => rfl), after1_2]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 1000000 in
/-- The body at any point: both tiles' buffers hold their blocks; the point's place in the grid says which of the
    four cases it is in; at a later column tile the block of denominators holds what the point before left; so
    that case's run applies and leaves the recursion's next value. The invariant and what the core owes pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 8 = 0
  · rw [acc1_reset V c t h0]
    by_cases h1 : t.val / 8 = t.val % 8
    · rw [if_pos h1]
      iintro ⟨HΦ, Ho, ⟨%d0, H0⟩, ⟨%d1, H1⟩, ⟨%d2, H2⟩⟩
      iapply (run_reset_diag c Set.univ (grid1.coords t) _ _ _ _ _ _ ((hcond1_0 t).mpr h0) ((hcond1_1 t).mpr h1) (iblk1 V c 0 t) (iblk1 V c 1 t) _)
      isplitl [H0]; · iexact H0
      isplitl [H1]; · iexact H1
      isplitl [H2]; · iexists _; iexact H2
      iintro ⟨H0, H1, H2⟩
      isplitl [HΦ]; · iexact HΦ
      isplitl [Ho]; · iexact Ho
      isplitl [H0]; · iexact H0
      isplitl [H1]; · iexact H1
      iexact H2
    · rw [if_neg h1]
      iintro ⟨HΦ, Ho, ⟨%d0, H0⟩, ⟨%d1, H1⟩, ⟨%d2, H2⟩⟩
      iapply (run_reset_off c Set.univ (grid1.coords t) _ _ _ _ _ _ ((hcond1_0 t).mpr h0) (fun h => h1 ((hcond1_1 t).mp h)) (iblk1 V c 0 t) (iblk1 V c 1 t) _)
      isplitl [H0]; · iexact H0
      isplitl [H1]; · iexact H1
      isplitl [H2]; · iexists _; iexact H2
      iintro ⟨H0, H1, H2⟩
      isplitl [HΦ]; · iexact HΦ
      isplitl [Ho]; · iexact Ho
      isplitl [H0]; · iexact H0
      isplitl [H1]; · iexact H1
      iexact H2
  · rw [acc1_carry V c t h0]
    simp only [before1_2 V c t h0]
    by_cases h1 : t.val / 8 = t.val % 8
    · rw [if_pos h1]
      iintro ⟨HΦ, Ho, ⟨%d0, H0⟩, ⟨%d1, H1⟩, ⟨%d2, H2⟩⟩
      iapply (run_carry_diag c Set.univ (grid1.coords t) _ _ _ _ _ _ (fun h => h0 ((hcond1_0 t).mp h)) ((hcond1_1 t).mpr h1) (iblk1 V c 0 t) (iblk1 V c 1 t) (acc1 V c (t.val - 1)) _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2
    · rw [if_neg h1]
      iintro ⟨HΦ, Ho, ⟨%d0, H0⟩, ⟨%d1, H1⟩, ⟨%d2, H2⟩⟩
      iapply (run_carry_off c Set.univ (grid1.coords t) _ _ _ _ _ _ (fun h => h0 ((hcond1_0 t).mp h)) (fun h => h1 ((hcond1_1 t).mp h)) (iblk1 V c 0 t) (iblk1 V c 1 t) (acc1 V c (t.val - 1)) _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2

/-- The body obligation of region 1, at every point of its grid. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Shared.lean ====
/-
  Region 1 reads one array through two windows and writes another through a third. The buffers behind its windows
  are therefore two, not three. At entry the read array's buffer, held whole, is split into two halves holding the
  same contents, one for each reading window; at exit the halves — still at the entry contents, the array being
  only read — are joined again, and the written array comes back at what the write-backs left.
-/
import proofs.«170189_j19258633355799_1_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A buffer held whole is its two halves, at the same contents. -/
theorem halves {ℓ : Loc nD τ sig} (f : Buf (Elt F) ℓ) :
    (ℓ ↦{fullShare} f : sProp 𝕄) ⊣⊢ iprop((ℓ ↦{shareA} f) ∗ ℓ ↦{shareB} f) :=
  pointsTo_share (by rw [shareA_op_shareB]; exact Part.mem_some _)

/-- The buffers behind region 1's three windows are two. -/
theorem arrBufs1_eq (c : Dev nD) (Vc : (b : Ref sig .tc) → Buf (Elt F) ((c : Thread nD τ).loc b)) :
    (Pipeline.arrBufs spec1 c Vc : sProp 𝕄)
      = iprop((((c : Thread nD τ).loc main_v1) ↦{fullShare} Vc main_v1) ∗ (((c : Thread nD τ).loc main_v2) ↦{fullShare} Vc main_v2)) := by
  unfold Pipeline.arrBufs
  rw [show (Finset.univ.image (Pipeline.arrRef spec1)) = ({main_v1, main_v2} : Finset (Ref sig .tc)) from by decide,
    bigSep_insert (by decide), bigSep_singleton]
  rfl

variable (V : (c : Dev nD) → (b : Ref sig .tc) → Buf (Elt F) ((c : Thread nD τ).loc b))

/-- Region 1's arrays, window by window: the read array at one half for each reading window, the written one whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v1) ↦{shareA} G 0) ∗ (((c : Thread nD τ).loc main_v1) ↦{shareB} G 1)
          ∗ (((c : Thread nD τ).loc main_v2) ↦{fullShare} G 2)) := by
  unfold Dat.arrays
  rw [bigSep_W1, (arr_whole1 0).set_eq_univ, (arr_whole1 2).set_eq_univ]
  rfl

/-- ENTRY: the core's unscoped buffers at `V` are region 1's arrays at their entry contents and the rest. -/
theorem entry1 (c : Dev nD) :
    (unscopedBufs c (V c) : sProp 𝕄) ⊢ iprop((dat1 V c).arrays ((dat1 V c).arrAt · 0) ∗ Pipeline.unscopedRest spec1 c (V c)) := by
  rw [show (unscopedBufs c (V c) : sProp 𝕄) = iprop(Pipeline.arrBufs spec1 c (V c) ∗ Pipeline.unscopedRest spec1 c (V c))
      from Pipeline.unscopedBufs_split₀ cfgs 1 winFacts₀1.arr_unscoped c (V c), arrBufs1_eq, arrays1_eq]
  iintro ⟨⟨H1, H2⟩, Hr⟩
  ihave H1' := (halves (F := F) (V c main_v1)).mp $$ H1
  icases H1' with ⟨Ha, Hb⟩
  isplitr [Hr]
  · isplitl [Ha]; · iexact Ha
    isplitl [Hb]; · iexact Hb
    iexact H2
  iexact Hr

/-- EXIT: region 1's arrays at their final contents and the rest are the core's unscoped buffers at any contents `V'`
    that has the written array at what the write-backs left and agrees with `V` everywhere else. -/
theorem exit1 (c : Dev nD) (V' : (b : Ref sig .tc) → Buf (Elt F) ((c : Thread nD τ).loc b))
    (hv2 : V' main_v2 = (dat1 V c).arrAt 2 cfg1.N) (hrest : ∀ b, b ≠ main_v2 → V' b = V c b) :
    iprop((dat1 V c).arrays ((dat1 V c).arrAt · cfg1.N) ∗ Pipeline.unscopedRest spec1 c (V c)) ⊢ (unscopedBufs c V' : sProp 𝕄) := by
  rw [show (unscopedBufs c V' : sProp 𝕄) = iprop(Pipeline.arrBufs spec1 c V' ∗ Pipeline.unscopedRest spec1 c V')
      from Pipeline.unscopedBufs_split₀ cfgs 1 winFacts₀1.arr_unscoped c V', arrBufs1_eq, arrays1_eq]
  have e0 : (dat1 V c).arrAt 0 cfg1.N = V c main_v1 := ((dat1 V c).arrAt_in 0 rfl _).trans (A_eq1 V c 0)
  have e1 : (dat1 V c).arrAt 1 cfg1.N = V c main_v1 := ((dat1 V c).arrAt_in 1 rfl _).trans (A_eq1 V c 1)
  have hrestEq : (Pipeline.unscopedRest spec1 c (V c) : sProp 𝕄) = Pipeline.unscopedRest spec1 c V' := by
    unfold Pipeline.unscopedRest
    refine bigSep_congr fun b hb => ?_
    rw [hrest b (fun e => (Finset.mem_sdiff.mp hb).2 (Finset.mem_image.mpr ⟨2, Finset.mem_univ _, e ▸ rfl⟩))]
  rw [e0, e1, hrestEq, hv2, hrest main_v1 (by decide)]
  iintro ⟨⟨Ha, Hb, H2⟩, Hr⟩
  isplitr [Hr]
  · isplitr [H2]
    · iapply (halves (F := F) (V c main_v1)).mpr
      isplitl [Ha]; · iexact Ha
      iexact Hb
    iexact H2
  iexact Hr

end Cert.Kernel.Hand

end
-- ==== Proof.K.Run.lean ====
/-
  The whole program as a chain of four segments — region 0, the concatenation of its two unit-row arrays, region 1,
  the ten host operations that turn denominators and positive-pair products into the mean loss — run from any
  launch memory, for any reading of the floats. Between segments every buffer that outlives a region is held at
  named contents: the launch memory; then region 0's three output arrays at what its write-backs leave; then the
  concatenation; then region 1's output array at what its write-backs leave; then the host operations' results.
  Region 1 reads ONE array through two windows: at entry the array's buffer is split into two halves, one per
  window, and at exit the halves are joined again (the array is only read, so both halves still hold the entry
  contents).
-/
import proofs.«170189_j19258633355799_1_alg».proof.Proof.K.Body0
import proofs.«170189_j19258633355799_1_alg».proof.Proof.K.Body1
import proofs.«170189_j19258633355799_1_alg».proof.Proof.K.Shared
import Idealize.ShloMosaic.Lib.Ring

set_option maxRecDepth 16384

noncomputable section

namespace Cert.Kernel.Hand

open Idealize.ShloMosaic Idealize.ShloMosaic.TcCoe Idealize.ShloMosaic.Tactic
open Idealize.SL Idealize.SL.RA Idealize.SL.BI
open PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- The same read at the TensorCore's references: what region 0 is entered from. -/
abbrev V0 : (c : Dev nD) → (b : Ref sig .tc) → Buf (Elt F) ((c : Thread nD τ).loc b) := fun c b => W0 m ρ c b
/-- After region 0: its output arrays at what the write-backs leave, every other buffer as launched. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After the concatenation: what region 1 is entered from. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After region 1: its output array at what the write-backs leave, every other buffer as it was entered. -/
def W3 (c : Dev nD) : Valuation τ sig (Elt F) :=
  Function.update (W2 m ρ c) (Proc.devRef .tc main_v2) ((dat1 (V2 m ρ) c).arrAt 2 cfg1.N)
abbrev V3 : (c : Dev nD) → (b : Ref sig .tc) → Buf (Elt F) ((c : Thread nD τ).loc b) := fun c b => W3 m ρ c b
theorem W3_v2 (c : Dev nD) : W3 m ρ c (Proc.devRef .tc main_v2) = (dat1 (V2 m ρ) c).arrAt 2 cfg1.N := by
  unfold W3; exact Function.update_self ..
theorem W3_of_ne (c : Dev nD) (b : Ref sig .tc) (hb : b ≠ main_v2) :
    W3 m ρ c (Proc.devRef .tc b) = W2 m ρ c (Proc.devRef .tc b) := by
  unfold W3; exact Function.update_of_ne (StableHlo.devRef_ne_of_ne hb) ..
/-- After the ten host operations: the end. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0: entered from every unscoped buffer at the launch contents, left with its outputs written. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from the buffers after the concatenation, left with its output array written. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄)
        ⊢ iprop((pdats m ρ 1 c).arrays ((pdats m ρ 1 c).arrAt · 0) ∗ Pipeline.unscopedRest spec1 c (V2 m ρ c)) := entry1 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V2 m ρ c))
        ⊢ (unscopedBufs c (V3 m ρ c) : sProp 𝕄) :=
      exit1 (V2 m ρ) c (V3 m ρ c) (W3_v2 m ρ c) (fun b hb => W3_of_ne m ρ c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- Every weakly fair execution of the program from memory `m` terminates, nothing faulting, and every final state
    has each buffer that outlives the regions at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Hand

end
-- ==== Proof.K.Args.lean ====
/-
  No segment writes an argument array: the host stretches write other buffers, region 0 only reads the two
  arguments through input windows, region 1 does not touch them. So at the last boundary each argument's buffer
  holds what it held at launch.
-/
import proofs.«170189_j19258633355799_1_alg».proof.Proof.K.Run
import proofs.«170189_j19258633355799_1_alg».proof.Proof.Gen.Kernel.Regions

set_option maxRecDepth 16384

noncomputable section

namespace Cert.Kernel.Hand

open Idealize.ShloMosaic Idealize.ShloMosaic.TcCoe Idealize.SL.Sem
open Idealize.ShloMosaic.Pipeline (Dat)
open Cert.Kernel Cert.Kernel.Gen

variable {F : FTy → Type} [FloatOps F]
variable (m : (ℓ : Loc nD τ sig) → Buf (Elt F) ℓ) (ρ : Dev nD → PrngReg)

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

/-- The program runs to the end, faults nowhere, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run_main m ρ)

end Cert.Kernel.Hand

end
-- ==== Proof.KI.Data.lean ====
/-
  What each of the two kernel regions leaves in its windows' buffers, point by point, stated for any reading of the
  floats. Region 0 (8 points, one per block of 512 rows): the two input blocks stay as fetched; the three outputs
  are the unit rows of each input block and the row-wise inner product of the two. Region 1 (an 8 × 8 grid of
  points t = 8·i + j, row tile i against column tile j): the two input blocks stay as fetched; the output block of
  1024 running denominators is reset at j = 0, has the tile's row sums added, and at i = j has the diagonal term
  taken back out — so its contents after point t are a recursion on t.
  Both input windows of region 1 read one array: each holds half of it.
-/
import proofs.«170189_j19258633355799_1_alg».proof.Proof.Gen.KernelIdeal.Launch
import proofs.«170189_j19258633355799_1_alg».proof.Proof.Gen.KernelIdeal.Skeleton
import proofs.«170189_j19258633355799_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

-- the buffer contents of a core when a region is entered: every statement below is at this parameter
variable (V : (c : Dev nD) → (b : Ref sig .tc) → Buf (Elt F) ((c : Thread nD τ).loc b))

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: inputs stay at their blocks; the outputs are the body's three stored values. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (iblk0 V c 0 t)
    | ⟨3, _⟩ => k0_pay4 (iblk0 V c 1 t)
    | ⟨4, _⟩ => k0_pay5 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (iblk0 V c 0 t) := by dsimp only [dat0]
theorem after0_3 (c : Dev nD) (t : Fin cfg0.N) : (dat0 V c).after 3 t = k0_pay4 (iblk0 V c 1 t) := by dsimp only [dat0]
theorem after0_4 (c : Dev nD) (t : Fin cfg0.N) : (dat0 V c).after 4 t = k0_pay5 (iblk0 V c 0 t) (iblk0 V c 1 t) := by dsimp only [dat0]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's effect on the block of running denominators: at a first column tile (t % 8 = 0) start from the
    stored zeros, else from what the point before left; add the tile's row sums; on the diagonal (t / 8 = t % 8)
    subtract the self term. -/
def accStep (c : Dev nD) (t : Nat) (prev : Vec F S1024x1 .f32) : Vec F S1024x1 .f32 :=
  if h : t < cfg1.N then
    let base : Vec F S1024x1 .f32 := if t % 8 = 0 then k1_pay1 (F := F) else prev
    let s : Vec F S1024x1 .f32 := k1_pay3 (iblk1 V c 0 ⟨t, h⟩) (iblk1 V c 1 ⟨t, h⟩) base
    if t / 8 = t % 8 then k1_pay4 (iblk1 V c 0 ⟨t, h⟩) s else s
  else prev

/-- The block of running denominators after the body at point `t`. -/
def acc1 (c : Dev nD) : Nat → Vec F S1024x1 .f32
  | 0 => accStep V c 0 (k1_pay1 (F := F))
  | t + 1 => accStep V c (t + 1) (acc1 c t)

theorem acc1_zero (c : Dev nD) : acc1 V c 0 = accStep V c 0 (k1_pay1 (F := F)) := rfl
theorem acc1_succ (c : Dev nD) (t : Nat) : acc1 V c (t + 1) = accStep V c (t + 1) (acc1 V c t) := rfl

/-- The two halves of the full share: what each of region 1's input windows holds of the array they both read. -/
def shareA : PosShare TreeShare := (fullShare : PosShare TreeShare).left
def shareB : PosShare TreeShare := (fullShare : PosShare TreeShare).right
/-- The two halves make the whole. -/
theorem shareA_op_shareB : (shareA ·? shareB) = Part.some (fullShare : PosShare TreeShare) := PosShare.left_op_right fullShare

/-- Region 1's proof data: inputs stay at their blocks, each on half of the shared array; the output is `acc1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val
  Φ _ := Pipeline.ΦA spec1 c
  q w := match w with
    | ⟨0, _⟩ => shareA
    | ⟨1, _⟩ => shareB
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val := by dsimp only [dat1]

end Cert.KernelIdeal.Hand

end
-- ==== Proof.KI.Body0.lean ====
/-
  Region 0's body, run at any point from its blocks, leaves what the proof data says.
-/
import proofs.«170189_j19258633355799_1_alg».proof.Proof.KI.Data
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs' buffers hold their blocks -/

/-- The first input's current buffer holds its block of 512 rows at every point: the window is fetched whole,
    is never idle, and the body leaves it as found. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- The second input's likewise. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## Whole-buffer loads and stores -/

/-- The offsets of every access of this body: zero on both axes. -/
theorem body0_off_zero : (![0, 0] : Fin 2 → ℕ) = fun _ => 0 :=
  funext fun a => by match a with | ⟨0, _⟩ => rfl | ⟨1, _⟩ => rfl

/-- A load through the whole-shape rectangle at zero offsets reads the buffer's contents. -/
theorem body0_load_whole {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a) :
    v.readAt (Elt F) (Rect.unit off S.size inb).toLoadRect f = v.read (Elt F) f := by
  rw [View.readAt_eq_ld, View.ld_unit_zero h]

/-- One store through that rectangle covers the buffer, so whatever was there before, the buffer reads back as the
    stored value. -/
theorem body0_store_whole {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) :
    v.read (Elt F) (v.writes (Elt F) f [⟨Rect.unit off S.size inb, w⟩]) = w := by
  rw [View.read_writes_eq_canon v f _ (fun y => ⟨_, List.mem_singleton_self _, View.mem_set_unit_zero h inb y⟩),
    View.canon_unit_zero h]

/-! ## The body's triple -/

set_option maxHeartbeats 1000000 in
/-- The body on whole staging memrefs — the two inputs' at read contents `x0`, `x1`, the three outputs' at anything —
    runs to the continuation holding the inputs' as they were and the outputs' at the three stored values: the unit
    rows of `x0`, the unit rows of `x1`, and the row-wise inner products of the two. Each output is first loaded
    (the value is dropped) and then overwritten whole. -/
theorem sound_kernel0 (c : Dev nD) (E : Set ℕ) (i : grid0.Coords)
    (arg1 : Memref sig .tc .vmem S512x128 .f32) (harg1 : arg1.IsWhole)
    (arg2 : Memref sig .tc .vmem S512x128 .f32) (harg2 : arg2.IsWhole)
    (arg3 : Memref sig .tc .vmem S512x128 .bf16) (harg3 : arg3.IsWhole)
    (arg4 : Memref sig .tc .vmem S512x128 .bf16) (harg4 : arg4.IsWhole)
    (arg5 : Memref sig .tc .vmem S512x1 .f32) (harg5 : arg5.IsWhole)
    (x0 x1 : Vec F S512x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d)
        ∗ (iprop(owns (c : Thread nD τ) arg1 fullShare x0 ∗ owns (c : Thread nD τ) arg2 fullShare x1
            ∗ owns (c : Thread nD τ) arg3 fullShare (k0_pay3 x0) ∗ owns (c : Thread nD τ) arg4 fullShare (k0_pay4 x1)
            ∗ owns (c : Thread nD τ) arg5 fullShare (k0_pay5 x0 x1)) -∗ K ⟨⟩))
      ⊢ wp frame (wpE (defs₀ (F := F)) Variants.none c none) E
          (cc0__normalize_kernel i arg1 harg1 arg2 harg2 arg3 harg3 arg4 harg4 arg5 harg5) K := by
  simp only [cc0__normalize_kernel_eq_skeleton]; unfold cc0__normalize_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [body0_store_whole _ _ body0_off_zero, body0_load_whole _ _ body0_off_zero]
  isplitl [H3]
  · iexists _; isplitr
    swap; · iexact H3
    ipureintro
    rw [body0_store_whole _ _ body0_off_zero, body0_load_whole _ _ body0_off_zero]
  iexists _; isplitr
  swap; · iexact H4
  ipureintro
  rw [body0_store_whole _ _ body0_off_zero, body0_load_whole _ _ body0_off_zero, body0_load_whole _ _ body0_off_zero]

/-! ## The body obligation, at a generic point -/

/-- What the body is called with at point `t`: the invariant, what the core owes, and the five windows' current
    buffers, each at what it held before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns: the same, the buffers at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, the outputs' hold something, so the body's triple
    applies; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1Run.lean ====
/-
  Region 1's body on any whole staging memrefs, in each of the four control cases of its two conditionals
  (first column tile or not; diagonal tile or not): what it leaves in the block of running denominators.
-/
import proofs.«170189_j19258633355799_1_alg».proof.Proof.KI.Data
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, in closed form over the grid -/

/-- The condition of the first conditional: the column-tile coordinate is zero. -/
abbrev cond1_0 (i : grid1.Coords) : Prop :=
  (Scalar.cmpi .ne (Scalar.extui (Scalar.cmpi .eq (BitVec.ofNat 32 (i 1).val) 0#32)) 0#32) = 1#1
/-- The condition of the second conditional: the row-tile and column-tile coordinates agree. -/
abbrev cond1_1 (i : grid1.Coords) : Prop :=
  (Scalar.cmpi .ne (Scalar.extui (Scalar.cmpi .eq (BitVec.ofNat 32 (i 0).val) (BitVec.ofNat 32 (i 1).val))) 0#32) = 1#1

/-- Point t = 8·i + j has j = 0 exactly when t ≡ 0 (mod 8): decided over the 64 points. -/
theorem hcond1_0 : ∀ t : Fin cfg1.N, cond1_0 (grid1.coords t) ↔ t.val % 8 = 0 :=
  (by decide +kernel : ∀ t : Fin grid1.N, cond1_0 (grid1.coords t) ↔ t.val % 8 = 0)
/-- Point t = 8·i + j has i = j exactly when t / 8 = t % 8: decided over the 64 points. -/
theorem hcond1_1 : ∀ t : Fin cfg1.N, cond1_1 (grid1.coords t) ↔ t.val / 8 = t.val % 8 :=
  (by decide +kernel : ∀ t : Fin grid1.N, cond1_1 (grid1.coords t) ↔ t.val / 8 = t.val % 8)

/-! ## Reading back a buffer stored and loaded through its whole rectangle -/

theorem zeros_S1024x1 : (![0, 0] : Fin S1024x1.rank → Nat) = fun _ => 0 := funext fun a => by fin_cases a <;> rfl
theorem zeros_S1024x128 : (![0, 0] : Fin S1024x128.rank → Nat) = fun _ => 0 := funext fun a => by fin_cases a <;> rfl

/-- The whole-buffer rectangle of the block of denominators. -/
abbrev rAcc : Rect S1024x1 := Rect.unit (s := S1024x1) ![0, 0] S1024x1.size inb_S1024x1_S1024x1_0_0
/-- The whole-buffer rectangle of an input tile. -/
abbrev rTile : Rect S1024x128 := Rect.unit (s := S1024x128) ![0, 0] S1024x128.size inb_S1024x128_S1024x128_0_0

/-- After a last store through the whole rectangle the buffer reads as that store's payload, whatever came before. -/
theorem read_writes_whole {κ : Kind} {sp : Space} (v : View sig κ sp S1024x1 .f32) (f : v.ty.Contents (Elt F))
    (w : Vec F S1024x1 .f32) (L : List (View.Piece (Elt F) S1024x1 .f32)) :
    v.read (Elt F) (v.writes (Elt F) f (⟨rAcc, w⟩ :: L)) = w := by
  rw [View.read_writes_eq_canon _ _ _ (fun y => ⟨_, List.mem_cons_self, View.mem_set_unit_zero zeros_S1024x1 inb_S1024x1_S1024x1_0_0 y⟩),
    View.canon_cons_unit_zero zeros_S1024x1]

/-- A load of an input tile through the whole rectangle reads the buffer's contents. -/
theorem readAt_whole_tile {κ : Kind} {sp : Space} (v : View sig κ sp S1024x128 .bf16) (f : v.ty.Contents (Elt F)) :
    v.readAt (Elt F) rTile.toLoadRect f = v.read (Elt F) f := by
  rw [View.readAt_eq_ld, View.ld_unit_zero zeros_S1024x128]

/-- A load of the block of denominators through the whole rectangle reads the buffer's contents. -/
theorem readAt_whole_acc {κ : Kind} {sp : Space} (v : View sig κ sp S1024x1 .f32) (f : v.ty.Contents (Elt F)) :
    v.readAt (Elt F) rAcc.toLoadRect f = v.read (Elt F) f := by
  rw [View.readAt_eq_ld, View.ld_unit_zero zeros_S1024x1]

/-! ## The body's triple, case by case

In every case the two input tiles are only read; the block of denominators is stored through its whole
rectangle, so what it holds at the end is the last store's payload, each earlier store read back by the load
that follows it. -/

set_option maxHeartbeats 1000000 in
/-- First column tile, on the diagonal (the point t = 0): the block is zeroed, the tile's row sums are added, the diagonal term is taken out; whatever the block held before is overwritten unread. -/
theorem run_reset_diag (c : Dev nD) (E : Set ℕ) (i : grid1.Coords)
    (arg2 : Memref sig .tc .vmem S1024x128 .bf16) (harg2 : arg2.IsWhole)
    (arg3 : Memref sig .tc .vmem S1024x128 .bf16) (harg3 : arg3.IsWhole)
    (arg4 : Memref sig .tc .vmem S1024x1 .f32) (harg4 : arg4.IsWhole)
    (hc0 : cond1_0 i) (hc1 : cond1_1 i)
    (x0 x1 : Vec F S1024x128 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k1_pay4 x0 (k1_pay3 x0 x1 (k1_pay1 (F := F))))) -∗ K ⟨⟩))
      ⊢ wp frame (wpE (defs₀ (F := F)) Variants.none c none) E (cc1__contrastive_kernel i arg2 harg2 arg3 harg3 arg4 harg4) K := by
  simp only [cc1__contrastive_kernel_eq_skeleton]; unfold cc1__contrastive_kernel_skel
  unfold owns
  iintro ⟨⟨%f0, %hf0, H0⟩, ⟨%f1, %hf1, H1⟩, ⟨%d2, %f2, -, H2⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try sl_unfold_run_names
  rw [read_writes_whole, readAt_whole_tile arg2.view f0, readAt_whole_tile arg3.view f1]
  simp only [View.readCov_cons_toLoadRect]

set_option maxHeartbeats 1000000 in
/-- First column tile, off the diagonal: the block is zeroed and the tile's row sums are added; whatever the block held before is overwritten unread. -/
theorem run_reset_off (c : Dev nD) (E : Set ℕ) (i : grid1.Coords)
    (arg2 : Memref sig .tc .vmem S1024x128 .bf16) (harg2 : arg2.IsWhole)
    (arg3 : Memref sig .tc .vmem S1024x128 .bf16) (harg3 : arg3.IsWhole)
    (arg4 : Memref sig .tc .vmem S1024x1 .f32) (harg4 : arg4.IsWhole)
    (hc0 : cond1_0 i) (hc1 : ¬cond1_1 i)
    (x0 x1 : Vec F S1024x128 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k1_pay3 x0 x1 (k1_pay1 (F := F)))) -∗ K ⟨⟩))
      ⊢ wp frame (wpE (defs₀ (F := F)) Variants.none c none) E (cc1__contrastive_kernel i arg2 harg2 arg3 harg3 arg4 harg4) K := by
  simp only [cc1__contrastive_kernel_eq_skeleton]; unfold cc1__contrastive_kernel_skel
  unfold owns
  iintro ⟨⟨%f0, %hf0, H0⟩, ⟨%f1, %hf1, H1⟩, ⟨%d2, %f2, -, H2⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try sl_unfold_run_names
  rw [read_writes_whole, readAt_whole_tile arg2.view f0, readAt_whole_tile arg3.view f1]
  simp only [View.readCov_cons_toLoadRect]

set_option maxHeartbeats 1000000 in
/-- A later column tile, on the diagonal: the tile's row sums are added to the block as found, and the diagonal term is taken out. -/
theorem run_carry_diag (c : Dev nD) (E : Set ℕ) (i : grid1.Coords)
    (arg2 : Memref sig .tc .vmem S1024x128 .bf16) (harg2 : arg2.IsWhole)
    (arg3 : Memref sig .tc .vmem S1024x128 .bf16) (harg3 : arg3.IsWhole)
    (arg4 : Memref sig .tc .vmem S1024x1 .f32) (harg4 : arg4.IsWhole)
    (hc0 : ¬cond1_0 i) (hc1 : cond1_1 i)
    (x0 x1 : Vec F S1024x128 .bf16) (xo : Vec F S1024x1 .f32) (K : PUnit → sProp 𝕄) :
    iprop(owns (c : Thread nD τ) arg2 fullShare x0 ∗ owns (c : Thread nD τ) arg3 fullShare x1
        ∗ owns (c : Thread nD τ) arg4 fullShare xo
        ∗ (iprop(owns (c : Thread nD τ) arg2 fullShare x0 ∗ owns (c : Thread nD τ) arg3 fullShare x1
            ∗ owns (c : Thread nD τ) arg4 fullShare (k1_pay4 x0 (k1_pay3 x0 x1 xo))) -∗ K ⟨⟩))
      ⊢ wp frame (wpE (defs₀ (F := F)) Variants.none c none) E (cc1__contrastive_kernel i arg2 harg2 arg3 harg3 arg4 harg4) K := by
  simp only [cc1__contrastive_kernel_eq_skeleton]; unfold cc1__contrastive_kernel_skel
  unfold owns
  iintro ⟨⟨%f0, %hf0, H0⟩, ⟨%f1, %hf1, H1⟩, ⟨%f2, %hf2, H2⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try sl_unfold_run_names
  rw [read_writes_whole, readAt_whole_tile arg2.view f0, readAt_whole_tile arg3.view f1, readAt_whole_acc arg4.view f2]
  simp only [View.readCov_cons_toLoadRect]

set_option maxHeartbeats 1000000 in
/-- A later column tile, off the diagonal: the tile's row sums are added to the block as found. -/
theorem run_carry_off (c : Dev nD) (E : Set ℕ) (i : grid1.Coords)
    (arg2 : Memref sig .tc .vmem S1024x128 .bf16) (harg2 : arg2.IsWhole)
    (arg3 : Memref sig .tc .vmem S1024x128 .bf16) (harg3 : arg3.IsWhole)
    (arg4 : Memref sig .tc .vmem S1024x1 .f32) (harg4 : arg4.IsWhole)
    (hc0 : ¬cond1_0 i) (hc1 : ¬cond1_1 i)
    (x0 x1 : Vec F S1024x128 .bf16) (xo : Vec F S1024x1 .f32) (K : PUnit → sProp 𝕄) :
    iprop(owns (c : Thread nD τ) arg2 fullShare x0 ∗ owns (c : Thread nD τ) arg3 fullShare x1
        ∗ owns (c : Thread nD τ) arg4 fullShare xo
        ∗ (iprop(owns (c : Thread nD τ) arg2 fullShare x0 ∗ owns (c : Thread nD τ) arg3 fullShare x1
            ∗ owns (c : Thread nD τ) arg4 fullShare (k1_pay3 x0 x1 xo)) -∗ K ⟨⟩))
      ⊢ wp frame (wpE (defs₀ (F := F)) Variants.none c none) E (cc1__contrastive_kernel i arg2 harg2 arg3 harg3 arg4 harg4) K := by
  simp only [cc1__contrastive_kernel_eq_skeleton]; unfold cc1__contrastive_kernel_skel
  unfold owns
  iintro ⟨⟨%f0, %hf0, H0⟩, ⟨%f1, %hf1, H1⟩, ⟨%f2, %hf2, H2⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try sl_unfold_run_names
  rw [read_writes_whole, readAt_whole_tile arg2.view f0, readAt_whole_tile arg3.view f1, readAt_whole_acc arg4.view f2]

end Cert.KernelIdeal.Hand

end
-- ==== Proof.KI.Body1.lean ====
/-
  Region 1's body, run at any point from its blocks and the running denominators, leaves what the proof data says.
-/
import proofs.«170189_j19258633355799_1_alg».proof.Proof.KI.Body1Run

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (V : (c : Dev nD) → (b : Ref sig .tc) → Buf (Elt F) ((c : Thread nD τ).loc b))

local notation "𝕄" => MT nD τ sig Unit (Elt F) ℕ (UR sig nD τ) ℕ

/-! ## The recursion of the running denominators, one step opened -/

/-- At a first column tile (t ≡ 0 mod 8) a step starts from the stored zeros, whatever came before. -/
theorem accStep_reset (c : Dev nD) (t : Fin cfg1.N) (h0 : t.val % 8 = 0) (prev : Vec F S1024x1 .f32) :
    accStep V c t.val prev =
      if t.val / 8 = t.val % 8 then k1_pay4 (iblk1 V c 0 t) (k1_pay3 (iblk1 V c 0 t) (iblk1 V c 1 t) (k1_pay1 (F := F)))
      else k1_pay3 (iblk1 V c 0 t) (iblk1 V c 1 t) (k1_pay1 (F := F)) := by
  unfold accStep; rw [dif_pos t.isLt]; dsimp only; rw [if_pos h0]

/-- At a later column tile a step starts from what the point before left. -/
theorem accStep_carry (c : Dev nD) (t : Fin cfg1.N) (h0 : ¬t.val % 8 = 0) (prev : Vec F S1024x1 .f32) :
    accStep V c t.val prev =
      if t.val / 8 = t.val % 8 then k1_pay4 (iblk1 V c 0 t) (k1_pay3 (iblk1 V c 0 t) (iblk1 V c 1 t) prev)
      else k1_pay3 (iblk1 V c 0 t) (iblk1 V c 1 t) prev := by
  unfold accStep; rw [dif_pos t.isLt]; dsimp only; rw [if_neg h0]

/-- The denominators after a point on a first column tile. -/
theorem acc1_reset (c : Dev nD) (t : Fin cfg1.N) (h0 : t.val % 8 = 0) :
    acc1 V c t.val =
      if t.val / 8 = t.val % 8 then k1_pay4 (iblk1 V c 0 t) (k1_pay3 (iblk1 V c 0 t) (iblk1 V c 1 t) (k1_pay1 (F := F)))
      else k1_pay3 (iblk1 V c 0 t) (iblk1 V c 1 t) (k1_pay1 (F := F)) := by
  obtain ⟨n, hn⟩ := t
  cases n with
  | zero => exact accStep_reset V c ⟨0, hn⟩ h0 _
  | succ n => exact accStep_reset V c ⟨n + 1, hn⟩ h0 _

/-- The denominators after a point on a later column tile, from those after the point before. -/
theorem acc1_carry (c : Dev nD) (t : Fin cfg1.N) (h0 : ¬t.val % 8 = 0) :
    acc1 V c t.val =
      if t.val / 8 = t.val % 8 then k1_pay4 (iblk1 V c 0 t) (k1_pay3 (iblk1 V c 0 t) (iblk1 V c 1 t) (acc1 V c (t.val - 1)))
      else k1_pay3 (iblk1 V c 0 t) (iblk1 V c 1 t) (acc1 V c (t.val - 1)) := by
  obtain ⟨n, hn⟩ := t
  cases n with
  | zero => exact absurd (Nat.zero_mod 8) h0
  | succ n => exact accStep_carry V c ⟨n + 1, hn⟩ h0 _

/-! ## What the body finds in each window's buffer -/

/-- The row tile's buffer holds its block at every point: fetched at t ≡ 0 (mod 8), and kept through the seven
    points after, the block index depending on the row-tile coordinate alone. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The column tile's buffer holds its block at every point: it is fetched at every point. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- At a later column tile the block of denominators holds what the point before left: that point is in the same
    row tile and not its last, so the block was not written back in between. -/
theorem before1_2 (c : Dev nD) (t : Fin cfg1.N) (h0 : ¬t.val % 8 = 0) (d) :
    (dat1 V c).before 2 t d = acc1 V c (t.val - 1) := by
  have hN : t.val < 64 := lt_of_lt_of_eq t.isLt (show cfg1.N = 64 from N_1)
  rw [Dat.before_out_kept _ 2 rfl t (by omega)
    (Bool.eq_false_iff.mpr fun h => by have := (flush1_2 _).mp h; dsimp only at this; omega)
    (fun _ => rfl) (fun _ _ => rfl), after1_2]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 1000000 in
/-- The body at any point: both tiles' buffers hold their blocks; the point's place in the grid says which of the
    four cases it is in; at a later column tile the block of denominators holds what the point before left; so
    that case's run applies and leaves the recursion's next value. The invariant and what the core owes pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 8 = 0
  · rw [acc1_reset V c t h0]
    by_cases h1 : t.val / 8 = t.val % 8
    · rw [if_pos h1]
      iintro ⟨HΦ, Ho, ⟨%d0, H0⟩, ⟨%d1, H1⟩, ⟨%d2, H2⟩⟩
      iapply (run_reset_diag c Set.univ (grid1.coords t) _ _ _ _ _ _ ((hcond1_0 t).mpr h0) ((hcond1_1 t).mpr h1) (iblk1 V c 0 t) (iblk1 V c 1 t) _)
      isplitl [H0]; · iexact H0
      isplitl [H1]; · iexact H1
      isplitl [H2]; · iexists _; iexact H2
      iintro ⟨H0, H1, H2⟩
      isplitl [HΦ]; · iexact HΦ
      isplitl [Ho]; · iexact Ho
      isplitl [H0]; · iexact H0
      isplitl [H1]; · iexact H1
      iexact H2
    · rw [if_neg h1]
      iintro ⟨HΦ, Ho, ⟨%d0, H0⟩, ⟨%d1, H1⟩, ⟨%d2, H2⟩⟩
      iapply (run_reset_off c Set.univ (grid1.coords t) _ _ _ _ _ _ ((hcond1_0 t).mpr h0) (fun h => h1 ((hcond1_1 t).mp h)) (iblk1 V c 0 t) (iblk1 V c 1 t) _)
      isplitl [H0]; · iexact H0
      isplitl [H1]; · iexact H1
      isplitl [H2]; · iexists _; iexact H2
      iintro ⟨H0, H1, H2⟩
      isplitl [HΦ]; · iexact HΦ
      isplitl [Ho]; · iexact Ho
      isplitl [H0]; · iexact H0
      isplitl [H1]; · iexact H1
      iexact H2
  · rw [acc1_carry V c t h0]
    simp only [before1_2 V c t h0]
    by_cases h1 : t.val / 8 = t.val % 8
    · rw [if_pos h1]
      iintro ⟨HΦ, Ho, ⟨%d0, H0⟩, ⟨%d1, H1⟩, ⟨%d2, H2⟩⟩
      iapply (run_carry_diag c Set.univ (grid1.coords t) _ _ _ _ _ _ (fun h => h0 ((hcond1_0 t).mp h)) ((hcond1_1 t).mpr h1) (iblk1 V c 0 t) (iblk1 V c 1 t) (acc1 V c (t.val - 1)) _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2
    · rw [if_neg h1]
      iintro ⟨HΦ, Ho, ⟨%d0, H0⟩, ⟨%d1, H1⟩, ⟨%d2, H2⟩⟩
      iapply (run_carry_off c Set.univ (grid1.coords t) _ _ _ _ _ _ (fun h => h0 ((hcond1_0 t).mp h)) (fun h => h1 ((hcond1_1 t).mp h)) (iblk1 V c 0 t) (iblk1 V c 1 t) (acc1 V c (t.val - 1)) _)
      isplitl [H0]; · iexact H0
      isplitl [H1]; · iexact H1
      isplitl [H2]; · iexact H2
      iintro ⟨H0, H1, H2⟩
      isplitl [HΦ]; · iexact HΦ
      isplitl [Ho]; · iexact Ho
      isplitl [H0]; · iexact H0
      isplitl [H1]; · iexact H1
      iexact H2

/-- The body obligation of region 1, at every point of its grid. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Shared.lean ====
/-
  Region 1 reads one array through two windows and writes another through a third. The buffers behind its windows
  are therefore two, not three. At entry the read array's buffer, held whole, is split into two halves holding the
  same contents, one for each reading window; at exit the halves — still at the entry contents, the array being
  only read — are joined again, and the written array comes back at what the write-backs left.
-/
import proofs.«170189_j19258633355799_1_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A buffer held whole is its two halves, at the same contents. -/
theorem halves {ℓ : Loc nD τ sig} (f : Buf (Elt F) ℓ) :
    (ℓ ↦{fullShare} f : sProp 𝕄) ⊣⊢ iprop((ℓ ↦{shareA} f) ∗ ℓ ↦{shareB} f) :=
  pointsTo_share (by rw [shareA_op_shareB]; exact Part.mem_some _)

/-- The buffers behind region 1's three windows are two. -/
theorem arrBufs1_eq (c : Dev nD) (Vc : (b : Ref sig .tc) → Buf (Elt F) ((c : Thread nD τ).loc b)) :
    (Pipeline.arrBufs spec1 c Vc : sProp 𝕄)
      = iprop((((c : Thread nD τ).loc main_v1) ↦{fullShare} Vc main_v1) ∗ (((c : Thread nD τ).loc main_v2) ↦{fullShare} Vc main_v2)) := by
  unfold Pipeline.arrBufs
  rw [show (Finset.univ.image (Pipeline.arrRef spec1)) = ({main_v1, main_v2} : Finset (Ref sig .tc)) from by decide,
    bigSep_insert (by decide), bigSep_singleton]
  rfl

variable (V : (c : Dev nD) → (b : Ref sig .tc) → Buf (Elt F) ((c : Thread nD τ).loc b))

/-- Region 1's arrays, window by window: the read array at one half for each reading window, the written one whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v1) ↦{shareA} G 0) ∗ (((c : Thread nD τ).loc main_v1) ↦{shareB} G 1)
          ∗ (((c : Thread nD τ).loc main_v2) ↦{fullShare} G 2)) := by
  unfold Dat.arrays
  rw [bigSep_W1, (arr_whole1 0).set_eq_univ, (arr_whole1 2).set_eq_univ]
  rfl

/-- ENTRY: the core's unscoped buffers at `V` are region 1's arrays at their entry contents and the rest. -/
theorem entry1 (c : Dev nD) :
    (unscopedBufs c (V c) : sProp 𝕄) ⊢ iprop((dat1 V c).arrays ((dat1 V c).arrAt · 0) ∗ Pipeline.unscopedRest spec1 c (V c)) := by
  rw [show (unscopedBufs c (V c) : sProp 𝕄) = iprop(Pipeline.arrBufs spec1 c (V c) ∗ Pipeline.unscopedRest spec1 c (V c))
      from Pipeline.unscopedBufs_split₀ cfgs 1 winFacts₀1.arr_unscoped c (V c), arrBufs1_eq, arrays1_eq]
  iintro ⟨⟨H1, H2⟩, Hr⟩
  ihave H1' := (halves (F := F) (V c main_v1)).mp $$ H1
  icases H1' with ⟨Ha, Hb⟩
  isplitr [Hr]
  · isplitl [Ha]; · iexact Ha
    isplitl [Hb]; · iexact Hb
    iexact H2
  iexact Hr

/-- EXIT: region 1's arrays at their final contents and the rest are the core's unscoped buffers at any contents `V'`
    that has the written array at what the write-backs left and agrees with `V` everywhere else. -/
theorem exit1 (c : Dev nD) (V' : (b : Ref sig .tc) → Buf (Elt F) ((c : Thread nD τ).loc b))
    (hv2 : V' main_v2 = (dat1 V c).arrAt 2 cfg1.N) (hrest : ∀ b, b ≠ main_v2 → V' b = V c b) :
    iprop((dat1 V c).arrays ((dat1 V c).arrAt · cfg1.N) ∗ Pipeline.unscopedRest spec1 c (V c)) ⊢ (unscopedBufs c V' : sProp 𝕄) := by
  rw [show (unscopedBufs c V' : sProp 𝕄) = iprop(Pipeline.arrBufs spec1 c V' ∗ Pipeline.unscopedRest spec1 c V')
      from Pipeline.unscopedBufs_split₀ cfgs 1 winFacts₀1.arr_unscoped c V', arrBufs1_eq, arrays1_eq]
  have e0 : (dat1 V c).arrAt 0 cfg1.N = V c main_v1 := ((dat1 V c).arrAt_in 0 rfl _).trans (A_eq1 V c 0)
  have e1 : (dat1 V c).arrAt 1 cfg1.N = V c main_v1 := ((dat1 V c).arrAt_in 1 rfl _).trans (A_eq1 V c 1)
  have hrestEq : (Pipeline.unscopedRest spec1 c (V c) : sProp 𝕄) = Pipeline.unscopedRest spec1 c V' := by
    unfold Pipeline.unscopedRest
    refine bigSep_congr fun b hb => ?_
    rw [hrest b (fun e => (Finset.mem_sdiff.mp hb).2 (Finset.mem_image.mpr ⟨2, Finset.mem_univ _, e ▸ rfl⟩))]
  rw [e0, e1, hrestEq, hv2, hrest main_v1 (by decide)]
  iintro ⟨⟨Ha, Hb, H2⟩, Hr⟩
  isplitr [Hr]
  · isplitr [H2]
    · iapply (halves (F := F) (V c main_v1)).mpr
      isplitl [Ha]; · iexact Ha
      iexact Hb
    iexact H2
  iexact Hr

end Cert.KernelIdeal.Hand

end
-- ==== Proof.KI.Run.lean ====
/-
  The whole program as a chain of four segments — region 0, the concatenation of its two unit-row arrays, region 1,
  the ten host operations that turn denominators and positive-pair products into the mean loss — run from any
  launch memory, for any reading of the floats. Between segments every buffer that outlives a region is held at
  named contents: the launch memory; then region 0's three output arrays at what its write-backs leave; then the
  concatenation; then region 1's output array at what its write-backs leave; then the host operations' results.
  Region 1 reads ONE array through two windows: at entry the array's buffer is split into two halves, one per
  window, and at exit the halves are joined again (the array is only read, so both halves still hold the entry
  contents).
-/
import proofs.«170189_j19258633355799_1_alg».proof.Proof.KI.Body0
import proofs.«170189_j19258633355799_1_alg».proof.Proof.KI.Body1
import proofs.«170189_j19258633355799_1_alg».proof.Proof.KI.Shared
import Idealize.ShloMosaic.Lib.Ring

set_option maxRecDepth 16384

noncomputable section

namespace Cert.KernelIdeal.Hand

open Idealize.ShloMosaic Idealize.ShloMosaic.TcCoe Idealize.ShloMosaic.Tactic
open Idealize.SL Idealize.SL.RA Idealize.SL.BI
open PCS
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- The same read at the TensorCore's references: what region 0 is entered from. -/
abbrev V0 : (c : Dev nD) → (b : Ref sig .tc) → Buf (Elt F) ((c : Thread nD τ).loc b) := fun c b => W0 m ρ c b
/-- After region 0: its output arrays at what the write-backs leave, every other buffer as launched. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After the concatenation: what region 1 is entered from. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After region 1: its output array at what the write-backs leave, every other buffer as it was entered. -/
def W3 (c : Dev nD) : Valuation τ sig (Elt F) :=
  Function.update (W2 m ρ c) (Proc.devRef .tc main_v2) ((dat1 (V2 m ρ) c).arrAt 2 cfg1.N)
abbrev V3 : (c : Dev nD) → (b : Ref sig .tc) → Buf (Elt F) ((c : Thread nD τ).loc b) := fun c b => W3 m ρ c b
theorem W3_v2 (c : Dev nD) : W3 m ρ c (Proc.devRef .tc main_v2) = (dat1 (V2 m ρ) c).arrAt 2 cfg1.N := by
  unfold W3; exact Function.update_self ..
theorem W3_of_ne (c : Dev nD) (b : Ref sig .tc) (hb : b ≠ main_v2) :
    W3 m ρ c (Proc.devRef .tc b) = W2 m ρ c (Proc.devRef .tc b) := by
  unfold W3; exact Function.update_of_ne (StableHlo.devRef_ne_of_ne hb) ..
/-- After the ten host operations: the end. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0: entered from every unscoped buffer at the launch contents, left with its outputs written. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from the buffers after the concatenation, left with its output array written. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit : (unscopedBufs c (V2 m ρ c) : sProp 𝕄)
        ⊢ iprop((pdats m ρ 1 c).arrays ((pdats m ρ 1 c).arrAt · 0) ∗ Pipeline.unscopedRest spec1 c (V2 m ρ c)) := entry1 (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (V2 m ρ c))
        ⊢ (unscopedBufs c (V3 m ρ c) : sProp 𝕄) :=
      exit1 (V2 m ρ) c (V3 m ρ c) (W3_v2 m ρ c) (fun b hb => W3_of_ne m ρ c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- Every weakly fair execution of the program from memory `m` terminates, nothing faulting, and every final state
    has each buffer that outlives the regions at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.KI.Args.lean ====
/-
  No segment writes an argument array: the host stretches write other buffers, region 0 only reads the two
  arguments through input windows, region 1 does not touch them. So at the last boundary each argument's buffer
  holds what it held at launch.
-/
import proofs.«170189_j19258633355799_1_alg».proof.Proof.KI.Run
import proofs.«170189_j19258633355799_1_alg».proof.Proof.Gen.KernelIdeal.Regions

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

/-- The program runs to the end, faults nowhere, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run_main m ρ)

end Cert.KernelIdeal.Hand

end
-- ==== Proof.Spec.lean ====
/-
  The contrastive (NT-Xent) loss of two batches of 4096 rows of 128 numbers, over the extended reals, written twice:
  as a sum accumulated tile by tile with the diagonal term taken back out (`lossTiled`), and as a masked sum over all
  pairs followed by the logarithm of a quotient (`lossMasked`). Both start from the same unit rows.

  A row is scaled by the larger of its Euclidean length and a small constant ε. The 8192 representations are the
  first batch's unit rows above the second's; the similarity of two representations is their inner product; the
  positive partner of row r is row r + 4096 (mod 8192). The temperature is 1/2: one form multiplies by 2, the other
  divides by 1/2.
-/
import Idealize.ShloMosaic.PureOps.Ideal

noncomputable section

namespace Cert.Spec

open Idealize.ShloMosaic

/-- A batch: 4096 rows of 128 extended reals. -/
abbrev Batch : Type := Fin 4096 → Fin 128 → EReal
/-- The stacked representations: 8192 rows of 128. -/
abbrev Reps : Type := Fin 8192 → Fin 128 → EReal

/-- The constants, as the binary values the programs spell: ε (the f32 nearest 1e-12), 2, 1/2, 1, 8192. -/
def eps : EReal := Ideal.ofBits .f32 0x2B8CBCCC#32
def two : EReal := Ideal.ofBits .f32 0x40000000#32
def half : EReal := Ideal.ofBits .f32 0x3F000000#32
def one : EReal := Ideal.ofBits .f32 0x3F800000#32
def count : EReal := Ideal.ofBits .f32 0x46000000#32

/-- Entry (r, d) of a batch after each row is divided by max(‖row‖, ε). -/
def unitRow (x : Batch) (r : Fin 4096) (d : Fin 128) : EReal :=
  Ideal.div (x r d) (max (Ideal.sqrt (∑ k : Fin 128, x r k * x r k)) eps)

/-- The inner product of row r of the first batch's unit rows with row r of the second's. -/
def pos (x1 x2 : Batch) (r : Fin 4096) : EReal := ∑ d : Fin 128, unitRow x1 r d * unitRow x2 r d

/-- The representations: the first batch's unit rows, then the second's. -/
def reps (x1 x2 : Batch) : Reps := fun r d =>
  if h : r.val < 4096 then unitRow x1 ⟨r.val, h⟩ d else unitRow x2 ⟨r.val - 4096, by omega⟩ d

/-- The similarity of representations r and c. -/
def sim (z : Reps) (r c : Fin 8192) : EReal := ∑ d : Fin 128, z r d * z c d

/-- Column q of column tile j (8 tiles of 1024 columns). -/
def col (j : Nat) (q : Fin 1024) : Fin 8192 := ⟨(1024 * j + q.val) % 8192, Nat.mod_lt _ (by norm_num)⟩

/-- What column tile j adds to row r's denominator: the sum over its 1024 columns of exp(2 · sim). -/
def tileSum (z : Reps) (r : Fin 8192) (j : Nat) : EReal := ∑ q : Fin 1024, Ideal.exp (sim z r (col j q) * two)

/-- The diagonal term exp(2 · ‖z r‖²) that the tile holding column r takes back out. -/
def selfTerm (z : Reps) (r : Fin 8192) : EReal := Ideal.exp ((∑ d : Fin 128, z r d * z r d) * two)

/-- Row r's running denominator after the first n column tiles: from 0, each tile's sum added, and the diagonal term
    subtracted right after the tile that holds column r (tile r / 1024). -/
def denomUpTo (z : Reps) (r : Fin 8192) : Nat → EReal
  | 0 => 0
  | n + 1 =>
    let s := denomUpTo z r n + tileSum z r n
    if n = r.val / 1024 then s - selfTerm z r else s

/-- Row r's denominator as accumulated over all 8 column tiles. -/
def denomTiled (z : Reps) (r : Fin 8192) : EReal := denomUpTo z r 8

/-- The loss, tile-accumulated form: the mean over the 8192 rows of log(denominator) − 2 · (positive similarity). -/
def lossTiled (x1 x2 : Batch) : EReal :=
  Ideal.div (∑ r : Fin 8192, (Ideal.log (denomTiled (reps x1 x2) r)
      - pos x1 x2 ⟨r.val % 4096, Nat.mod_lt _ (by norm_num)⟩ * two)) count

/-- The positive partner of row r. -/
def partner (r : Fin 8192) : Fin 8192 := ⟨(r.val + 4096) % 8192, Nat.mod_lt _ (by norm_num)⟩

/-- Row r's denominator as a masked sum over all columns: (1 − [r = c]) · exp(sim / (1/2)). -/
def denomMasked (z : Reps) (r : Fin 8192) : EReal :=
  ∑ c : Fin 8192, (one - (if r = c then (1 : EReal) else 0)) * Ideal.exp (Ideal.div (sim z r c) half)

/-- The loss, masked form: the mean over the rows of −log(exp(positive / (1/2)) / denominator). -/
def lossMasked (x1 x2 : Batch) : EReal :=
  Ideal.div (∑ r : Fin 8192, -Ideal.log (Ideal.div (Ideal.exp (Ideal.div (sim (reps x1 x2) r (partner r)) half))
      (denomMasked (reps x1 x2) r))) count

end Cert.Spec

end
-- ==== Proof.Bridge.lean ====
/-
  Reading a buffer's contents as the specification's arrays: a 4096 × 128 buffer as a batch, an 8192 × 128 buffer as
  the stacked representations, entry (r, d) at the index with coordinates r and d.
-/
import proofs.«170189_j19258633355799_1_alg».proof.Proof.Spec
import Idealize.ShloMosaic.Lib.ValueIdx

noncomputable section

namespace Cert.Spec

open Idealize.ShloMosaic Idealize.ShloMosaic.ValueIdx

/-- A 4096 × 128 buffer of extended reals as a batch. -/
def batchOf (f : (⟨2, ![4096, 128]⟩ : Shape).Idx → EReal) : Batch := fun r d => f (ix2 r d)

/-- An 8192 × 128 buffer of extended reals as the stacked representations. -/
def repsOf (f : (⟨2, ![8192, 128]⟩ : Shape).Idx → EReal) : Reps := fun r d => f (ix2 r d)

/-- A batch of real numbers, as extended reals. -/
def ofReal (a : Fin 4096 → Fin 128 → ℝ) : Batch := fun r d => ((a r d : ℝ) : EReal)

end Cert.Spec

end
-- ==== Proof.LibLayout.lean ====
/-
  Three column forms of vector layout operations read at an index, for any extents: a vector of a values cast to a
  column [a, 1] reads the vector at the row; a column [a, 1] broadcast along a new last axis to [a, b] reads the
  column at the row; a single value [1, 1] broadcast to a column [a, 1] reads that value. (The row forms — a
  leading unit axis added or dropped, one row broadcast over many — are in the library already.)
-/
import Idealize.ShloMosaic.Lib.Pipeline.Value
import Idealize.ShloMosaic.Lib.ValueIdx

noncomputable section

namespace Cert.LibLayout

open Idealize.ShloMosaic Idealize.ShloMosaic.ValueIdx

variable {α : Type}

/-- An `[a]` array cast to the column `[a, 1]` reads, at `(p, z)`, the operand at `p`, whatever the unit coordinate `z`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single value `[1, 1]` broadcast to a column `[a, 1]` reads that value at every row. -/
theorem broadcastTo_11_a1_apply {a : ℕ} (v : (⟨2, ![1, 1]⟩ : Shape).Idx → α) (h : (⟨2, ![1, 1]⟩ : Shape).Broadcasts ⟨2, ![a, 1]⟩)
    (p : Fin a) (z : Fin 1) : broadcastTo ⟨2, ![a, 1]⟩ v h (ix2 p z) = v (ix2 (0 : Fin 1) (0 : Fin 1)) := by
  refine broadcastTo_apply v h (ix2 p z) (ix2 (0 : Fin 1) (0 : Fin 1)) fun ax => ?_
  match ax with
  | ⟨0, _⟩ => rfl
  | ⟨1, _⟩ => rfl

end Cert.LibLayout

end
-- ==== Proof.LibVectorReads.lean ====
/-
  A few vector layout operations and sums read at an entry, in exact arithmetic, for any extents.

  * A bias vector of length `N` cast to one row `[1, N]` and repeated over `R` rows reads, at `(r, n)`, the vector at `n`.
  * A sum over the last axis of a rank-3 array reads, at `(r, m)`, the sum over the last coordinate; the same for a
    rank-2 array at `r`.
  * An `[A, B]` array cast to `[A, 1, B]` reads, at `(r, u, k)`, the operand at `(r, k)`.
  * A `[K, 1]` column cast to a vector of length `K` reads, at `k`, the column at `(k, 0)`.
  * An `[R, 1, C]` array repeated along the middle axis to `[R, n, C]` reads, at `(r, m, k)`, the operand at `(r, 0, k)`.
-/
import Idealize.ShloMosaic.Lib.ValueLayout
import Idealize.ShloMosaic.Lib.Pipeline.Value
import Idealize.ShloMosaic.PureOps.Ideal.Laws

noncomputable section

open scoped BigOperators

namespace Cert.LibVectorReads

open Idealize.ShloMosaic Idealize.ShloMosaic.ValueIdx

/-- A bias vector cast to one row and repeated over `R` rows reads, at `(r, n)`, the vector at `n`. -/
theorem bias_rows_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- The sum over the last axis of an `[A, B, C]` array, at `(r, m)`. -/
theorem sum_last3_apply {A B C : ℕ} (src : FVec Ideal ⟨3, ![A, B, C]⟩ .f32)
    (h : (⟨3, ![A, B, C]⟩ : Shape).Reduces [(2 : Fin 3)] ⟨2, ![A, B]⟩) (hφ : FKind.Formats .f32)
    (hacc : (0x00000000#32 : BitVec 32) = FKind.add.neutral .f32 hφ) (r : Fin A) (m : Fin B) :
    multiReduction .add [(2 : Fin 3)] ⟨2, ![A, B]⟩ src 0x00000000#32 h hφ hacc (ix2 r m)
      = ∑ k : Fin C, src (ix3 r m k) := by
  refine (Ideal.multiReduction_add_single src _ h hφ hacc (ix2 r m)).trans ?_
  refine Finset.sum_congr rfl fun k _ => congrArg src ?_
  funext c
  apply Fin.ext
  match c with
  | ⟨0, _⟩ => rfl
  | ⟨1, _⟩ => rfl
  | ⟨2, _⟩ => rfl

/-- The sum over the last axis of an `[A, B]` array, at `r`. -/
theorem sum_last2_apply {A B : ℕ} (src : FVec Ideal ⟨2, ![A, B]⟩ .f32)
    (h : (⟨2, ![A, B]⟩ : Shape).Reduces [(1 : Fin 2)] ⟨1, ![A]⟩) (hφ : FKind.Formats .f32)
    (hacc : (0x00000000#32 : BitVec 32) = FKind.add.neutral .f32 hφ) (r : Fin A) :
    multiReduction .add [(1 : Fin 2)] ⟨1, ![A]⟩ src 0x00000000#32 h hφ hacc (ix1 r)
      = ∑ k : Fin B, src (ix2 r k) := by
  refine (Ideal.multiReduction_add_single src _ h hφ hacc (ix1 r)).trans ?_
  refine Finset.sum_congr rfl fun k _ => congrArg src ?_
  funext c
  apply Fin.ext
  match c with
  | ⟨0, _⟩ => rfl
  | ⟨1, _⟩ => rfl

/-- An `[A, B]` array cast to `[A, 1, B]` reads, at `(r, u, k)`, the operand at `(r, k)`. -/
theorem shapeCast_ab_a1b_apply {α : Type} {A B : ℕ} (x : (⟨2, ![A, B]⟩ : Shape).Idx → α)
    (h : (⟨2, ![A, B]⟩ : Shape).ShapeCasts ⟨3, ![A, 1, B]⟩) (r : Fin A) (u : Fin 1) (k : Fin B) :
    shapeCast ⟨3, ![A, 1, B]⟩ x h (ix3 r u k) = x (ix2 r k) :=
  shapeCast_apply x h _ _ (by
    have hu : u.val = 0 := by omega
    rw [Shape.rowMajor_val_two, Shape.rowMajor_val_three]
    show r.val * B + k.val = (r.val * 1 + u.val) * B + k.val
    rw [hu, Nat.mul_one, Nat.add_zero])

/-- A `[K, 1]` column cast to a vector reads, at `k`, the column at `(k, 0)`. -/
theorem shapeCast_a1_a_apply {α : Type} {K : ℕ} (x : (⟨2, ![K, 1]⟩ : Shape).Idx → α)
    (h : (⟨2, ![K, 1]⟩ : Shape).ShapeCasts ⟨1, ![K]⟩) (k : Fin K) :
    shapeCast ⟨1, ![K]⟩ x h (ix1 k) = x (ix2 k (0 : Fin 1)) :=
  shapeCast_apply x h _ _ (by
    rw [Shape.rowMajor_val_two, Shape.rowMajor_val_one]
    show k.val * 1 + 0 = k.val
    omega)

/-- An `[R, 1, C]` array repeated along the middle axis reads, at `(r, m, k)`, the operand at `(r, 0, k)`. -/
theorem repeat_mid_apply {α : Type} {R n C : ℕ} (v : (⟨3, ![R, 1, C]⟩ : Shape).Idx → α)
    (h : (⟨3, ![R, 1, C]⟩ : Shape).Broadcasts ⟨3, ![R, n, C]⟩) (r : Fin R) (m : Fin n) (k : Fin C) :
    broadcastTo ⟨3, ![R, n, C]⟩ v h (ix3 r m k) = v (ix3 r (0 : Fin 1) k) := by
  refine broadcastTo_apply v h (ix3 r m k) (ix3 r (0 : Fin 1) k) fun ax => ?_
  match ax with
  | ⟨0, _⟩ =>
    show r.val = if R = 1 then 0 else r.val
    split
    · have := r.isLt; omega
    · rfl
  | ⟨1, _⟩ => rfl
  | ⟨2, _⟩ =>
    show k.val = if C = 1 then 0 else k.val
    split
    · have := k.isLt; omega
    · rfl

end Cert.LibVectorReads

end
-- ==== Proof.KI.Value0.lean ====
/-
  What region 0 leaves in its three output arrays, entry by entry, on the extended reals: the unit rows of each input and the row-wise inner product of the two.

  A block is 512 consecutive rows. The body divides each row of a block by the larger of its Euclidean length and ε,
  and sums the products of the two scaled rows; every entry of a block depends on its own row only. Point t of the
  grid works on rows 512·t … 512·t + 511, so the written-back blocks are the restrictions of one function of the
  whole arrays, and the eight blocks cover all 4096 rows.
-/
import proofs.«170189_j19258633355799_1_alg».proof.Proof.KI.Data
import proofs.«170189_j19258633355799_1_alg».proof.Proof.Bridge
import proofs.«170189_j19258633355799_1_alg».proof.Proof.LibLayout
import proofs.«170189_j19258633355799_1_alg».proof.Proof.LibVectorReads
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! ## The body's arithmetic, entry by entry -/

/-- Entry (p, q) of a block after each of its rows is divided by max(‖row‖, ε). -/
def unitBlk (x : Vec Ideal S512x128 .f32) (p : Fin 512) (q : Fin 128) : EReal :=
  Ideal.div (x (ix2 p q)) (max (Ideal.sqrt (∑ k : Fin 128, x (ix2 p k) * x (ix2 p k))) (Ideal.ofBits .f32 0x2B8CBCCC#32))

/-- The row's length, floored by ε, spread over the row: the divisor at (p, q). -/
theorem denom_apply (x : Vec Ideal S512x128 .f32) (p : Fin 512) (q : Fin 128) :
    broadcastTo S512x128
      (maximumf (sqrt (shapeCast S512x1 (multiReduction (F := Ideal) .add [1] S512 (mulf x x) 0x00000000#32 reduces_S512x128_S512 (.inl rfl) rfl) shapeCasts_S512_S512x1))
        (broadcast S512x1 (Scalar.ofBits (F := Ideal) .f32 0x2B8CBCCC#32)))
      broadcasts_S512x1_S512x128 (ix2 p q)
    = max (Ideal.sqrt (∑ k : Fin 128, x (ix2 p k) * x (ix2 p k))) (Ideal.ofBits .f32 0x2B8CBCCC#32) := by
  refine (Cert.LibLayout.broadcastTo_a1_ab_apply _ _ p q).trans ?_
  refine (maximumf_apply _ _ _).trans ?_
  refine congrArg (fun z => max z (Ideal.ofBits .f32 0x2B8CBCCC#32)) ?_
  show Ideal.sqrt _ = Ideal.sqrt _
  refine congrArg Ideal.sqrt ?_
  refine (Cert.LibLayout.shapeCast_a_a1_apply _ _ p (0 : Fin 1)).trans ?_
  exact Cert.LibVectorReads.sum_last2_apply (mulf x x) _ _ _ p

/-- The first scaled block at (p, q). -/
theorem pay1_apply (x : Vec Ideal S512x128 .f32) (p : Fin 512) (q : Fin 128) :
    k0_pay1 x (ix2 p q) = unitBlk x p q := by
  unfold k0_pay1 unitBlk
  dsimp only
  refine (divf_apply _ _ _).trans ?_
  exact congrArg (Ideal.div (x (ix2 p q))) (denom_apply x p q)

/-- The second scaled block at (p, q): the same arithmetic. -/
theorem pay2_apply (x : Vec Ideal S512x128 .f32) (p : Fin 512) (q : Fin 128) :
    k0_pay2 x (ix2 p q) = unitBlk x p q := by
  unfold k0_pay2 unitBlk
  dsimp only
  refine (divf_apply _ _ _).trans ?_
  exact congrArg (Ideal.div (x (ix2 p q))) (denom_apply x p q)

/-- What is stored in the first output block at (p, q): a change of float format is the identity. -/
theorem pay3_apply (x : Vec Ideal S512x128 .f32) (p : Fin 512) (q : Fin 128) :
    k0_pay3 x (ix2 p q) = unitBlk x p q := by
  unfold k0_pay3
  exact (truncf_apply (ψ := .bf16) (k0_pay1 x) bitsLt_bf16_f32 (ix2 p q)).trans (pay1_apply x p q)

/-- What is stored in the second output block at (p, q). -/
theorem pay4_apply (x : Vec Ideal S512x128 .f32) (p : Fin 512) (q : Fin 128) :
    k0_pay4 x (ix2 p q) = unitBlk x p q := by
  unfold k0_pay4
  exact (truncf_apply (ψ := .bf16) (k0_pay2 x) bitsLt_bf16_f32 (ix2 p q)).trans (pay2_apply x p q)

/-- What is stored in the third output block at row p: the inner product of the two scaled rows. -/
theorem pay5_apply (x y : Vec Ideal S512x128 .f32) (p : Fin 512) (z : Fin 1) :
    k0_pay5 x y (ix2 p z) = ∑ d : Fin 128, unitBlk x p d * unitBlk y p d := by
  unfold k0_pay5
  dsimp only
  refine (Cert.LibLayout.shapeCast_a_a1_apply _ _ p z).trans ?_
  refine (Cert.LibVectorReads.sum_last2_apply _ _ _ _ p).trans ?_
  refine Finset.sum_congr rfl fun d _ => ?_
  refine (mulf_apply _ _ _).trans ?_
  rw [pay1_apply, pay2_apply]

/-! ## The whole arrays the blocks are restrictions of -/

/-- The array of unit rows of a 4096 × 128 array: entry (r, d) is the array's row r scaled, at d. -/
def unitArr (a : S4096x128.Idx → EReal) : S4096x128.Idx → EReal :=
  fun i => Cert.Spec.unitRow (Cert.Spec.batchOf a) ⟨(i 0).val, idx2_lt0 i⟩ ⟨(i 1).val, idx2_lt1 i⟩

/-- The column of row-wise inner products of the unit rows of two 4096 × 128 arrays. -/
def posArr (a b : S4096x128.Idx → EReal) : S4096x1.Idx → EReal :=
  fun i => Cert.Spec.pos (Cert.Spec.batchOf a) (Cert.Spec.batchOf b) ⟨(i 0).val, idx2_lt0 i⟩

/-- A block's scaled row is the array's scaled row when the block's row is the array's row. -/
theorem unitBlk_eq_unitRow (x : Vec Ideal S512x128 .f32) (a : S4096x128.Idx → EReal) (p : Fin 512) (r : Fin 4096)
    (hx : ∀ k : Fin 128, x (ix2 p k) = a (ix2 r k)) (q : Fin 128) :
    unitBlk x p q = Cert.Spec.unitRow (Cert.Spec.batchOf a) r q := by
  unfold unitBlk Cert.Spec.unitRow Cert.Spec.batchOf Cert.Spec.eps
  simp only [hx]

/-- The stored unit-row block at an index of the block is the array of unit rows at the index of the array that
    has the same column and whose row holds the block's row. -/
theorem pay3_eq_unitArr (x : Vec Ideal S512x128 .f32) (a : S4096x128.Idx → EReal) (j : S512x128.Idx) (i : S4096x128.Idx)
    (hx : ∀ k : Fin 128, x (ix2 (⟨(j 0).val, idx2_lt0 j⟩ : Fin 512) k) = a (ix2 (⟨(i 0).val, idx2_lt0 i⟩ : Fin 4096) k))
    (h1 : (i 1).val = (j 1).val) : k0_pay3 x j = unitArr a i := by
  have ej : j = ix2 (⟨(j 0).val, idx2_lt0 j⟩ : Fin 512) (⟨(j 1).val, idx2_lt1 j⟩ : Fin 128) := eq_ix2 j
  rw [ej, pay3_apply]
  unfold unitArr
  have e1 : (⟨(i 1).val, idx2_lt1 i⟩ : Fin 128) = ⟨(j 1).val, idx2_lt1 j⟩ := Fin.ext h1
  rw [e1]
  exact unitBlk_eq_unitRow x a _ _ hx _

/-- The same for the second stored block. -/
theorem pay4_eq_unitArr (x : Vec Ideal S512x128 .f32) (a : S4096x128.Idx → EReal) (j : S512x128.Idx) (i : S4096x128.Idx)
    (hx : ∀ k : Fin 128, x (ix2 (⟨(j 0).val, idx2_lt0 j⟩ : Fin 512) k) = a (ix2 (⟨(i 0).val, idx2_lt0 i⟩ : Fin 4096) k))
    (h1 : (i 1).val = (j 1).val) : k0_pay4 x j = unitArr a i := by
  have ej : j = ix2 (⟨(j 0).val, idx2_lt0 j⟩ : Fin 512) (⟨(j 1).val, idx2_lt1 j⟩ : Fin 128) := eq_ix2 j
  rw [ej, pay4_apply]
  unfold unitArr
  have e1 : (⟨(i 1).val, idx2_lt1 i⟩ : Fin 128) = ⟨(j 1).val, idx2_lt1 j⟩ := Fin.ext h1
  rw [e1]
  exact unitBlk_eq_unitRow x a _ _ hx _

/-- The stored block of inner products at a row of the block is the column of inner products at the row of the
    arrays that holds the block's row. -/
theorem pay5_eq_posArr (x y : Vec Ideal S512x128 .f32) (a b : S4096x128.Idx → EReal) (j : S512x1.Idx) (i : S4096x1.Idx)
    (hx : ∀ k : Fin 128, x (ix2 (⟨(j 0).val, idx2_lt0 j⟩ : Fin 512) k) = a (ix2 (⟨(i 0).val, idx2_lt0 i⟩ : Fin 4096) k))
    (hy : ∀ k : Fin 128, y (ix2 (⟨(j 0).val, idx2_lt0 j⟩ : Fin 512) k) = b (ix2 (⟨(i 0).val, idx2_lt0 i⟩ : Fin 4096) k)) :
    k0_pay5 x y j = posArr a b i := by
  have ej : j = ix2 (⟨(j 0).val, idx2_lt0 j⟩ : Fin 512) (⟨(j 1).val, idx2_lt1 j⟩ : Fin 1) := eq_ix2 j
  rw [ej, pay5_apply]
  unfold posArr Cert.Spec.pos
  refine Finset.sum_congr rfl fun d _ => ?_
  rw [unitBlk_eq_unitRow x a _ _ hx d, unitBlk_eq_unitRow y b _ _ hy d]

/-! ## From blocks to the arrays -/

variable (V : (c : Dev nD) → (b : Ref sig .tc) → Buf (Elt Ideal) ((c : Thread nD τ).loc b))

/-- The index maps, decided over the grid: at point t every window is on block row t, block column 0. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row p of the first input's block at point t is row 512·t + p of the first input. -/
theorem iblk0_0_apply (c : Dev nD) (t : Fin cfg0.N) (p : Fin 512) (k : Fin 128) (r : Fin 4096)
    (hr : r.val = 512 * t.val + p.val) :
    (iblk0 V c 0 t : Vec Ideal S512x128 .f32) (ix2 p k) = (V c main_arg0 : S4096x128.Idx → EReal) (ix2 r k) := by
  obtain ⟨e0, e1, -⟩ := blockIndex0 t
  unfold iblk0
  rw [View.read_apply]
  show V c main_arg0 _ = V c main_arg0 _
  refine congrArg (V c main_arg0) ?_
  funext a
  apply Fin.ext
  match a with
  | ⟨0, _⟩ => show win0_0.index t (0 : Fin 2) * 512 + 1 * p.val = r.val; omega
  | ⟨1, _⟩ => show win0_0.index t (1 : Fin 2) * 128 + 1 * k.val = k.val; omega

/-- Row p of the second input's block at point t is row 512·t + p of the second input. -/
theorem iblk0_1_apply (c : Dev nD) (t : Fin cfg0.N) (p : Fin 512) (k : Fin 128) (r : Fin 4096)
    (hr : r.val = 512 * t.val + p.val) :
    (iblk0 V c 1 t : Vec Ideal S512x128 .f32) (ix2 p k) = (V c main_arg1 : S4096x128.Idx → EReal) (ix2 r k) := by
  obtain ⟨-, -, e0, e1, -⟩ := blockIndex0 t
  unfold iblk0
  rw [View.read_apply]
  show V c main_arg1 _ = V c main_arg1 _
  refine congrArg (V c main_arg1) ?_
  funext a
  apply Fin.ext
  match a with
  | ⟨0, _⟩ => show win0_1.index t (0 : Fin 2) * 512 + 1 * p.val = r.val; omega
  | ⟨1, _⟩ => show win0_1.index t (1 : Fin 2) * 128 + 1 * k.val = k.val; omega

/-- What point t writes back to the first output is block t of the array of unit rows of the first input. -/
theorem flushed0_2_eq (c : Dev nD) (t : Fin cfg0.N) :
    (dat0 (F := Ideal) V c).flushed 2 t = ((cfg0.win 2).blk t).view.read (Elt Ideal) (unitArr (V c main_arg0)) := by
  show (cfg0.win 2).cut (grid0.coords t) ((dat0 (F := Ideal) V c).after 2 t) = _
  rw [after0_2]
  obtain ⟨-, -, -, -, e0, e1, -⟩ := blockIndex0 t
  funext j
  rw [View.read_apply]
  show k0_pay3 (iblk0 V c 0 t) ((cfg0.win 2).xinj (grid0.coords t) j) = unitArr (V c main_arg0) (((cfg0.win 2).blk t).view.emb j)
  refine pay3_eq_unitArr (iblk0 V c 0 t) (V c main_arg0) ((cfg0.win 2).xinj (grid0.coords t) j) (((cfg0.win 2).blk t).view.emb j) (fun k => ?_) ?_
  · refine iblk0_0_apply V c t _ k _ ?_
    show win0_2.index t (0 : Fin 2) * 512 + 1 * (j 0).val = 512 * t.val + (j 0).val
    omega
  · show win0_2.index t (1 : Fin 2) * 128 + 1 * (j 1).val = (j 1).val
    omega

/-- What point t writes back to the second output is block t of the array of unit rows of the second input. -/
theorem flushed0_3_eq (c : Dev nD) (t : Fin cfg0.N) :
    (dat0 (F := Ideal) V c).flushed 3 t = ((cfg0.win 3).blk t).view.read (Elt Ideal) (unitArr (V c main_arg1)) := by
  show (cfg0.win 3).cut (grid0.coords t) ((dat0 (F := Ideal) V c).after 3 t) = _
  rw [after0_3]
  obtain ⟨-, -, -, -, -, -, e0, e1, -⟩ := blockIndex0 t
  funext j
  rw [View.read_apply]
  show k0_pay4 (iblk0 V c 1 t) ((cfg0.win 3).xinj (grid0.coords t) j) = unitArr (V c main_arg1) (((cfg0.win 3).blk t).view.emb j)
  refine pay4_eq_unitArr (iblk0 V c 1 t) (V c main_arg1) ((cfg0.win 3).xinj (grid0.coords t) j) (((cfg0.win 3).blk t).view.emb j) (fun k => ?_) ?_
  · refine iblk0_1_apply V c t _ k _ ?_
    show win0_3.index t (0 : Fin 2) * 512 + 1 * (j 0).val = 512 * t.val + (j 0).val
    omega
  · show win0_3.index t (1 : Fin 2) * 128 + 1 * (j 1).val = (j 1).val
    omega

/-- What point t writes back to the third output is block t of the column of inner products of the two inputs'
    unit rows. -/
theorem flushed0_4_eq (c : Dev nD) (t : Fin cfg0.N) :
    (dat0 (F := Ideal) V c).flushed 4 t
      = ((cfg0.win 4).blk t).view.read (Elt Ideal) (posArr (V c main_arg0) (V c main_arg1)) := by
  show (cfg0.win 4).cut (grid0.coords t) ((dat0 (F := Ideal) V c).after 4 t) = _
  rw [after0_4]
  obtain ⟨-, -, -, -, -, -, -, -, e0, e1⟩ := blockIndex0 t
  funext j
  rw [View.read_apply]
  show k0_pay5 (iblk0 V c 0 t) (iblk0 V c 1 t) ((cfg0.win 4).xinj (grid0.coords t) j)
    = posArr (V c main_arg0) (V c main_arg1) (((cfg0.win 4).blk t).view.emb j)
  refine pay5_eq_posArr (iblk0 V c 0 t) (iblk0 V c 1 t) (V c main_arg0) (V c main_arg1)
    ((cfg0.win 4).xinj (grid0.coords t) j) (((cfg0.win 4).blk t).view.emb j) (fun k => ?_) (fun k => ?_)
  · refine iblk0_0_apply V c t _ k _ ?_
    show win0_4.index t (0 : Fin 2) * 512 + 1 * (j 0).val = 512 * t.val + (j 0).val
    omega
  · refine iblk0_1_apply V c t _ k _ ?_
    show win0_4.index t (0 : Fin 2) * 512 + 1 * (j 0).val = 512 * t.val + (j 0).val
    omega

/-! ## The eight blocks cover every row -/

/-- An index of the first output is in point t's block iff each coordinate is in the block's range on its axis. -/
theorem mem_blk0_2 (t : Fin cfg0.N) (i : S4096x128.Idx) :
    i ∈ ((cfg0.win 2).blk t).view.set ↔ ∀ a : Fin 2, win0_2.index t a * S512x128.size a ≤ (i a).val
      ∧ (i a).val < win0_2.index t a * S512x128.size a + S512x128.size a := by
  show i ∈ ((View.whole main_v0_0).slice (win0_2.rect t)).set ↔ _
  rw [View.set_slice_whole, Rect.mem_set_unit]
  exact Iff.rfl

/-- The same for the second output. -/
theorem mem_blk0_3 (t : Fin cfg0.N) (i : S4096x128.Idx) :
    i ∈ ((cfg0.win 3).blk t).view.set ↔ ∀ a : Fin 2, win0_3.index t a * S512x128.size a ≤ (i a).val
      ∧ (i a).val < win0_3.index t a * S512x128.size a + S512x128.size a := by
  show i ∈ ((View.whole main_v0_1).slice (win0_3.rect t)).set ↔ _
  rw [View.set_slice_whole, Rect.mem_set_unit]
  exact Iff.rfl

/-- The same for the third output, a column. -/
theorem mem_blk0_4 (t : Fin cfg0.N) (i : S4096x1.Idx) :
    i ∈ ((cfg0.win 4).blk t).view.set ↔ ∀ a : Fin 2, win0_4.index t a * S512x1.size a ≤ (i a).val
      ∧ (i a).val < win0_4.index t a * S512x1.size a + S512x1.size a := by
  show i ∈ ((View.whole main_v0_2).slice (win0_4.rect t)).set ↔ _
  rw [View.set_slice_whole, Rect.mem_set_unit]
  exact Iff.rfl

/-- The point whose block holds row r: r / 512. -/
def pointOf (r : Nat) (hr : r < 4096) : Fin cfg0.N := ⟨r / 512, by rw [show cfg0.N = 8 from N_0]; omega⟩

theorem pointOf_val (r : Nat) (hr : r < 4096) : (pointOf r hr).val = r / 512 := rfl

/-- Every index of the first output is in the block of the point that holds its row. -/
theorem cover0_2 (i : S4096x128.Idx) :
    ∃ t : Fin cfg0.N, (cfg0.win 2).flush t = true ∧ i ∈ ((cfg0.win 2).blk t).view.set := by
  have hi0 : (i 0).val < 4096 := idx2_lt0 i
  have hi1 : (i 1).val < 128 := idx2_lt1 i
  refine ⟨pointOf (i 0).val hi0, flush0_2 _, ?_⟩
  rw [mem_blk0_2]
  obtain ⟨-, -, -, -, e0, e1, -⟩ := blockIndex0 (pointOf (i 0).val hi0)
  rw [pointOf_val] at e0
  intro a
  match a with
  | ⟨0, _⟩ =>
    show win0_2.index (pointOf (i 0).val hi0) (0 : Fin 2) * 512 ≤ (i 0).val
      ∧ (i 0).val < win0_2.index (pointOf (i 0).val hi0) (0 : Fin 2) * 512 + 512
    omega
  | ⟨1, _⟩ =>
    show win0_2.index (pointOf (i 0).val hi0) (1 : Fin 2) * 128 ≤ (i 1).val
      ∧ (i 1).val < win0_2.index (pointOf (i 0).val hi0) (1 : Fin 2) * 128 + 128
    omega

/-- Every index of the second output is in the block of the point that holds its row. -/
theorem cover0_3 (i : S4096x128.Idx) :
    ∃ t : Fin cfg0.N, (cfg0.win 3).flush t = true ∧ i ∈ ((cfg0.win 3).blk t).view.set := by
  have hi0 : (i 0).val < 4096 := idx2_lt0 i
  have hi1 : (i 1).val < 128 := idx2_lt1 i
  refine ⟨pointOf (i 0).val hi0, flush0_3 _, ?_⟩
  rw [mem_blk0_3]
  obtain ⟨-, -, -, -, -, -, e0, e1, -⟩ := blockIndex0 (pointOf (i 0).val hi0)
  rw [pointOf_val] at e0
  intro a
  match a with
  | ⟨0, _⟩ =>
    show win0_3.index (pointOf (i 0).val hi0) (0 : Fin 2) * 512 ≤ (i 0).val
      ∧ (i 0).val < win0_3.index (pointOf (i 0).val hi0) (0 : Fin 2) * 512 + 512
    omega
  | ⟨1, _⟩ =>
    show win0_3.index (pointOf (i 0).val hi0) (1 : Fin 2) * 128 ≤ (i 1).val
      ∧ (i 1).val < win0_3.index (pointOf (i 0).val hi0) (1 : Fin 2) * 128 + 128
    omega

/-- Every index of the third output is in the block of the point that holds its row. -/
theorem cover0_4 (i : S4096x1.Idx) :
    ∃ t : Fin cfg0.N, (cfg0.win 4).flush t = true ∧ i ∈ ((cfg0.win 4).blk t).view.set := by
  have hi0 : (i 0).val < 4096 := idx2_lt0 i
  have hi1 : (i 1).val < 1 := idx2_lt1 i
  refine ⟨pointOf (i 0).val hi0, flush0_4 _, ?_⟩
  rw [mem_blk0_4]
  obtain ⟨-, -, -, -, -, -, -, -, e0, e1⟩ := blockIndex0 (pointOf (i 0).val hi0)
  rw [pointOf_val] at e0
  intro a
  match a with
  | ⟨0, _⟩ =>
    show win0_4.index (pointOf (i 0).val hi0) (0 : Fin 2) * 512 ≤ (i 0).val
      ∧ (i 0).val < win0_4.index (pointOf (i 0).val hi0) (0 : Fin 2) * 512 + 512
    omega
  | ⟨1, _⟩ =>
    show win0_4.index (pointOf (i 0).val hi0) (1 : Fin 2) * 1 ≤ (i 1).val
      ∧ (i 1).val < win0_4.index (pointOf (i 0).val hi0) (1 : Fin 2) * 1 + 1
    omega

/-! ## The three arrays after the region -/

/-- The first output ends holding the unit rows of the first input. -/
theorem arr0_2_eq (c : Dev nD) : (dat0 (F := Ideal) V c).arrAt 2 cfg0.N = unitArr (V c main_arg0) :=
  (dat0 (F := Ideal) V c).arrAt_eq_of_cover 2 (unitArr (V c main_arg0)) (fun t _ => flushed0_2_eq V c t) cover0_2

/-- The second output ends holding the unit rows of the second input. -/
theorem arr0_3_eq (c : Dev nD) : (dat0 (F := Ideal) V c).arrAt 3 cfg0.N = unitArr (V c main_arg1) :=
  (dat0 (F := Ideal) V c).arrAt_eq_of_cover 3 (unitArr (V c main_arg1)) (fun t _ => flushed0_3_eq V c t) cover0_3

/-- The third output ends holding the row-wise inner products of the two inputs' unit rows. -/
theorem arr0_4_eq (c : Dev nD) :
    (dat0 (F := Ideal) V c).arrAt 4 cfg0.N = posArr (V c main_arg0) (V c main_arg1) :=
  (dat0 (F := Ideal) V c).arrAt_eq_of_cover 4 (posArr (V c main_arg0) (V c main_arg1)) (fun t _ => flushed0_4_eq V c t) cover0_4

theorem final0_2 (c : Dev nD) (r : Fin 4096) (d : Fin 128) :
    ((dat0 (F := Ideal) V c).arrAt 2 cfg0.N : S4096x128.Idx → EReal) (ix2 r d) = Cert.Spec.unitRow (Cert.Spec.batchOf (V c main_arg0)) r d :=
  (congrFun (arr0_2_eq V c) (ix2 r d)).trans rfl

theorem final0_3 (c : Dev nD) (r : Fin 4096) (d : Fin 128) :
    ((dat0 (F := Ideal) V c).arrAt 3 cfg0.N : S4096x128.Idx → EReal) (ix2 r d) = Cert.Spec.unitRow (Cert.Spec.batchOf (V c main_arg1)) r d :=
  (congrFun (arr0_3_eq V c) (ix2 r d)).trans rfl

theorem final0_4 (c : Dev nD) (r : Fin 4096) :
    ((dat0 (F := Ideal) V c).arrAt 4 cfg0.N : S4096x1.Idx → EReal) (ix2 r 0)
      = Cert.Spec.pos (Cert.Spec.batchOf (V c main_arg0)) (Cert.Spec.batchOf (V c main_arg1)) r :=
  (congrFun (arr0_4_eq V c) (ix2 r 0)).trans rfl

end Cert.KernelIdeal.Hand

end
-- ==== Proof.KI.Pay1.lean ====
/-
  What the body of region 1 stores, read entry by entry on the extended reals, for any loaded blocks.

  The block of running denominators is a column of 1024 numbers. The reset stores zeros. The accumulation step
  stores, at row p, what the column held there plus the sum over the 1024 columns q of the tile of
  exp(2 · ⟨row p of the row block, row q of the column block⟩): the product with the transposed column block is the
  inner product of the two rows, the format change of the operands is the identity, and the sum along the tile's
  second axis is a finite sum. The diagonal step takes exp(2 · ‖row p‖²) back out.
-/
import proofs.«170189_j19258633355799_1_alg».proof.Proof.Gen.KernelIdeal.Skeleton
import proofs.«170189_j19258633355799_1_alg».proof.Proof.LibVectorReads
import proofs.«170189_j19258633355799_1_alg».proof.Proof.LibLayout
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.ValueIdx
open Cert.KernelIdeal Cert.KernelIdeal.Gen
open scoped BigOperators

/-- The reset column is zero at every row. -/
theorem tile_pay1_apply (p : Fin 1024) : (k1_pay1 (F := Ideal) : Vec Ideal S1024x1 .f32) (ix2 p 0) = 0 := by
  unfold k1_pay1
  exact Ideal.ofBits_zero_f32

/-- The product's operand positions: at output entry i and contracted position k, the left factor is read at
    (i 0, k) and the right factor at (k, i 1). -/
theorem gram_lhs_0 (i : S1024x1024.Idx) (k : dot_S1024x128_S128x1024_S1024x1024_1_0_0_1_n_n.contr.Idx) :
    (dot_S1024x128_S128x1024_S1024x1024_1_0_0_1_n_n.lhsIdx i k 0).val = (i 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl
theorem gram_lhs_1 (i : S1024x1024.Idx) (k : dot_S1024x128_S128x1024_S1024x1024_1_0_0_1_n_n.contr.Idx) :
    (dot_S1024x128_S128x1024_S1024x1024_1_0_0_1_n_n.lhsIdx i k 1).val = (k ⟨0, by decide⟩).val :=
  dot_S1024x128_S128x1024_S1024x1024_1_0_0_1_n_n.lhsIdx_val_of_single rfl i k
theorem gram_rhs_0 (i : S1024x1024.Idx) (k : dot_S1024x128_S128x1024_S1024x1024_1_0_0_1_n_n.contr.Idx) :
    (dot_S1024x128_S128x1024_S1024x1024_1_0_0_1_n_n.rhsIdx i k 0).val = (k ⟨0, by decide⟩).val :=
  dot_S1024x128_S128x1024_S1024x1024_1_0_0_1_n_n.rhsIdx_val_of_single rfl i k
theorem gram_rhs_1 (i : S1024x1024.Idx) (k : dot_S1024x128_S128x1024_S1024x1024_1_0_0_1_n_n.contr.Idx) :
    (dot_S1024x128_S128x1024_S1024x1024_1_0_0_1_n_n.rhsIdx i k 1).val = (i 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

/-- Entry (p, q) of the product of a 1024 × 128 block with a 128 × 1024 block, accumulated into zeros: the sum over
    the 128 contracted positions. -/
theorem gram_apply (a : FVec Ideal S1024x128 .bf16) (b : FVec Ideal S128x1024 .bf16) (p q : Fin 1024) :
    matmul dot_S1024x128_S128x1024_S1024x1024_1_0_0_1_n_n none a b (constant (F := Ideal) S1024x1024 .f32 0x00000000#32) (ix2 p q)
      = ∑ k : Fin 128, a (ix2 p k) * b (ix2 k q) := by
  show FloatOps.matmul dot_S1024x128_S128x1024_S1024x1024_1_0_0_1_n_n none a b _ _ = _
  rw [Ideal.matmul_constant_zero_apply,
    ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 p q)
      ((contrEquiv1 dot_S1024x128_S128x1024_S1024x1024_1_0_0_1_n_n 128 rfl rfl).symm k) = ix2 p k :=
    funext fun ax => Fin.ext (by
      match ax with
      | ⟨0, _⟩ => exact gram_lhs_0 _ _
      | ⟨1, _⟩ => exact (gram_lhs_1 _ _).trans hk)
  have er : dot_S1024x128_S128x1024_S1024x1024_1_0_0_1_n_n.rhsIdx (ix2 p q)
      ((contrEquiv1 dot_S1024x128_S128x1024_S1024x1024_1_0_0_1_n_n 128 rfl rfl).symm k) = ix2 k q :=
    funext fun ax => Fin.ext (by
      match ax with
      | ⟨0, _⟩ => exact (gram_rhs_0 _ _).trans hk
      | ⟨1, _⟩ => exact gram_rhs_1 _ _)
  rw [el, er]

/-- The transposed column block at (k, q) is the column block at (q, k). -/
theorem transposed_apply (b : FVec Ideal S1024x128 .bf16) (k : Fin 128) (q : Fin 1024) :
    transpose S128x1024 [1, 0] b transposes_S1024x128_p1_0_S128x1024 (ix2 k q) = b (ix2 q k) :=
  transpose_apply [1, 0] b transposes_S1024x128_p1_0_S128x1024 (ix2 k q) (ix2 q k) (fun ax => by
    match ax with
    | ⟨0, _⟩ => rfl
    | ⟨1, _⟩ => rfl)

/-- The accumulation step at row p: the column's entry plus the tile's row sum of exp(2 · inner product). -/
theorem tile_pay3_apply (rows cols : Vec Ideal S1024x128 .bf16) (base : Vec Ideal S1024x1 .f32) (p : Fin 1024) :
    k1_pay3 (F := Ideal) rows cols base (ix2 p 0)
      = base (ix2 p 0) + ∑ q : Fin 1024,
          Ideal.exp ((∑ k : Fin 128, rows (ix2 p k) * cols (ix2 q k)) * Ideal.ofBits .f32 0x40000000#32) := by
  unfold k1_pay3 k1_pay2
  rw [shapeCast_self, shapeCast_self, shapeCast_self]
  refine (addf_apply _ _ _).trans ?_
  refine congrArg (base (ix2 p 0) + ·) ?_
  refine (Cert.LibLayout.shapeCast_a_a1_apply _ shapeCasts_S1024_S1024x1 p 0).trans ?_
  refine (Cert.LibVectorReads.sum_last2_apply _ reduces_S1024x1024_S1024 (.inl rfl) rfl p).trans ?_
  refine Finset.sum_congr rfl fun q _ => ?_
  show Ideal.exp (matmul dot_S1024x128_S128x1024_S1024x1024_1_0_0_1_n_n none rows
      (transpose S128x1024 [1, 0] cols transposes_S1024x128_p1_0_S128x1024)
      (constant (F := Ideal) S1024x1024 .f32 0x00000000#32) (ix2 p q) * Ideal.ofBits .f32 0x40000000#32) = _
  rw [gram_apply]
  refine congrArg (fun x => Ideal.exp (x * Ideal.ofBits .f32 0x40000000#32)) ?_
  exact Finset.sum_congr rfl fun k _ => by rw [transposed_apply]

/-- The diagonal step at row p: the column's entry less exp(2 · the row's squared length). -/
theorem tile_pay4_apply (rows : Vec Ideal S1024x128 .bf16) (s : Vec Ideal S1024x1 .f32) (p : Fin 1024) :
    k1_pay4 (F := Ideal) rows s (ix2 p 0)
      = s (ix2 p 0) - Ideal.exp ((∑ k : Fin 128, rows (ix2 p k) * rows (ix2 p k)) * Ideal.ofBits .f32 0x40000000#32) := by
  unfold k1_pay4 k1_pay2
  rw [shapeCast_self, shapeCast_self]
  refine (subf_apply _ _ _).trans ?_
  refine congrArg (s (ix2 p 0) - ·) ?_
  show Ideal.exp (shapeCast S1024x1 _ shapeCasts_S1024_S1024x1 (ix2 p 0) * Ideal.ofBits .f32 0x40000000#32) = _
  refine congrArg (fun x => Ideal.exp (x * Ideal.ofBits .f32 0x40000000#32)) ?_
  refine (Cert.LibLayout.shapeCast_a_a1_apply _ shapeCasts_S1024_S1024x1 p 0).trans ?_
  exact Cert.LibVectorReads.sum_last2_apply _ reduces_S1024x128_S1024 (.inl rfl) rfl p

end Cert.KernelIdeal.Hand

end
-- ==== Proof.KI.Blk1.lean ====
/-
  Where the blocks of region 1 sit in their arrays. At point t = 8·i + j of the 8 × 8 grid the first input block is
  row tile i of the 8192 × 128 array, the second input block is row tile j of the same array, and the output block
  is rows 1024·i … 1024·i + 1023 of the 8192 × 1 array: entry (p, k) of a block is entry (1024 · tile + p, k) of
  the array.
-/
import proofs.«170189_j19258633355799_1_alg».proof.Proof.KI.Data
import Idealize.ShloMosaic.Lib.ValueIdx
import Idealize.ShloMosaic.Lib.Pipeline.Value

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- The block indices of the three windows at each of the 64 points: the row tile is t / 8, the column tile t % 8,
    and no window moves along its second axis. -/
theorem idx_facts1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

/-- Entry (p, k) of the row block at point t is entry (1024 · (t / 8) + p, k) of the array. -/
theorem iblk1_0_apply (c : Dev nD) (t : Fin cfg1.N) (p : Fin 1024) (k : Fin 128)
    (h : 1024 * (t.val / 8) + p.val < 8192) :
    iblk1 V c 0 t (ix2 p k) = V c main_v1 (ix2 ⟨1024 * (t.val / 8) + p.val, h⟩ k) := by
  obtain ⟨e0, e1, -⟩ := idx_facts1 t
  unfold iblk1
  rw [View.read_apply]
  show V c main_v1 _ = V c main_v1 _
  refine congrArg (V c main_v1) (funext fun a => Fin.ext ?_)
  match a with
  | ⟨0, _⟩ => show win1_0.index t (0 : Fin 2) * 1024 + 1 * p.val = 1024 * (t.val / 8) + p.val; rw [e0]; omega
  | ⟨1, _⟩ => show win1_0.index t (1 : Fin 2) * 128 + 1 * k.val = k.val; rw [e1]; omega

/-- Entry (q, k) of the column block at point t is entry (1024 · (t % 8) + q, k) of the same array. -/
theorem iblk1_1_apply (c : Dev nD) (t : Fin cfg1.N) (q : Fin 1024) (k : Fin 128)
    (h : 1024 * (t.val % 8) + q.val < 8192) :
    iblk1 V c 1 t (ix2 q k) = V c main_v1 (ix2 ⟨1024 * (t.val % 8) + q.val, h⟩ k) := by
  obtain ⟨-, -, e0, e1, -⟩ := idx_facts1 t
  unfold iblk1
  rw [View.read_apply]
  show V c main_v1 _ = V c main_v1 _
  refine congrArg (V c main_v1) (funext fun a => Fin.ext ?_)
  match a with
  | ⟨0, _⟩ => show win1_1.index t (0 : Fin 2) * 1024 + 1 * q.val = 1024 * (t.val % 8) + q.val; rw [e0]; omega
  | ⟨1, _⟩ => show win1_1.index t (1 : Fin 2) * 128 + 1 * k.val = k.val; rw [e1]; omega

end Cert.KernelIdeal.Hand

end
-- ==== Proof.KI.Acc1.lean ====
/-
  The block of running denominators after each point of region 1, read row by row on the extended reals.

  Write z for the 8192 × 128 array both input windows read, as stacked representations. Within row tile i the
  points are t = 8·i + j, j = 0 … 7. Row p of the block after point 8·i + j is row 1024·i + p's running denominator
  after the first j + 1 column tiles: the point with j = 0 starts from zeros; every point adds the sum over the
  1024 columns q of column tile j of exp(2 · ⟨z (1024·i + p), z (1024·j + q)⟩); and the point with j = i, whose tile
  holds column 1024·i + p, takes exp(2 · ‖z (1024·i + p)‖²) back out. By induction on j.
-/
import proofs.«170189_j19258633355799_1_alg».proof.Proof.KI.Pay1
import proofs.«170189_j19258633355799_1_alg».proof.Proof.KI.Blk1
import proofs.«170189_j19258633355799_1_alg».proof.Proof.Bridge

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! ## One accumulation step and one diagonal step, against the specification's terms -/

/-- One more column tile: the tile's sum is added, and the tile that holds column r has the diagonal term taken out. -/
theorem denomUpTo_succ (z : Cert.Spec.Reps) (r : Fin 8192) (n : Nat) :
    Cert.Spec.denomUpTo z r (n + 1)
      = if n = r.val / 1024 then Cert.Spec.denomUpTo z r n + Cert.Spec.tileSum z r n - Cert.Spec.selfTerm z r
        else Cert.Spec.denomUpTo z r n + Cert.Spec.tileSum z r n := rfl

/-- The accumulation step, when the row block's row p is representation r, the column block is column tile n, and
    the column held the running denominator after n tiles: it now holds that plus tile n's sum. -/
theorem acc_step_value (z : Cert.Spec.Reps) (r : Fin 8192) (n : Nat) (rows cols : Vec Ideal S1024x128 .bf16)
    (base : Vec Ideal S1024x1 .f32) (p : Fin 1024)
    (hrows : ∀ k : Fin 128, rows (ix2 p k) = z r k)
    (hcols : ∀ (q : Fin 1024) (k : Fin 128), cols (ix2 q k) = z (Cert.Spec.col n q) k)
    (hbase : base (ix2 p 0) = Cert.Spec.denomUpTo z r n) :
    k1_pay3 (F := Ideal) rows cols base (ix2 p 0) = Cert.Spec.denomUpTo z r n + Cert.Spec.tileSum z r n := by
  rw [tile_pay3_apply, hbase]
  refine congrArg (Cert.Spec.denomUpTo z r n + ·) ?_
  unfold Cert.Spec.tileSum Cert.Spec.sim Cert.Spec.two
  refine Finset.sum_congr rfl fun q _ => ?_
  refine congrArg (fun x => Ideal.exp (x * Ideal.ofBits .f32 0x40000000#32)) ?_
  exact Finset.sum_congr rfl fun k _ => by rw [hrows, hcols]

/-- The diagonal step: the row's own term exp(2 · ‖z r‖²) is subtracted from what the column held. -/
theorem diag_step_value (z : Cert.Spec.Reps) (r : Fin 8192) (rows : Vec Ideal S1024x128 .bf16)
    (s : Vec Ideal S1024x1 .f32) (p : Fin 1024) (x : EReal)
    (hrows : ∀ k : Fin 128, rows (ix2 p k) = z r k) (hs : s (ix2 p 0) = x) :
    k1_pay4 (F := Ideal) rows s (ix2 p 0) = x - Cert.Spec.selfTerm z r := by
  rw [tile_pay4_apply, hs]
  refine congrArg (x - ·) ?_
  unfold Cert.Spec.selfTerm Cert.Spec.two
  refine congrArg (fun y => Ideal.exp (y * Ideal.ofBits .f32 0x40000000#32)) ?_
  exact Finset.sum_congr rfl fun k _ => by rw [hrows]

/-! ## The recursion on the point -/

variable (V : (c : Dev nD) → (b : Ref sig .tc) → Buf (Elt Ideal) ((c : Thread nD τ).loc b))

/-- One point of row tile i: if the block came in holding row 1024·i + p's running denominator after j column
    tiles (nothing is asked at j = 0, where the block is reset), it goes out holding the one after j + 1. -/
theorem accStep_apply (c : Dev nD) (i j : Nat) (hi : i < 8) (hj : j < 8) (prev : Vec Ideal S1024x1 .f32)
    (p : Fin 1024) (hr : 1024 * i + p.val < 8192)
    (hprev : j ≠ 0 → prev (ix2 p 0)
      = Cert.Spec.denomUpTo (Cert.Spec.repsOf (V c main_v1)) ⟨1024 * i + p.val, hr⟩ j) :
    accStep V c (8 * i + j) prev (ix2 p 0)
      = Cert.Spec.denomUpTo (Cert.Spec.repsOf (V c main_v1)) ⟨1024 * i + p.val, hr⟩ (j + 1) := by
  have hN : cfg1.N = 64 := N_1
  have h : 8 * i + j < cfg1.N := by rw [hN]; omega
  have hdiv : (8 * i + j) / 8 = i := by omega
  have hmod : (8 * i + j) % 8 = j := by omega
  have hp := p.isLt
  have hrows : ∀ k : Fin 128, iblk1 V c 0 ⟨8 * i + j, h⟩ (ix2 p k)
      = Cert.Spec.repsOf (V c main_v1) ⟨1024 * i + p.val, hr⟩ k := by
    intro k
    rw [iblk1_0_apply V c ⟨8 * i + j, h⟩ p k (by show 1024 * ((8 * i + j) / 8) + p.val < 8192; omega)]
    show V c main_v1 (ix2 _ k) = V c main_v1 (ix2 _ k)
    refine congrArg (fun a => V c main_v1 (ix2 a k)) (Fin.ext ?_)
    show 1024 * ((8 * i + j) / 8) + p.val = 1024 * i + p.val
    rw [hdiv]
  have hcols : ∀ (q : Fin 1024) (k : Fin 128), iblk1 V c 1 ⟨8 * i + j, h⟩ (ix2 q k)
      = Cert.Spec.repsOf (V c main_v1) (Cert.Spec.col j q) k := by
    intro q k
    have hq := q.isLt
    rw [iblk1_1_apply V c ⟨8 * i + j, h⟩ q k (by show 1024 * ((8 * i + j) % 8) + q.val < 8192; omega)]
    show V c main_v1 (ix2 _ k) = V c main_v1 (ix2 _ k)
    refine congrArg (fun a => V c main_v1 (ix2 a k)) (Fin.ext ?_)
    show 1024 * ((8 * i + j) % 8) + q.val = (1024 * j + q.val) % 8192
    rw [hmod]; omega
  have hbase : (if (8 * i + j) % 8 = 0 then k1_pay1 (F := Ideal) else prev) (ix2 p 0)
      = Cert.Spec.denomUpTo (Cert.Spec.repsOf (V c main_v1)) ⟨1024 * i + p.val, hr⟩ j := by
    by_cases h0 : (8 * i + j) % 8 = 0
    · rw [if_pos h0, show j = 0 by omega]; exact tile_pay1_apply p
    · rw [if_neg h0]; exact hprev (by omega)
  have h3 := acc_step_value (Cert.Spec.repsOf (V c main_v1)) ⟨1024 * i + p.val, hr⟩ j
    (iblk1 V c 0 ⟨8 * i + j, h⟩) (iblk1 V c 1 ⟨8 * i + j, h⟩)
    (if (8 * i + j) % 8 = 0 then k1_pay1 (F := Ideal) else prev) p hrows hcols hbase
  have hrow : (⟨1024 * i + p.val, hr⟩ : Fin 8192).val / 1024 = i := by
    show (1024 * i + p.val) / 1024 = i
    omega
  unfold accStep
  rw [dif_pos h, denomUpTo_succ, hrow]
  by_cases hd : (8 * i + j) / 8 = (8 * i + j) % 8
  · rw [if_pos hd, if_pos (show j = i by omega)]
    exact diag_step_value (Cert.Spec.repsOf (V c main_v1)) ⟨1024 * i + p.val, hr⟩
      (iblk1 V c 0 ⟨8 * i + j, h⟩) _ p _ hrows h3
  · rw [if_neg hd, if_neg (show ¬ j = i by omega)]
    exact h3

/-- The block after a point is one step from what the point before left (from the stored zeros at the first point). -/
theorem acc1_eq_step (c : Dev nD) (t : Nat) :
    ∃ prev : Vec Ideal S1024x1 .f32, acc1 V c t = accStep V c t prev ∧ ∀ t', t = t' + 1 → prev = acc1 V c t' := by
  cases t with
  | zero => exact ⟨k1_pay1 (F := Ideal), rfl, fun t' h => absurd h (by omega)⟩
  | succ n => exact ⟨acc1 V c n, rfl, fun t' h => by obtain rfl : n = t' := (by omega); rfl⟩

/-- Row p of the block after point 8·i + j is row 1024·i + p's running denominator after j + 1 column tiles. -/
theorem acc1_apply (c : Dev nD) (i : Nat) (hi : i < 8) (p : Fin 1024) (hr : 1024 * i + p.val < 8192) :
    ∀ j : Nat, j < 8 → acc1 V c (8 * i + j) (ix2 p 0)
      = Cert.Spec.denomUpTo (Cert.Spec.repsOf (V c main_v1)) ⟨1024 * i + p.val, hr⟩ (j + 1) := by
  intro j
  induction j with
  | zero =>
    intro hj
    obtain ⟨prev, e, -⟩ := acc1_eq_step V c (8 * i + 0)
    rw [e]
    exact accStep_apply V c i 0 hi hj prev p hr (fun h0 => absurd rfl h0)
  | succ j ih =>
    intro hj
    obtain ⟨prev, e, hprev⟩ := acc1_eq_step V c (8 * i + (j + 1))
    rw [e]
    refine accStep_apply V c i (j + 1) hi hj prev p hr (fun _ => ?_)
    rw [hprev (8 * i + j) (by omega)]
    exact ih (by omega)

end Cert.KernelIdeal.Hand

end
-- ==== Proof.KI.Value1.lean ====
/-
  What region 1 leaves in its output array, entry by entry, on the extended reals: each row's tile-accumulated denominator.

  The output block is written back only at the last point of each row tile, t = 8·i + 7. By then the block holds, in
  row p, the running denominator of row 1024·i + p after all 8 column tiles, which is that row's tile-accumulated
  denominator; and the block written back at that point is rows 1024·i … 1024·i + 1023 of the array. So every
  write-back writes its block of ONE function of the row, the 8 written blocks cover the 8192 rows, and the array
  ends holding that function.
-/
import proofs.«170189_j19258633355799_1_alg».proof.Proof.KI.Data
import proofs.«170189_j19258633355799_1_alg».proof.Proof.KI.Acc1
import proofs.«170189_j19258633355799_1_alg».proof.Proof.Bridge
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

/-- The array the region leaves: at row r, that row's denominator accumulated over the 8 column tiles. -/
def denomArr (c : Dev nD) : S8192x1.Idx → EReal :=
  fun i => Cert.Spec.denomTiled (Cert.Spec.repsOf (V c main_v1)) ⟨(i 0).val, idx2_lt0 i⟩

/-- After the last point of row tile i, row p of the block holds row 1024·i + p's denominator over all 8 tiles. -/
theorem acc1_last (c : Dev nD) (t i : Nat) (hi : i < 8) (ht : t = 8 * i + 7) (p : Fin 1024)
    (hr : 1024 * i + p.val < 8192) :
    acc1 V c t (ix2 p 0) = Cert.Spec.denomTiled (Cert.Spec.repsOf (V c main_v1)) ⟨1024 * i + p.val, hr⟩ := by
  subst ht
  exact acc1_apply V c i hi p hr 7 (by omega)

/-- What a write-back writes is its block of the array of denominators. -/
theorem flushed1_2_eq (c : Dev nD) (t : Fin cfg1.N) (hf : (cfg1.win 2).flush t = true) :
    (dat1 (F := Ideal) V c).flushed 2 t = ((cfg1.win 2).blk t).view.read (Elt Ideal) (denomArr V c) := by
  have hN : cfg1.N = 64 := N_1
  have h7 : t.val % 8 = 7 := (flush1_2 t).mp hf
  have htl := t.isLt
  obtain ⟨-, -, -, -, e0, e1⟩ := idx_facts1 t
  show (cfg1.win 2).cut (grid1.coords t) ((dat1 (F := Ideal) V c).after 2 t) = _
  rw [after1_2]
  funext y
  obtain ⟨p, u, rfl⟩ : ∃ (p : Fin 1024) (u : Fin 1), y = ix2 p u := ⟨y 0, y 1, eq_ix2 y⟩
  have hp := p.isLt
  obtain rfl : u = 0 := Fin.ext (by omega)
  have hr : 1024 * (t.val / 8) + p.val < 8192 := by omega
  have hx : (cfg1.win 2).xinj (grid1.coords t) (ix2 p (0 : Fin 1)) = ix2 p (0 : Fin 1) :=
    funext fun a => Fin.ext (by
      match a with
      | ⟨0, _⟩ => rfl
      | ⟨1, _⟩ => rfl)
  have hidx : ((cfg1.win 2).blk t).view.emb (ix2 p (0 : Fin 1)) = ix2 ⟨1024 * (t.val / 8) + p.val, hr⟩ (0 : Fin 1) :=
    funext fun a => Fin.ext (by
      match a with
      | ⟨0, _⟩ =>
        show win1_2.index t (0 : Fin 2) * 1024 + 1 * p.val = 1024 * (t.val / 8) + p.val
        rw [e0]; omega
      | ⟨1, _⟩ =>
        show win1_2.index t (1 : Fin 2) * 1 + 1 * 0 = 0
        rw [e1])
  rw [View.read_apply]
  show acc1 V c t.val ((cfg1.win 2).xinj (grid1.coords t) (ix2 p (0 : Fin 1)))
    = denomArr V c (((cfg1.win 2).blk t).view.emb (ix2 p (0 : Fin 1)))
  rw [hx, hidx]
  exact acc1_last V c t.val (t.val / 8) (by omega) (by omega) p hr

/-- An index of the array is in point t's block iff each coordinate is in the block's range on its axis. -/
theorem mem_blk1_2 (t : Fin cfg1.N) (i : S8192x1.Idx) :
    i ∈ ((cfg1.win 2).blk t).view.set ↔ ∀ a : Fin 2, win1_2.index t a * S1024x1.size a ≤ (i a).val
      ∧ (i a).val < win1_2.index t a * S1024x1.size a + S1024x1.size a := by
  show i ∈ ((View.whole main_v2).slice (win1_2.rect t)).set ↔ _
  rw [View.set_slice_whole, Rect.mem_set_unit]
  exact Iff.rfl

/-- Every row of the array is in the block some write-back writes: row r in the block of the last point of row
    tile r / 1024. -/
theorem cover1_2 (i : S8192x1.Idx) :
    ∃ t : Fin cfg1.N, (cfg1.win 2).flush t = true ∧ i ∈ ((cfg1.win 2).blk t).view.set := by
  have hN : cfg1.N = 64 := N_1
  have h0 : (i 0).val < 8192 := idx2_lt0 i
  have h1 : (i 1).val < 1 := idx2_lt1 i
  have ht : 8 * ((i 0).val / 1024) + 7 < cfg1.N := by rw [hN]; omega
  obtain ⟨-, -, -, -, e0, e1⟩ := idx_facts1 ⟨8 * ((i 0).val / 1024) + 7, ht⟩
  have e0' : win1_2.index ⟨8 * ((i 0).val / 1024) + 7, ht⟩ (0 : Fin 2) = (8 * ((i 0).val / 1024) + 7) / 8 := e0
  refine ⟨⟨8 * ((i 0).val / 1024) + 7, ht⟩, (flush1_2 _).mpr (by show (8 * ((i 0).val / 1024) + 7) % 8 = 7; omega), ?_⟩
  rw [mem_blk1_2]
  intro a
  match a with
  | ⟨0, _⟩ =>
    show win1_2.index ⟨8 * ((i 0).val / 1024) + 7, ht⟩ (0 : Fin 2) * 1024 ≤ (i 0).val
      ∧ (i 0).val < win1_2.index ⟨8 * ((i 0).val / 1024) + 7, ht⟩ (0 : Fin 2) * 1024 + 1024
    rw [e0']; omega
  | ⟨1, _⟩ =>
    show win1_2.index ⟨8 * ((i 0).val / 1024) + 7, ht⟩ (1 : Fin 2) * 1 ≤ (i 1).val
      ∧ (i 1).val < win1_2.index ⟨8 * ((i 0).val / 1024) + 7, ht⟩ (1 : Fin 2) * 1 + 1
    rw [e1]; omega

theorem final1_2 (c : Dev nD) (r : Fin 8192) :
    ((dat1 (F := Ideal) V c).arrAt 2 cfg1.N : S8192x1.Idx → EReal) (ix2 r 0)
      = Cert.Spec.denomTiled (Cert.Spec.repsOf (V c main_v1)) r := by
  rw [(dat1 (F := Ideal) V c).arrAt_eq_of_cover 2 (denomArr V c) (flushed1_2_eq V c) cover1_2]
  rfl

end Cert.KernelIdeal.Hand

end
-- ==== Proof.KI.Tail.lean ====
/-
  The two stretches of host operations as functions of the buffers they read. The first stacks region 0's two
  arrays of unit rows into the 8192 × 128 array of representations. The second takes region 1's 8192 denominators
  and region 0's 4096 positive-pair products to the scalar loss: log of each denominator, minus twice the product
  of the row's positive pair (the products stacked twice), summed over all rows, divided by 8192.
-/
import proofs.«170189_j19258633355799_1_alg».proof.Proof.Gen.KernelIdeal.Launch
import Idealize.ShloMosaic.Lib.StableHlo.Run

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

/-- The stacked representations from the two arrays of unit rows. -/
def stackTerm (a b : FVec F S4096x128 .bf16) : FVec F S8192x128 .bf16 :=
  concatenate S8192x128 0 [⟨S4096x128, a⟩, ⟨S4096x128, b⟩] concatenates_S4096x128_S4096x128_S8192x128_d0

/-- The loss from the denominators `den` and the positive-pair products `p`. -/
def tailTerm (den : FVec F S8192x1 .f32) (p : FVec F S4096x1 .f32) : FVec F S_ .f32 :=
  Host.divf
    (Host.reduceAdd
      (subf (Host.log den)
        (mulf (concatenate S8192x1 0 [⟨S4096x1, p⟩, ⟨S4096x1, p⟩] concatenates_S4096x1_S4096x1_S8192x1_d0)
          (broadcastInDim S8192x1 ![] bcast_S_S8192x1 (constant (F := F) S_ .f32 0x40000000#32))))
      (constant (F := F) S_ .f32 0x00000000#32) reducesTo_S8192x1_S_d0_1 h_S_)
    (constant (F := F) S_ .f32 0x46000000#32)

/-- After the first stretch the representations' buffer holds the stack of the two unit-row buffers. -/
theorem after_stack (W : Valuation τ sig (Elt F)) :
    (StableHlo.after hostOps1 W (Proc.devRef .tc main_v1) : FVec F S8192x128 .bf16)
      = stackTerm (W (Proc.devRef .tc main_v0_0)) (W (Proc.devRef .tc main_v0_1)) := by
  after_results; rfl

/-- After the second stretch the result buffer holds the loss of the denominators' and the products' buffers. -/
theorem after_tail (W : Valuation τ sig (Elt F)) :
    (StableHlo.after hostOps2 W (Proc.devRef .tc main_v9) : FVec F S_ .f32)
      = tailTerm (W (Proc.devRef .tc main_v2)) (W (Proc.devRef .tc main_v0_2)) := by
  after_results; rfl

/-- The first stretch writes only the representations' buffer. -/
theorem after_stack_of_ne (W : Valuation τ sig (Elt F)) (b : Ref sig .tc) (hb : b ≠ main_v1) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.binary_writes, Finset.mem_singleton]
    exact StableHlo.devRef_ne_of_ne hb))

end Cert.KernelIdeal.Hand

end
-- ==== Proof.KI.TailRead.lean ====
/-
  The two host stretches read entry by entry on the extended reals: the stack of the two unit-row arrays has row r
  from the first array when r < 4096 and row r − 4096 of the second otherwise; the loss is the sum over the 8192
  rows of log(denominator) − (the row's positive-pair product) · 2, divided by 8192.

  A two-piece stack along the rows, read at row r, is the first piece at r below its 4096 rows and the second piece
  at r − 4096 from there on. Stacking the SAME 4096 products twice therefore gives, at row r, the product of row
  r mod 4096 in either case. The sum over both axes of an 8192 × 1 array starts from the zero word, which is 0, and
  runs over pairs (r, c) with c in a one-point range, so it is the sum over the rows r of the entry at (r, 0).
-/
import proofs.«170189_j19258633355799_1_alg».proof.Proof.KI.Tail
import proofs.«170189_j19258633355799_1_alg».proof.Proof.Bridge
import Idealize.ShloMosaic.Lib.Pipeline.Value
import Idealize.ShloMosaic.PureOps.Ideal.Laws

noncomputable section

namespace Cert.KernelIdeal.Hand

open Idealize.ShloMosaic Idealize.ShloMosaic.TcCoe Idealize.SL.Sem Idealize.ShloMosaic.ValueIdx
open Cert.KernelIdeal Cert.KernelIdeal.Gen

/-- Entry (r, d) of the stack: the first array's row r below 4096, the second's row r − 4096 from 4096 on. -/
theorem stackTerm_apply (a b : FVec Ideal S4096x128 .bf16) (r : Fin 8192) (d : Fin 128) :
    stackTerm (F := Ideal) a b (ix2 r d)
      = if h : r.val < 4096 then a (ix2 ⟨r.val, h⟩ d) else b (ix2 ⟨r.val - 4096, by omega⟩ d) := by
  unfold stackTerm
  by_cases h : r.val < 4096
  · rw [dif_pos h]
    -- the row coordinate falls in the first piece: same coordinates there
    exact concatenate_pair_apply_left (0 : Fin 2) a b _ (ix2 r d) rfl (ix2 ⟨r.val, h⟩ d)
      (fun c => by match c with | ⟨0, _⟩ => rfl | ⟨1, _⟩ => rfl)
  · rw [dif_neg h]
    -- the row coordinate falls in the second piece: the first piece's 4096 rows less, the column unchanged
    exact concatenate_pair_apply_right (0 : Fin 2) a b _ (ix2 r d) rfl rfl (ix2 ⟨r.val - 4096, by omega⟩ d)
      (fun c hc => by match c, hc with | ⟨0, _⟩, hc => exact absurd rfl hc | ⟨1, _⟩, _ => rfl)
      (by show (r.val - 4096) + 4096 = r.val; omega)

/-- The 4096 products stacked twice, read at row r: the product of row r mod 4096 (r itself below 4096,
    r − 4096 from 4096 on). -/
theorem stackTwice_apply (p : FVec Ideal S4096x1 .f32) (r : Fin 8192) :
    concatenate S8192x1 0 [⟨S4096x1, p⟩, ⟨S4096x1, p⟩] concatenates_S4096x1_S4096x1_S8192x1_d0 (ix2 r (0 : Fin 1))
      = p (ix2 ⟨r.val % 4096, Nat.mod_lt _ (by norm_num)⟩ 0) := by
  by_cases h : r.val < 4096
  · refine (concatenate_pair_apply_left (0 : Fin 2) p p _ (ix2 r (0 : Fin 1)) rfl (ix2 ⟨r.val, h⟩ 0)
      (fun c => by match c with | ⟨0, _⟩ => rfl | ⟨1, _⟩ => rfl)).trans ?_
    exact congrArg p (congrArg (fun x => ix2 x (0 : Fin 1)) (Fin.ext (by show r.val = r.val % 4096; omega)))
  · have hr := r.isLt
    refine (concatenate_pair_apply_right (0 : Fin 2) p p _ (ix2 r (0 : Fin 1)) rfl rfl (ix2 ⟨r.val - 4096, by omega⟩ 0)
      (fun c hc => by match c, hc with | ⟨0, _⟩, hc => exact absurd rfl hc | ⟨1, _⟩, _ => rfl)
      (by show (r.val - 4096) + 4096 = r.val; omega)).trans ?_
    exact congrArg p (congrArg (fun x => ix2 x (0 : Fin 1)) (Fin.ext (by show r.val - 4096 = r.val % 4096; omega)))

/-- The loss: the sum over the 8192 rows of log(denominator) − product(row mod 4096) · 2, divided by 8192. The
    quotient, the logarithm, the difference and the product act entry by entry; the sum over both axes from the zero
    word is 0 plus the sum over all (r, c), and c ranges over one point. The constants 2 and 8192 are the same binary
    words on both sides and are never evaluated. -/
theorem tailTerm_apply (den : FVec Ideal S8192x1 .f32) (p : FVec Ideal S4096x1 .f32) (i : S_.Idx) :
    tailTerm (F := Ideal) den p i
      = Ideal.div (∑ r : Fin 8192, (Ideal.log (den (ix2 r 0))
          - p (ix2 ⟨r.val % 4096, Nat.mod_lt _ (by norm_num)⟩ 0) * Cert.Spec.two)) Cert.Spec.count := by
  unfold tailTerm
  simp only [Host.divf, Host.reduceAdd, Ideal.hostDivf_def, Ideal.hostReduceAdd_def, constant_apply]
  rw [Ideal.hostReduceAdd_total _ (fun b => b.elim0), Ideal.ofBits_zero_f32, zero_add, sum_idx2]
  unfold Cert.Spec.two Cert.Spec.count
  refine congrArg (fun s => Ideal.div s _) (Finset.sum_congr rfl fun r _ => ?_)
  rw [Fin.sum_univ_one, subf_apply, mulf_apply, stackTwice_apply]
  rfl

end Cert.KernelIdeal.Hand

end
-- ==== Proof.KI.Value.lean ====
/-
  The kernel program's result on the extended reals, as a function of its two argument arrays: the tile-accumulated
  form of the loss. The last boundary's result buffer is the host tail of region 1's denominators and region 0's
  positive-pair products; the denominators are those of the stacked representations, which are the unit rows of
  the two arguments; the products are the row-wise inner products of those unit rows.
-/
import proofs.«170189_j19258633355799_1_alg».proof.Proof.KI.Run
import proofs.«170189_j19258633355799_1_alg».proof.Proof.KI.Value0
import proofs.«170189_j19258633355799_1_alg».proof.Proof.KI.Value1
import proofs.«170189_j19258633355799_1_alg».proof.Proof.KI.TailRead

set_option maxRecDepth 16384

noncomputable section

namespace Cert.KernelIdeal.Hand

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The first argument as a batch. -/
abbrev arg0 (c : Dev nD) : Cert.Spec.Batch := Cert.Spec.batchOf (m ((c.tc : Thread nD τ).loc main_arg0))
/-- The second argument as a batch. -/
abbrev arg1 (c : Dev nD) : Cert.Spec.Batch := Cert.Spec.batchOf (m ((c.tc : Thread nD τ).loc main_arg1))

/-- What region 1 is entered with in the representations' buffer: the unit rows of the first argument above those
    of the second. -/
theorem reps_eq (c : Dev nD) :
    Cert.Spec.repsOf (V2 (F := Ideal) m ρ c main_v1) = Cert.Spec.reps (arg0 m c) (arg1 m c) := by
  funext r d
  show (StableHlo.after hostOps1 (W1 (F := Ideal) m ρ c) (Proc.devRef .tc main_v1) : FVec Ideal S8192x128 .bf16) (ix2 r d) = _
  rw [after_stack, stackTerm_apply]
  unfold Cert.Spec.reps
  by_cases h : r.val < 4096
  · rw [dif_pos h, dif_pos h]
    exact (congrFun (W1_arr (F := Ideal) m ρ c 2) _).trans (final0_2 (V0 (F := Ideal) m ρ) c ⟨r.val, h⟩ d)
  · rw [dif_neg h, dif_neg h]
    exact (congrFun (W1_arr (F := Ideal) m ρ c 3) _).trans (final0_3 (V0 (F := Ideal) m ρ) c ⟨r.val - 4096, by omega⟩ d)

/-- Region 1's output array at the last-but-one boundary: each row's tile-accumulated denominator over the stacked
    unit rows of the two arguments. -/
theorem den_eq (c : Dev nD) (r : Fin 8192) :
    (W3 (F := Ideal) m ρ c (Proc.devRef .tc main_v2) : FVec Ideal S8192x1 .f32) (ix2 r 0)
      = Cert.Spec.denomTiled (Cert.Spec.reps (arg0 m c) (arg1 m c)) r := by
  rw [← reps_eq m ρ c]
  exact (congrFun (W3_v2 (F := Ideal) m ρ c) _).trans (final1_2 (V2 (F := Ideal) m ρ) c r)

/-- Region 0's third output array is still there at that boundary: each row's positive-pair product. -/
theorem pos_eq (c : Dev nD) (k : Fin 4096) :
    (W3 (F := Ideal) m ρ c (Proc.devRef .tc main_v0_2) : FVec Ideal S4096x1 .f32) (ix2 k 0)
      = Cert.Spec.pos (arg0 m c) (arg1 m c) k := by
  have e1 : W3 (F := Ideal) m ρ c (Proc.devRef .tc main_v0_2) = W2 (F := Ideal) m ρ c (Proc.devRef .tc main_v0_2) :=
    W3_of_ne (F := Ideal) m ρ c main_v0_2 (by decide)
  have e2 : W2 (F := Ideal) m ρ c (Proc.devRef .tc main_v0_2) = W1 (F := Ideal) m ρ c (Proc.devRef .tc main_v0_2) :=
    after_stack_of_ne (W1 (F := Ideal) m ρ c) main_v0_2 (by decide)
  have e3 : W1 (F := Ideal) m ρ c (Proc.devRef .tc main_v0_2) = (dat0 (V0 (F := Ideal) m ρ) c).arrAt 4 cfg0.N := W1_arr (F := Ideal) m ρ c 4
  exact (congrFun (e1.trans (e2.trans e3)) _).trans (final0_4 (V0 (F := Ideal) m ρ) c k)

/-- The result buffer at the last boundary is the tile-accumulated loss of the two arguments. -/
theorem kernel_value (c : Dev nD) :
    (W4 (F := Ideal) m ρ c (Proc.devRef .tc main_v9) : FVec Ideal S_ .f32)
      = fun _ => Cert.Spec.lossTiled (arg0 m c) (arg1 m c) := by
  funext i
  refine (congrFun (after_tail (W3 (F := Ideal) m ρ c)) i).trans ?_
  rw [tailTerm_apply]
  unfold Cert.Spec.lossTiled
  refine congrArg (fun s => Ideal.div s Cert.Spec.count) (Finset.sum_congr rfl fun r _ => ?_)
  rw [den_eq m ρ c r, pos_eq m ρ c]

end Cert.KernelIdeal.Hand

end
-- ==== Proof.RefSim.lean ====
/-
  The reference's first stages read at an index: each argument's rows divided by the larger of their Euclidean length
  and ε are the specification's unit rows; the two batches of unit rows laid one above the other are the stacked
  representations; and the product of that 8192 × 128 array with its own transpose has, at (r, c), the inner product
  of representations r and c.
-/
import proofs.«170189_j19258633355799_1_alg».proof.Proof.Gen.ReferenceIdeal.Read
import proofs.«170189_j19258633355799_1_alg».proof.Proof.Bridge
import Idealize.ShloMosaic.Lib.Pipeline.Value

noncomputable section

namespace Cert.ReferenceIdeal.RefSim

open Idealize.ShloMosaic Idealize.ShloMosaic.ValueIdx Idealize.ShloMosaic.TcCoe Idealize.SL.Sem
open Cert.ReferenceIdeal Cert.ReferenceIdeal.Gen Cert.ReferenceIdeal.Read

/-- An argument array: 4096 × 128 extended reals. -/
abbrev Arr : Type := (⟨S4096x128, .f32⟩ : BufTy).Contents (Elt Ideal)

/-- The first argument's rows, each divided by the larger of its length and ε. -/
theorem unit0 (x0 : Arr) (r : Fin 4096) (d : Fin 128) :
    val_main_v7 (F := Ideal) x0 (ix2 r d) = Cert.Spec.unitRow (Cert.Spec.batchOf x0) r d := by
  have e : ∀ k : Fin 128, idx_main_v1 (idx_main_v2 (idx_main_v6 (ix2 r d))) k = ix2 r k := fun k =>
    funext fun a => Fin.ext (by match a with | ⟨0, _⟩ => rfl | ⟨1, _⟩ => rfl)
  rw [val_main_v7_apply, val_main_v6_apply, val_main_v5_apply, val_main_v3_apply, val_main_v2_apply,
    val_main_v1_apply, val_main_v4_apply, val_main_cst_0_apply, val_main_cst_apply]
  rw [show FloatOps.ofBits (F := Ideal) .f32 0x00000000#32 = (0 : EReal) from Ideal.ofBits_zero_f32, zero_add]
  unfold Cert.Spec.unitRow
  refine congrArg (fun s => Ideal.div (x0 (ix2 r d)) (max (Ideal.sqrt s) Cert.Spec.eps))
    (Finset.sum_congr rfl fun k _ => ?_)
  rw [val_main_v0_apply, e k]
  rfl

/-- The second argument's rows, each divided by the larger of its length and ε. -/
theorem unit1 (x1 : Arr) (r : Fin 4096) (d : Fin 128) :
    val_main_v15 (F := Ideal) x1 (ix2 r d) = Cert.Spec.unitRow (Cert.Spec.batchOf x1) r d := by
  have e : ∀ k : Fin 128, idx_main_v9 (idx_main_v10 (idx_main_v14 (ix2 r d))) k = ix2 r k := fun k =>
    funext fun a => Fin.ext (by match a with | ⟨0, _⟩ => rfl | ⟨1, _⟩ => rfl)
  rw [val_main_v15_apply, val_main_v14_apply, val_main_v13_apply, val_main_v11_apply, val_main_v10_apply,
    val_main_v9_apply, val_main_v12_apply, val_main_cst_2_apply, val_main_cst_1_apply]
  rw [show FloatOps.ofBits (F := Ideal) .f32 0x00000000#32 = (0 : EReal) from Ideal.ofBits_zero_f32, zero_add]
  unfold Cert.Spec.unitRow
  refine congrArg (fun s => Ideal.div (x1 (ix2 r d)) (max (Ideal.sqrt s) Cert.Spec.eps))
    (Finset.sum_congr rfl fun k _ => ?_)
  rw [val_main_v8_apply, e k]
  rfl

/-- The two batches of unit rows, one above the other, are the stacked representations. -/
theorem reps_apply (x0 x1 : Arr) (r : Fin 8192) (d : Fin 128) :
    val_main_v16 (F := Ideal) x0 x1 (ix2 r d)
      = Cert.Spec.reps (Cert.Spec.batchOf x0) (Cert.Spec.batchOf x1) r d := by
  unfold val_main_v16 Cert.Spec.reps
  by_cases h : r.val < 4096
  · rw [dif_pos h]
    refine (concatenate_pair_apply_left _ _ _ concatenates_S4096x128_S4096x128_S8192x128_d0 (ix2 r d) rfl
      (ix2 (⟨r.val, h⟩ : Fin 4096) d) (fun b => by match b with | ⟨0, _⟩ => rfl | ⟨1, _⟩ => rfl)).trans ?_
    exact unit0 x0 ⟨r.val, h⟩ d
  · rw [dif_neg h]
    refine (concatenate_pair_apply_right _ _ _ concatenates_S4096x128_S4096x128_S8192x128_d0 (ix2 r d) rfl rfl
      (ix2 (⟨r.val - 4096, by omega⟩ : Fin 4096) d)
      (fun b hb => by
        match b, hb with
        | ⟨0, _⟩, hb => exact absurd rfl hb
        | ⟨1, _⟩, _ => rfl)
      (by show (r.val - 4096) + 4096 = r.val; omega)).trans ?_
    exact unit1 x1 ⟨r.val - 4096, by omega⟩ d

/-- The product of the stacked representations with their transpose: entry (r, c) is the inner product of rows r and c. -/
theorem sim_apply (x0 x1 : Arr) (r c : Fin 8192) :
    val_main_v18 (F := Ideal) x0 x1 (ix2 r c)
      = Cert.Spec.sim (Cert.Spec.reps (Cert.Spec.batchOf x0) (Cert.Spec.batchOf x1)) r c := by
  have el : ∀ k : Fin 128, lidx_main_v18 (ix2 r c) k = ix2 r k := fun k =>
    funext fun a => Fin.ext (by match a with | ⟨0, _⟩ => rfl | ⟨1, _⟩ => rfl)
  have er : ∀ k : Fin 128, idx_main_v17 (ridx_main_v18 (ix2 r c) k) = ix2 c k := fun k =>
    funext fun a => Fin.ext (by match a with | ⟨0, _⟩ => rfl | ⟨1, _⟩ => rfl)
  rw [val_main_v18_apply]
  unfold Cert.Spec.sim
  refine Finset.sum_congr rfl fun k _ => ?_
  rw [val_main_v17_apply, el, er, reps_apply, reps_apply]

end Cert.ReferenceIdeal.RefSim

end
-- ==== Proof.RefGather.lean ====
/-
  One gather of the reference read at an index. The operand is an 8192 × 8192 array, the start indices a 4096 × 2
  array of words, the result a vector of 4096: both operand axes are collapsed, each slice is a single element, and
  row k of the start indices is the pair (row, column) of the element taken. Entry k of the result is therefore the
  operand at the pair in row k, each component read as a signed integer and clamped into [0, 8191].
-/
import proofs.«170189_j19258633355799_1_alg».proof.Proof.Gen.ReferenceIdeal
import Idealize.ShloMosaic.Lib.ValueIdx

noncomputable section

namespace Cert.ReferenceIdeal.RefGather

open Idealize.ShloMosaic Idealize.ShloMosaic.ValueIdx
open Cert.ReferenceIdeal Cert.ReferenceIdeal.Gen

/-- Entry k of the gather is the operand at (start[k, 0], start[k, 1]), each read signed and clamped into [0, 8191]:
    on either operand axis the batching and offset coordinates vanish (no batching axis; both axes collapsed), and the
    start is the index vector's component for that axis, clamped to the extent less the slice size 1. -/
theorem gather_pair_apply {α : Type} (x : S8192x8192.Idx → α) (idx : IVec S4096x2 32) (k : Fin 4096) :
    Host.gather gather_S8192x8192_S4096x2_S4096_n_01_n_n_01_1_11 x idx (ix1 k)
      = x (ix2 (⟨min (idx (ix2 k (0 : Fin 2))).toInt.toNat 8191, by omega⟩ : Fin 8192)
              (⟨min (idx (ix2 k (1 : Fin 2))).toInt.toNat 8191, by omega⟩ : Fin 8192)) := by
  have hc : ∀ a : Fin 2, a ∈ gather_S8192x8192_S4096x2_S4096_n_01_n_n_01_1_11.collapsedSliceDims := by decide
  have hs : ∀ a : Fin 2, a ∈ gather_S8192x8192_S4096x2_S4096_n_01_n_n_01_1_11.startIndexMap := by decide
  -- component c of result entry k's start index sits at (k, c) of the start indices
  have hsi : ∀ c : Fin gather_S8192x8192_S4096x2_S4096_n_01_n_n_01_1_11.startIndexMap.length,
      gather_S8192x8192_S4096x2_S4096_n_01_n_n_01_1_11.siIdx (ix1 k) c = ix2 k (c : Fin 2) := fun c => by
    funext b
    refine Fin.ext ?_
    match b with
    | ⟨0, _⟩ => rfl
    | ⟨1, _⟩ => rfl
  unfold Host.gather
  refine congrArg x ?_
  funext a
  refine Fin.ext ?_
  show gather_S8192x8192_S4096x2_S4096_n_01_n_n_01_1_11.start (ix1 k) idx a
      + gather_S8192x8192_S4096x2_S4096_n_01_n_n_01_1_11.batchCoord (ix1 k) a
      + gather_S8192x8192_S4096x2_S4096_n_01_n_n_01_1_11.offCoord (ix1 k) a = _
  rw [GatherDims.batchCoord_eq_zero _ _ _ List.not_mem_nil,
    GatherDims.offCoord_eq_zero _ _ _ (fun h => ((GatherDims.mem_sKept _ _).mp h).1 (hc a))]
  simp only [Nat.add_zero]
  unfold GatherDims.start
  rw [dif_pos (hs a), hsi]
  match a with
  | ⟨0, _⟩ => rfl
  | ⟨1, _⟩ => rfl

/-- The same with the two clamped components named: if they are p and q, entry k of the gather is the operand at (p, q). -/
theorem gather_pair_eq {α : Type} (x : S8192x8192.Idx → α) (idx : IVec S4096x2 32) (k : Fin 4096) (p q : Fin 8192)
    (hp : min (idx (ix2 k (0 : Fin 2))).toInt.toNat 8191 = p.val)
    (hq : min (idx (ix2 k (1 : Fin 2))).toInt.toNat 8191 = q.val) :
    Host.gather gather_S8192x8192_S4096x2_S4096_n_01_n_n_01_1_11 x idx (ix1 k) = x (ix2 p q) := by
  rw [gather_pair_apply]
  refine congrArg x (funext fun a => Fin.ext ?_)
  match a with
  | ⟨0, _⟩ => exact hp
  | ⟨1, _⟩ => exact hq

end Cert.ReferenceIdeal.RefGather

end
-- ==== Proof.RefWords.lean ====
/-
  Facts about 32-bit words that the reference's index arithmetic and its identity mask use: a small number written as
  a word is not negative when read signed, adding two such words adds the numbers, reading one back signed gives the
  number, and the bit of "row = column" converted to an extended real is 1 on the diagonal and 0 off it.
-/
import Idealize.ShloMosaic.Lib.WordArith
import Idealize.ShloMosaic.Lib.Affine
import Idealize.ShloMosaic.Lib.ValueIdx
import Idealize.ShloMosaic.PureOps.Ideal.Laws

noncomputable section

namespace Cert.RefWords

open Idealize.ShloMosaic Idealize.ShloMosaic.ValueIdx Idealize.ShloMosaic.WordArith

/-- A number below 2³¹, as a 32-bit word, is not below zero when read signed. -/
theorem slt_zero_ofNat (k : Nat) (h : k < 2 ^ 31) : IntOp.cmpi .slt (BitVec.ofNat 32 k) 0#32 = 0#1 := by
  refine eq_zero_of_ne_one fun h1 => ?_
  have h2 := IntOp.cmpi_slt.mp h1
  rw [toInt_ofNat_small k h, BitVec.toInt_zero] at h2
  omega

/-- Adding two numbers as 32-bit words gives the word of their sum. -/
theorem addi_ofNat (a k : Nat) : IntOp.addi (BitVec.ofNat 32 a) (BitVec.ofNat 32 k) = BitVec.ofNat 32 (a + k) := by
  unfold IntOp.addi; exact (BitVec.ofNat_add ..).symm

/-- A number below 2³¹, as a 32-bit word read signed and clamped below at zero, is itself. -/
theorem toNat_toInt_ofNat (k : Nat) (h : k < 2 ^ 31) : (BitVec.ofNat 32 k).toInt.toNat = k := by
  rw [toInt_ofNat_small k h]; exact Int.toNat_natCast k

/-- The identity mask's entry: the bit of "row + 0 = column" as an extended real is 1 on the diagonal and 0 off it. -/
theorem mask_word (r c : Fin 8192) :
    FloatOps.uitofp (F := Ideal) .f32
        (IntOp.cmpi .eq (IntOp.addi (BitVec.ofNat 32 r.val) 0#32) (BitVec.ofNat 32 c.val))
      = if r = c then (1 : EReal) else 0 := by
  have hadd : IntOp.addi (BitVec.ofNat 32 r.val) 0#32 = BitVec.ofNat 32 r.val := by
    unfold IntOp.addi; exact BitVec.add_zero _
  rw [hadd]
  by_cases h : r = c
  · subst h
    rw [if_pos rfl, IntOp.cmpi_eq.mpr rfl]
    show ((((1#1 : BitVec 1).toNat : ℝ)) : EReal) = 1
    simp
  · have hz : IntOp.cmpi .eq (BitVec.ofNat 32 r.val) (BitVec.ofNat 32 c.val) = 0#1 :=
      eq_zero_of_ne_one fun h1 => h (Fin.ext (by
        have h2 := congrArg BitVec.toNat (IntOp.cmpi_eq.mp h1)
        simp only [BitVec.toNat_ofNat] at h2
        have hr := r.isLt; have hc := c.isLt
        omega))
    rw [if_neg h, hz]
    show ((((0#1 : BitVec 1).toNat : ℝ)) : EReal) = 0
    simp

end Cert.RefWords

end
-- ==== Proof.RefPos.lean ====
/-
  The reference's positive pairs. Two arrays of start indices are built from a running count k = 0 … 4095: one holds
  the pairs (k, 4096 + k), the other the pairs (4096 + k, k); neither count is negative, so the wrap-around that is
  added to a negative index is never chosen. Gathering the similarity matrix at those pairs takes its two
  off-diagonals at distance 4096, and laid end to end they hold, at row r, the similarity of r with its partner
  r + 4096 (mod 8192).
-/
import proofs.«170189_j19258633355799_1_alg».proof.Proof.RefSim
import proofs.«170189_j19258633355799_1_alg».proof.Proof.RefGather
import proofs.«170189_j19258633355799_1_alg».proof.Proof.RefWords

noncomputable section

namespace Cert.ReferenceIdeal.RefPos

open Idealize.ShloMosaic Idealize.ShloMosaic.ValueIdx Idealize.ShloMosaic.TcCoe Idealize.SL.Sem
open Cert.ReferenceIdeal Cert.ReferenceIdeal.Gen Cert.ReferenceIdeal.Read
open Cert.ReferenceIdeal.RefSim Cert.ReferenceIdeal.RefGather Cert.RefWords

section Indices
variable {F : FTy → Type} [FloatOps F]

/-- First start-index array, column 0 of row k: the count k itself. -/
theorem upper_col0 (k : Fin 4096) :
    val_main_call0_v16 (F := F) (ix2 k (0 : Fin 2)) = BitVec.ofNat 32 k.val := by
  unfold val_main_call0_v16
  refine (concatenate_pair_apply_left _ _ _ concatenates_S4096x1_S4096x1_S4096x2_d1 (ix2 k (0 : Fin 2)) rfl
    (ix2 k (0 : Fin 1)) (fun b => by match b with | ⟨0, _⟩ => rfl | ⟨1, _⟩ => rfl)).trans ?_
  rw [val_main_call0_v14_apply, val_main_call0_v8_apply, val_main_call0_v5_apply, val_main_call0_v0_apply,
    val_main_call0_v4_apply, val_main_call0_c_0_apply]
  show Scalar.select (IntOp.cmpi .slt (BitVec.ofNat 32 k.val) 0#32) _ (BitVec.ofNat 32 k.val) = _
  rw [slt_zero_ofNat k.val (by omega), select_zero]

/-- First start-index array, column 1 of row k: 4096 + k. -/
theorem upper_col1 (k : Fin 4096) :
    val_main_call0_v16 (F := F) (ix2 k (1 : Fin 2)) = BitVec.ofNat 32 (4096 + k.val) := by
  unfold val_main_call0_v16
  refine (concatenate_pair_apply_right _ _ _ concatenates_S4096x1_S4096x1_S4096x2_d1 (ix2 k (1 : Fin 2)) rfl rfl
    (ix2 k (0 : Fin 1))
    (fun b hb => by
      match b, hb with
      | ⟨0, _⟩, _ => rfl
      | ⟨1, _⟩, hb => exact absurd rfl hb)
    rfl).trans ?_
  rw [val_main_call0_v15_apply, val_main_call0_v13_apply, val_main_call0_v10_apply, val_main_call0_v3_apply,
    val_main_call0_v2_apply, val_main_call0_c_apply, val_main_call0_v1_apply, val_main_call0_v9_apply,
    val_main_call0_c_2_apply]
  show Scalar.select (IntOp.cmpi .slt (IntOp.addi (BitVec.ofNat 32 4096) (BitVec.ofNat 32 k.val)) 0#32) _
    (IntOp.addi (BitVec.ofNat 32 4096) (BitVec.ofNat 32 k.val)) = _
  rw [addi_ofNat, slt_zero_ofNat _ (by omega), select_zero]

/-- Second start-index array, column 0 of row k: 4096 + k. -/
theorem lower_col0 (k : Fin 4096) :
    val_main_call1_v16 (F := F) (ix2 k (0 : Fin 2)) = BitVec.ofNat 32 (4096 + k.val) := by
  unfold val_main_call1_v16
  refine (concatenate_pair_apply_left _ _ _ concatenates_S4096x1_S4096x1_S4096x2_d1 (ix2 k (0 : Fin 2)) rfl
    (ix2 k (0 : Fin 1)) (fun b => by match b with | ⟨0, _⟩ => rfl | ⟨1, _⟩ => rfl)).trans ?_
  rw [val_main_call1_v14_apply, val_main_call1_v8_apply, val_main_call1_v5_apply, val_main_call1_v3_apply,
    val_main_call1_v2_apply, val_main_call1_c_apply, val_main_call1_v1_apply, val_main_call1_v4_apply,
    val_main_call1_c_0_apply]
  show Scalar.select (IntOp.cmpi .slt (IntOp.addi (BitVec.ofNat 32 4096) (BitVec.ofNat 32 k.val)) 0#32) _
    (IntOp.addi (BitVec.ofNat 32 4096) (BitVec.ofNat 32 k.val)) = _
  rw [addi_ofNat, slt_zero_ofNat _ (by omega), select_zero]

/-- Second start-index array, column 1 of row k: the count k itself. -/
theorem lower_col1 (k : Fin 4096) :
    val_main_call1_v16 (F := F) (ix2 k (1 : Fin 2)) = BitVec.ofNat 32 k.val := by
  unfold val_main_call1_v16
  refine (concatenate_pair_apply_right _ _ _ concatenates_S4096x1_S4096x1_S4096x2_d1 (ix2 k (1 : Fin 2)) rfl rfl
    (ix2 k (0 : Fin 1))
    (fun b hb => by
      match b, hb with
      | ⟨0, _⟩, _ => rfl
      | ⟨1, _⟩, hb => exact absurd rfl hb)
    rfl).trans ?_
  rw [val_main_call1_v15_apply, val_main_call1_v13_apply, val_main_call1_v10_apply, val_main_call1_v0_apply,
    val_main_call1_v9_apply, val_main_call1_c_2_apply]
  show Scalar.select (IntOp.cmpi .slt (BitVec.ofNat 32 k.val) 0#32) _ (BitVec.ofNat 32 k.val) = _
  rw [slt_zero_ofNat k.val (by omega), select_zero]

end Indices

/-- The diagonal at distance +4096: entry k is the similarity at (k, 4096 + k). -/
theorem pos_upper (x0 x1 : Arr) (k : Fin 4096) :
    val_main_v19 (F := Ideal) x0 x1 (ix1 k)
      = val_main_v18 (F := Ideal) x0 x1 (ix2 (⟨k.val, by omega⟩ : Fin 8192) (⟨4096 + k.val, by omega⟩ : Fin 8192)) := by
  unfold val_main_v19
  exact gather_pair_eq _ _ k _ _
    (by rw [upper_col0, toNat_toInt_ofNat _ (by omega)]; exact Nat.min_eq_left (by omega))
    (by rw [upper_col1, toNat_toInt_ofNat _ (by omega)]; exact Nat.min_eq_left (by omega))

/-- The diagonal at distance −4096: entry k is the similarity at (4096 + k, k). -/
theorem pos_lower (x0 x1 : Arr) (k : Fin 4096) :
    val_main_v20 (F := Ideal) x0 x1 (ix1 k)
      = val_main_v18 (F := Ideal) x0 x1 (ix2 (⟨4096 + k.val, by omega⟩ : Fin 8192) (⟨k.val, by omega⟩ : Fin 8192)) := by
  unfold val_main_v20
  exact gather_pair_eq _ _ k _ _
    (by rw [lower_col0, toNat_toInt_ofNat _ (by omega)]; exact Nat.min_eq_left (by omega))
    (by rw [lower_col1, toNat_toInt_ofNat _ (by omega)]; exact Nat.min_eq_left (by omega))

/-- The two diagonals end to end: entry r is the similarity of representation r with its partner. -/
theorem positives_apply (x0 x1 : Arr) (r : Fin 8192) :
    val_main_v21 (F := Ideal) x0 x1 (ix1 r)
      = Cert.Spec.sim (Cert.Spec.reps (Cert.Spec.batchOf x0) (Cert.Spec.batchOf x1)) r (Cert.Spec.partner r) := by
  unfold val_main_v21
  by_cases h : r.val < 4096
  · refine (concatenate_pair_apply_left _ _ _ concatenates_S4096_S4096_S8192_d0 (ix1 r) rfl
      (ix1 (⟨r.val, h⟩ : Fin 4096)) (fun b => by match b with | ⟨0, _⟩ => rfl)).trans ?_
    rw [pos_upper, sim_apply]
    refine congrArg₂ (Cert.Spec.sim _) (Fin.ext rfl) (Fin.ext ?_)
    show 4096 + r.val = (r.val + 4096) % 8192
    omega
  · refine (concatenate_pair_apply_right _ _ _ concatenates_S4096_S4096_S8192_d0 (ix1 r) rfl rfl
      (ix1 (⟨r.val - 4096, by omega⟩ : Fin 4096))
      (fun b hb => by match b, hb with | ⟨0, _⟩, hb => exact absurd rfl hb)
      (by show (r.val - 4096) + 4096 = r.val; omega)).trans ?_
    rw [pos_lower, sim_apply]
    refine congrArg₂ (Cert.Spec.sim _) (Fin.ext ?_) (Fin.ext ?_)
    · show 4096 + (r.val - 4096) = r.val
      omega
    · show r.val - 4096 = (r.val + 4096) % 8192
      omega

end Cert.ReferenceIdeal.RefPos

end
-- ==== Proof.RefDenom.lean ====
/-
  The reference's denominators. The mask 1 − [row = column] is built from two running counts compared for equality;
  multiplied into exp(similarity / (1/2)) and summed along each row it gives the specification's masked denominator.
-/
import proofs.«170189_j19258633355799_1_alg».proof.Proof.RefSim
import proofs.«170189_j19258633355799_1_alg».proof.Proof.RefWords

noncomputable section

namespace Cert.ReferenceIdeal.RefDenom

open Idealize.ShloMosaic Idealize.ShloMosaic.ValueIdx Idealize.ShloMosaic.TcCoe Idealize.SL.Sem
open Cert.ReferenceIdeal Cert.ReferenceIdeal.Gen Cert.ReferenceIdeal.Read
open Cert.ReferenceIdeal.RefSim Cert.RefWords

/-- The mask at (r, c): one less the indicator of the diagonal. -/
theorem mask_apply (r c : Fin 8192) :
    val_main_v32 (F := Ideal) (ix2 r c) = Cert.Spec.one - (if r = c then (1 : EReal) else 0) := by
  rw [val_main_v32_apply, val_main_v31_apply, val_main_cst_4_apply, val_main_v30_apply, val_main_v29_apply,
    val_main_v28_apply, val_main_v25_apply, val_main_v27_apply, val_main_c_apply, val_main_v26_apply]
  show Ideal.ofBits .f32 0x3F800000#32 - FloatOps.uitofp (F := Ideal) .f32
    (IntOp.cmpi .eq (IntOp.addi (BitVec.ofNat 32 r.val) 0#32) (BitVec.ofNat 32 c.val)) = _
  rw [mask_word]
  rfl

/-- The masked row sum at r is the specification's masked denominator of row r. -/
theorem denom_apply (x0 x1 : Arr) (r : Fin 8192) :
    val_main_v37 (F := Ideal) x0 x1 (ix1 r)
      = Cert.Spec.denomMasked (Cert.Spec.reps (Cert.Spec.batchOf x0) (Cert.Spec.batchOf x1)) r := by
  have e : ∀ c : Fin 8192, idx_main_v37 (ix1 r) c = ix2 r c := fun c =>
    funext fun a => Fin.ext (by match a with | ⟨0, _⟩ => rfl | ⟨1, _⟩ => rfl)
  rw [val_main_v37_apply, val_main_cst_6_apply]
  unfold Cert.Spec.denomMasked
  rw [show FloatOps.ofBits (F := Ideal) .f32 0x00000000#32 = 0 from Ideal.ofBits_zero_f32, zero_add]
  refine Finset.sum_congr rfl fun c _ => ?_
  rw [e, val_main_v36_apply, val_main_v35_apply, val_main_v34_apply, val_main_v33_apply, val_main_cst_5_apply,
    mask_apply, sim_apply]
  rfl

end Cert.ReferenceIdeal.RefDenom

end
-- ==== Proof.RefValue.lean ====
/-
  The reference program's result, as a function of its two argument arrays on the extended reals, is the masked form
  of the loss: unit rows, one 8192 × 8192 similarity product, the two off-diagonals gathered as the positive pairs,
  the identity mask, a row sum, the logarithm of a quotient, the mean.
-/
import proofs.«170189_j19258633355799_1_alg».proof.Proof.Gen.ReferenceIdeal.Read
import proofs.«170189_j19258633355799_1_alg».proof.Proof.Bridge
import proofs.«170189_j19258633355799_1_alg».proof.Proof.RefPos
import proofs.«170189_j19258633355799_1_alg».proof.Proof.RefDenom

noncomputable section

namespace Cert.ReferenceIdeal.RefValue

open Idealize.ShloMosaic Idealize.ShloMosaic.TcCoe Idealize.SL.Sem
open Cert.ReferenceIdeal Cert.ReferenceIdeal.Gen
open Idealize.ShloMosaic.ValueIdx Cert.ReferenceIdeal.Read
open Cert.ReferenceIdeal.RefSim Cert.ReferenceIdeal.RefPos Cert.ReferenceIdeal.RefDenom

/-- A vector's index set is its one coordinate's range … -/
def idxEquiv1 {n : Nat} : (⟨1, ![n]⟩ : Shape).Idx ≃ Fin n where
  toFun i := i 0
  invFun := ix1
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The last stage, as a function of the two argument arrays: the mean over the rows of
    −log(exp(positive / (1/2)) / denominator). The two sums start from the word of zero, which adds nothing. -/
theorem loss_apply (x0 x1 : Arr) :
    val_main_v42 (F := Ideal) x0 x1
      = fun _ => Cert.Spec.lossMasked (Cert.Spec.batchOf x0) (Cert.Spec.batchOf x1) := by
  funext i
  rw [val_main_v42_apply, val_main_v41_apply, val_main_cst_7_apply, val_main_cst_8_apply]
  unfold Cert.Spec.lossMasked
  rw [show FloatOps.ofBits (F := Ideal) .f32 0x00000000#32 = 0 from Ideal.ofBits_zero_f32, zero_add, sum_idx1]
  refine congrArg (fun s => Ideal.div s Cert.Spec.count) (Finset.sum_congr rfl fun r _ => ?_)
  rw [val_main_v40_apply, val_main_v39_apply, val_main_v38_apply, val_main_v24_apply, val_main_v23_apply,
    val_main_v22_apply, val_main_cst_3_apply, positives_apply, denom_apply]
  rfl

theorem ref_value (m : (ℓ : Loc nD τ sig) → Buf (Elt Ideal) ℓ) (c : Dev nD) :
    Cert.ReferenceIdeal.Value.res_out0 (F := Ideal) m c
      = fun _ => Cert.Spec.lossMasked (Cert.Spec.batchOf (m ((c.tc : Thread nD τ).loc main_arg0)))
          (Cert.Spec.batchOf (m ((c.tc : Thread nD τ).loc main_arg1))) :=
  (Cert.ReferenceIdeal.Read.val_main_v42_eq (F := Ideal) m c).trans (loss_apply _ _)

end Cert.ReferenceIdeal.RefValue

end
-- ==== Proof.LibBlockSums.lean ====
/-
  A sum over a long axis taken block by block, as a running sum.

  Three facts in any commutative additive monoid (so in particular on the extended reals, where nothing beyond
  commutativity and associativity of + is used), and two float literals at exact arithmetic.

  * A sum over `Fin (A * B)` is the sum over the `A` blocks of the `B` block sums (`sum_blocks`).
  * The left-nested running sum `((z + s 0) + s 1) + … + s n` is `z` plus the sum of `s` over `0 … n` (`runSum_eq`).
  * Dividing by the literal 0.5 is multiplying by the literal 2.0, on every extended real (`div_half`).
-/
import Idealize.ShloMosaic.PureOps.Ideal.Laws

noncomputable section

open scoped BigOperators

namespace Cert.LibBlockSums

open Idealize.ShloMosaic

/-- A sum over `A * B` consecutive indices, block by block. -/
theorem sum_blocks {M : Type*} [AddCommMonoid M] (A B : Nat) (f : Fin (A * B) → M) :
    ∑ j, f j = ∑ a : Fin A, ∑ b : Fin B, f ⟨a.val * B + b.val, by
      have ha := a.isLt; have hb := b.isLt
      calc a.val * B + b.val < a.val * B + B := by omega
        _ = (a.val + 1) * B := by ring
        _ ≤ A * B := Nat.mul_le_mul_right B ha⟩ := by
  rw [← Equiv.sum_comp (finProdFinEquiv (m := A) (n := B)) f, Fintype.sum_prod_type]
  refine Finset.sum_congr rfl fun a _ => Finset.sum_congr rfl fun b _ => congrArg f (Fin.ext ?_)
  simp only [finProdFinEquiv_apply_val]
  rw [Nat.mul_comm]; omega

/-- The left-nested running sum of `s` started from `z`. -/
def runSum {M : Type*} [Add M] (z : M) (s : Nat → M) : Nat → M
  | 0 => z + s 0
  | n + 1 => runSum z s n + s (n + 1)

theorem runSum_eq {M : Type*} [AddCommMonoid M] (z : M) (s : Nat → M) (n : Nat) :
    runSum z s n = z + ∑ j ∈ Finset.range (n + 1), s j := by
  induction n with
  | zero => simp [runSum]
  | succ n ih => rw [runSum, ih, Finset.sum_range_succ _ (n + 1), add_assoc]

/-- Started from zero and run over all `A` blocks it is the sum over the blocks. -/
theorem runSum_zero_last {M : Type*} [AddCommMonoid M] (A : Nat) (s : Nat → M) :
    runSum 0 s A = ∑ a : Fin (A + 1), s a.val := by
  rw [runSum_eq, zero_add, Finset.sum_range]

/-- The float literal 2.0. -/
theorem ofBits_two : Ideal.ofBits .f32 0x40000000#32 = ((2 : ℝ) : EReal) := by
  simp [Ideal.ofBits, Ideal.ieee, -EReal.coe_mul]; norm_num

/-- The float literal 0.5. -/
theorem ofBits_half : Ideal.ofBits .f32 0x3F000000#32 = ((1 / 2 : ℝ) : EReal) := by
  simp [Ideal.ofBits, Ideal.ieee, -EReal.coe_mul]; norm_num

/-- On every extended real, the quotient by 0.5 is the product with 2.0. -/
theorem div_half (x : EReal) :
    Ideal.div x (Ideal.ofBits .f32 0x3F000000#32) = x * Ideal.ofBits .f32 0x40000000#32 := by
  rw [ofBits_half, ofBits_two, Ideal.div_coe (by norm_num : (1 / 2 : ℝ) ≠ 0)]
  norm_num

end Cert.LibBlockSums

end
-- ==== Proof.LibSumExchange.lean ====
/-
  EXCHANGING A DOUBLE SUM OF PRODUCTS ON THE EXTENDED REALS, for real-valued entries.

  For a finite set S of indices e, a finite type of indices k, and arrays a e k, ν e, w k, the identity
      ∑ k, (0 + ∑ e ∈ S, a e k * ν e) * w k  =  0 + ∑ e ∈ S, (∑ k, a e k * w k) * ν e
  is, over a commutative ring, distributivity of the product over the two sums followed by an exchange of the order of
  summation. The extended reals are not a ring: the product does not distribute over the sum at the infinities — for
  example (1 + (-1)) * ⊤ = 0 * ⊤ = 0 while 1 * ⊤ + (-1) * ⊤ = ⊤ + ⊥ = ⊥. So the identity is stated under the hypothesis that every entry of a, ν and w
  is a real number, written out as ∃ r : ℝ, x = (r : EReal). Then every entry is the coercion of a real, the coercion
  commutes with products and with finite sums (`coe_sum`, proved here by induction on the index set), both sides
  are coercions of real double sums, and those are equal in ℝ.

  Beside it, the closure of "is a real number" under the operations met on the way: zero, sum, product, maximum of two,
  and a finite sum.
-/
import Mathlib.Data.EReal.Basic
import Mathlib.Data.EReal.Operations
import Mathlib.Algebra.BigOperators.Group.Finset.Basic
import Mathlib.Algebra.BigOperators.Group.Finset.Sigma
import Mathlib.Algebra.BigOperators.Ring.Finset
import Mathlib.Tactic.Ring

noncomputable section

namespace Cert.LibSumExchange

open scoped BigOperators

/-- The coercion of the reals into the extended reals commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Zero is a real number. -/
theorem real_zero : ∃ r : ℝ, (0 : EReal) = (r : EReal) := ⟨0, EReal.coe_zero.symm⟩

/-- The sum of two real numbers is a real number. -/
theorem real_add {x y : EReal} (hx : ∃ r : ℝ, x = (r : EReal)) (hy : ∃ r : ℝ, y = (r : EReal)) :
    ∃ r : ℝ, x + y = (r : EReal) := by
  obtain ⟨p, rfl⟩ := hx; obtain ⟨q, rfl⟩ := hy; exact ⟨p + q, (EReal.coe_add p q).symm⟩

/-- The product of two real numbers is a real number. -/
theorem real_mul {x y : EReal} (hx : ∃ r : ℝ, x = (r : EReal)) (hy : ∃ r : ℝ, y = (r : EReal)) :
    ∃ r : ℝ, x * y = (r : EReal) := by
  obtain ⟨p, rfl⟩ := hx; obtain ⟨q, rfl⟩ := hy; exact ⟨p * q, (EReal.coe_mul p q).symm⟩

/-- The maximum of two real numbers is a real number (the coercion is monotone). -/
theorem real_max {x y : EReal} (hx : ∃ r : ℝ, x = (r : EReal)) (hy : ∃ r : ℝ, y = (r : EReal)) :
    ∃ r : ℝ, max x y = (r : EReal) := by
  obtain ⟨p, rfl⟩ := hx; obtain ⟨q, rfl⟩ := hy
  exact ⟨max p q, (EReal.coe_strictMono.monotone.map_max).symm⟩

/-- A finite sum of real numbers is a real number. -/
theorem real_sum {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

/-- For real-valued entries, a sum over k of (a sum over e of products) times w k is the sum over e of (the sum over k
    of products) times ν e: distributivity and the exchange of the two sums, valid because no entry is infinite. -/
theorem sum_mul_exchange_of_real {E K : Type} [Fintype K] (S : Finset E) (a : E → K → EReal) (ν : E → EReal) (w : K → EReal)
    (ha : ∀ e k, ∃ r : ℝ, a e k = (r : EReal)) (hν : ∀ e, ∃ r : ℝ, ν e = (r : EReal)) (hw : ∀ k, ∃ r : ℝ, w k = (r : EReal)) :
    ∑ k, ((0 : EReal) + ∑ e ∈ S, a e k * ν e) * w k = (0 : EReal) + ∑ e ∈ S, (∑ k, a e k * w k) * ν e := by
  choose a' ha' using ha
  choose ν' hν' using hν
  choose w' hw' using hw
  obtain rfl : a = fun e k => ((a' e k : ℝ) : EReal) := funext fun e => funext fun k => ha' e k
  obtain rfl : ν = fun e => ((ν' e : ℝ) : EReal) := funext hν'
  obtain rfl : w = fun k => ((w' k : ℝ) : EReal) := funext hw'
  simp only [zero_add, ← EReal.coe_mul, ← coe_sum]
  refine congrArg _ ?_
  simp only [Finset.sum_mul]
  rw [Finset.sum_comm]
  exact Finset.sum_congr rfl fun e _ => Finset.sum_congr rfl fun k _ => by ring

end Cert.LibSumExchange

end
-- ==== Proof.SpecDenom.lean ====
/-
  For real inputs the stacked representations are real, and a row's denominator is the same positive real number
  whether it is accumulated tile by tile with the diagonal term taken back out, or summed over all columns under
  the mask that drops the diagonal.

  The constants are evaluated once as real numbers: ε is a positive real, and 2, 1/2, 1 are themselves. A real row
  divided by max(its length, ε) > 0 is real, so the representations of real batches are real. For real
  representations z every similarity is a real number and every exp(2 · similarity) a positive real e(r, c). The
  running denominator after n tiles is then the real number

      (the sum of e(r, c) over the columns c of the first n tiles)  −  (e(r, r) once tile r / 1024 has passed),

  by induction on n; after all 8 tiles the tiles' columns are exactly all 8192 columns, so it is
  D = ∑_c e(r, c) − e(r, r), the sum over the columns other than r, which is positive because there is such a column
  and every term is positive. In the masked sum the factor 1 − [r = c] keeps e(r, c) off the diagonal and makes the
  diagonal term 0, and dividing by 1/2 is multiplying by 2, so it is the same D.
-/
import proofs.«170189_j19258633355799_1_alg».proof.Proof.Bridge
import proofs.«170189_j19258633355799_1_alg».proof.Proof.LibBlockSums
import proofs.«170189_j19258633355799_1_alg».proof.Proof.LibSumExchange

noncomputable section

namespace Cert.Spec

open Idealize.ShloMosaic
open Cert.LibBlockSums Cert.LibSumExchange

/-! ### The constants as real numbers -/

theorem two_eq : two = ((2 : ℝ) : EReal) := ofBits_two

theorem one_eq : one = ((1 : ℝ) : EReal) := by
  unfold one; simp [Ideal.ofBits, Ideal.ieee, -EReal.coe_mul]; norm_num

/-- ε is a positive real number. -/
theorem eps_pos : ∃ e : ℝ, 0 < e ∧ eps = ((e : ℝ) : EReal) := by
  unfold eps
  simp [Ideal.ofBits, Ideal.ieee, -EReal.coe_mul]

/-- The larger of two real numbers, taken among the extended reals, is their larger as real numbers. -/
theorem coe_max (p q : ℝ) : max (p : EReal) (q : EReal) = ((max p q : ℝ) : EReal) :=
  (EReal.coe_strictMono.monotone.map_max).symm

/-! ### The unit rows of a real batch are real -/

/-- An entry of a real row divided by max(the row's length, ε): the divisor is a positive real, so the quotient is the
    real quotient. -/
theorem unitRow_real (a : Fin 4096 → Fin 128 → ℝ) (r : Fin 4096) (d : Fin 128) :
    ∃ x : ℝ, unitRow (ofReal a) r d = ((x : ℝ) : EReal) := by
  obtain ⟨e, he, hE⟩ := eps_pos
  have hS : (∑ k : Fin 128, ofReal a r k * ofReal a r k) = ((∑ k : Fin 128, a r k * a r k : ℝ) : EReal) := by
    simp only [ofReal, ← EReal.coe_mul, ← coe_sum]
  have h0 : 0 ≤ ∑ k : Fin 128, a r k * a r k := Finset.sum_nonneg fun k _ => mul_self_nonneg _
  have hm : 0 < max (Real.sqrt (∑ k : Fin 128, a r k * a r k)) e := lt_max_of_lt_right he
  refine ⟨a r d * (1 / max (Real.sqrt (∑ k : Fin 128, a r k * a r k)) e), ?_⟩
  unfold unitRow
  rw [hS, hE, Ideal.sqrt_coe, if_neg (not_lt.mpr h0), coe_max, Ideal.div_coe hm.ne', EReal.coe_mul]
  rfl

theorem reps_real (a b : Fin 4096 → Fin 128 → ℝ) :
    ∃ z : Fin 8192 → Fin 128 → ℝ, reps (ofReal a) (ofReal b) = fun r d => ((z r d : ℝ) : EReal) := by
  choose u hu using unitRow_real
  refine ⟨fun r d => if h : r.val < 4096 then u a ⟨r.val, h⟩ d else u b ⟨r.val - 4096, by omega⟩ d, ?_⟩
  funext r d
  unfold reps
  by_cases h : r.val < 4096
  · simp only [h, dif_pos, hu]
  · simp only [h, dif_neg, not_false_eq_true, hu]

/-! ### Real representations: similarities and their exponentials -/

/-- The similarity of two real rows, as a real number. -/
def simR (z : Fin 8192 → Fin 128 → ℝ) (r c : Fin 8192) : ℝ := ∑ d : Fin 128, z r d * z c d

/-- e(r, c) = exp(2 · similarity of rows r and c), a positive real number. -/
def expR (z : Fin 8192 → Fin 128 → ℝ) (r c : Fin 8192) : ℝ := Real.exp (simR z r c * 2)

theorem expR_pos (z : Fin 8192 → Fin 128 → ℝ) (r c : Fin 8192) : 0 < expR z r c := Real.exp_pos _

theorem sim_coe (z : Fin 8192 → Fin 128 → ℝ) (r c : Fin 8192) :
    sim (fun r d => ((z r d : ℝ) : EReal)) r c = ((simR z r c : ℝ) : EReal) := by
  simp only [sim, simR, ← EReal.coe_mul, ← coe_sum]

/-- The exponential of the similarity times 2. -/
theorem exp_two_coe (z : Fin 8192 → Fin 128 → ℝ) (r c : Fin 8192) :
    Ideal.exp (sim (fun r d => ((z r d : ℝ) : EReal)) r c * two) = ((expR z r c : ℝ) : EReal) := by
  rw [sim_coe, two_eq, ← EReal.coe_mul, Ideal.exp_coe]; rfl

/-- The exponential of the similarity divided by 1/2: the same number. -/
theorem exp_half_coe (z : Fin 8192 → Fin 128 → ℝ) (r c : Fin 8192) :
    Ideal.exp (Ideal.div (sim (fun r d => ((z r d : ℝ) : EReal)) r c) half) = ((expR z r c : ℝ) : EReal) := by
  rw [half, div_half]; exact exp_two_coe z r c

theorem tileSum_coe (z : Fin 8192 → Fin 128 → ℝ) (r : Fin 8192) (j : Nat) :
    tileSum (fun r d => ((z r d : ℝ) : EReal)) r j = ((∑ q : Fin 1024, expR z r (col j q) : ℝ) : EReal) := by
  simp only [tileSum, exp_two_coe, ← coe_sum]

theorem selfTerm_coe (z : Fin 8192 → Fin 128 → ℝ) (r : Fin 8192) :
    selfTerm (fun r d => ((z r d : ℝ) : EReal)) r = ((expR z r r : ℝ) : EReal) :=
  exp_two_coe z r r

/-! ### The tile-accumulated denominator -/

/-- The real running denominator after n tiles: the first n tiles' sums, less e(r, r) once tile r / 1024 has passed. -/
def runR (z : Fin 8192 → Fin 128 → ℝ) (r : Fin 8192) (n : Nat) : ℝ :=
  ∑ j ∈ Finset.range n, ∑ q : Fin 1024, expR z r (col j q) - (if r.val / 1024 < n then expR z r r else 0)

theorem denomUpTo_coe (z : Fin 8192 → Fin 128 → ℝ) (r : Fin 8192) (n : Nat) :
    denomUpTo (fun r d => ((z r d : ℝ) : EReal)) r n = ((runR z r n : ℝ) : EReal) := by
  induction n with
  | zero => simp [denomUpTo, runR]
  | succ n ih =>
    rw [denomUpTo]
    simp only [ih, tileSum_coe, selfTerm_coe]
    by_cases h : n = r.val / 1024
    · rw [if_pos h, ← EReal.coe_add, ← EReal.coe_sub]
      congr 1
      unfold runR
      rw [Finset.sum_range_succ, if_neg (by omega), if_pos (by omega)]
      ring
    · rw [if_neg h, ← EReal.coe_add]
      congr 1
      unfold runR
      rw [Finset.sum_range_succ]
      by_cases h2 : r.val / 1024 < n
      · rw [if_pos h2, if_pos (by omega)]; ring
      · rw [if_neg h2, if_neg (by omega)]; ring

/-- The columns of the 8 tiles are all 8192 columns, each once: column q of tile j < 8 is 1024 · j + q. -/
theorem sum_tiles (f : Fin 8192 → ℝ) :
    ∑ j ∈ Finset.range 8, ∑ q : Fin 1024, f (col j q) = ∑ c : Fin 8192, f c := by
  rw [Finset.sum_range (fun j => ∑ q : Fin 1024, f (col j q))]
  refine ((sum_blocks 8 1024 (f : Fin (8 * 1024) → ℝ)).trans ?_).symm
  refine Finset.sum_congr rfl fun a _ => Finset.sum_congr rfl fun b _ => congrArg f ?_
  apply Fin.ext
  show a.val * 1024 + b.val = (1024 * a.val + b.val) % 8192
  omega

theorem denom_real (z : Fin 8192 → Fin 128 → ℝ) (r : Fin 8192) :
    ∃ D : ℝ, 0 < D ∧ denomTiled (fun r d => ((z r d : ℝ) : EReal)) r = ((D : ℝ) : EReal)
      ∧ denomMasked (fun r d => ((z r d : ℝ) : EReal)) r = ((D : ℝ) : EReal) := by
  refine ⟨∑ c : Fin 8192, expR z r c - expR z r r, ?_, ?_, ?_⟩
  · -- the sum over the columns other than r, of positive terms, and there is such a column
    rw [← Finset.sum_erase_eq_sub (f := fun c => expR z r c) (Finset.mem_univ r)]
    refine Finset.sum_pos (fun c _ => expR_pos z r c) ⟨⟨(r.val + 1) % 8192, Nat.mod_lt _ (by norm_num)⟩, ?_⟩
    rw [Finset.mem_erase]
    refine ⟨fun h => ?_, Finset.mem_univ _⟩
    have h' : (r.val + 1) % 8192 = r.val := congrArg Fin.val h
    have := r.isLt
    omega
  · have := r.isLt
    rw [denomTiled, denomUpTo_coe]
    congr 1
    unfold runR
    rw [sum_tiles (fun c => expR z r c), if_pos (by omega)]
  · have hterm : ∀ c : Fin 8192,
        (one - (if r = c then (1 : EReal) else 0))
            * Ideal.exp (Ideal.div (sim (fun r d => ((z r d : ℝ) : EReal)) r c) half)
          = (((1 - (if r = c then (1 : ℝ) else 0)) * expR z r c : ℝ) : EReal) := by
      intro c
      rw [exp_half_coe, one_eq, EReal.coe_mul, EReal.coe_sub]
      by_cases h : r = c
      · simp only [h, if_true, EReal.coe_one]
      · simp only [h, if_false, EReal.coe_zero]
    unfold denomMasked
    simp only [hterm, ← coe_sum]
    congr 1
    simp only [sub_mul, one_mul, ite_mul, zero_mul, Finset.sum_sub_distrib, Finset.sum_ite_eq, Finset.mem_univ, if_true]

end Cert.Spec

end
-- ==== Proof.SpecLaw.lean ====
/-
  The two forms of the loss agree on real inputs: row by row, log D − 2p = −log(exp(p / (1/2)) / D) for the row's
  positive real denominator D and its real positive-pair similarity p, and p is the same inner product read either
  as the batches' row product or as the similarity of row r with its partner.
-/
import proofs.«170189_j19258633355799_1_alg».proof.Proof.SpecDenom

noncomputable section

namespace Cert.Spec

open Idealize.ShloMosaic

namespace Law

/-- The extended real of a finite sum of reals is the sum of the extended reals. -/
theorem coe_sum_real {ι : Type} (s : Finset ι) (f : ι → ℝ) :
    ((∑ i ∈ s, f i : ℝ) : EReal) = ∑ i ∈ s, ((f i : ℝ) : EReal) :=
  map_sum (⟨⟨Real.toEReal, EReal.coe_zero⟩, EReal.coe_add⟩ : ℝ →+ EReal) f s

/-- The constant 2 = 2²³ · 2⁻²². -/
theorem two_eq : two = ((2 : ℝ) : EReal) := by
  unfold two
  simp [Ideal.ofBits, Ideal.ieee, -EReal.coe_mul]
  norm_num

/-- The constant 1/2 = 2²³ · 2⁻²⁴. -/
theorem half_eq : half = ((1 / 2 : ℝ) : EReal) := by
  unfold half
  simp [Ideal.ofBits, Ideal.ieee, -EReal.coe_mul]
  norm_num

/-- A representation in the first half is a unit row of the first batch. -/
theorem reps_lo (x1 x2 : Batch) (r : Fin 8192) (h : r.val < 4096) (d : Fin 128) :
    reps x1 x2 r d = unitRow x1 ⟨r.val, h⟩ d := by
  unfold reps
  exact dif_pos h

/-- A representation in the second half is a unit row of the second batch. -/
theorem reps_hi (x1 x2 : Batch) (r : Fin 8192) (h : ¬ r.val < 4096) (d : Fin 128) :
    reps x1 x2 r d = unitRow x2 ⟨r.val - 4096, by omega⟩ d := by
  unfold reps
  exact dif_neg h

/-- The positive-pair number of row r mod 4096 is the similarity of representation r with its partner: for r in the
    first half the partner is r + 4096 and the factors are the first batch's unit row r and the second's; for r in
    the second half the partner is r − 4096 and the same two factors come in the other order. -/
theorem pos_eq_sim (x1 x2 : Batch) (r : Fin 8192) :
    pos x1 x2 ⟨r.val % 4096, Nat.mod_lt _ (by norm_num)⟩ = sim (reps x1 x2) r (partner r) := by
  unfold pos sim
  refine Finset.sum_congr rfl (fun d _ => ?_)
  have hr := r.isLt
  by_cases h : r.val < 4096
  · have hpv : (partner r).val = r.val + 4096 := by
      show (r.val + 4096) % 8192 = r.val + 4096
      omega
    have hp : ¬ (partner r).val < 4096 := by omega
    rw [reps_lo x1 x2 r h, reps_hi x1 x2 (partner r) hp]
    have e1 : (⟨r.val % 4096, Nat.mod_lt _ (by norm_num)⟩ : Fin 4096) = ⟨r.val, h⟩ :=
      Fin.ext (Nat.mod_eq_of_lt h)
    have e2 : (⟨(partner r).val - 4096, by omega⟩ : Fin 4096) = ⟨r.val, h⟩ :=
      Fin.ext (by show (partner r).val - 4096 = r.val; omega)
    rw [e1, e2]
  · have hpv : (partner r).val = r.val - 4096 := by
      show (r.val + 4096) % 8192 = r.val - 4096
      omega
    have hp : (partner r).val < 4096 := by omega
    rw [reps_hi x1 x2 r h, reps_lo x1 x2 (partner r) hp]
    have e1 : (⟨r.val % 4096, Nat.mod_lt _ (by norm_num)⟩ : Fin 4096) = ⟨r.val - 4096, by omega⟩ :=
      Fin.ext (by show r.val % 4096 = r.val - 4096; omega)
    have e2 : (⟨(partner r).val, hp⟩ : Fin 4096) = ⟨r.val - 4096, by omega⟩ := Fin.ext hpv
    rw [e1, e2, mul_comm]

/-- The similarity of two real representations is the real inner product. -/
theorem sim_coe (z : Fin 8192 → Fin 128 → ℝ) (r c : Fin 8192) :
    sim (fun r d => ((z r d : ℝ) : EReal)) r c = ((∑ d : Fin 128, z r d * z c d : ℝ) : EReal) := by
  unfold sim
  rw [coe_sum_real]
  exact Finset.sum_congr rfl (fun d _ => (EReal.coe_mul _ _).symm)

/-- One row's identity on reals: for D > 0, log D − p · 2 = −log(exp(p / (1/2)) / D). Dividing by 1/2 is multiplying
    by 2; the exponential is a positive real and so is its quotient by D; the logarithm of the quotient is
    p · 2 − log D. -/
theorem row_law (p D : ℝ) (hD : 0 < D) :
    Ideal.log (D : EReal) - (p : EReal) * two
      = -Ideal.log (Ideal.div (Ideal.exp (Ideal.div (p : EReal) half)) (D : EReal)) := by
  have h2 : Ideal.div (p : EReal) half = ((p * 2 : ℝ) : EReal) := by
    rw [half_eq, Ideal.div_coe (by norm_num), ← EReal.coe_mul]
    congr 1
    norm_num
  have hq : 0 < Real.exp (p * 2) * (1 / D) := by positivity
  rw [h2, Ideal.exp_coe, Ideal.div_coe hD.ne', ← EReal.coe_mul, Ideal.log_coe, Ideal.log_coe, two_eq,
    ← EReal.coe_mul, if_neg (not_le.mpr hD), if_neg (not_le.mpr hq), ← EReal.coe_sub, ← EReal.coe_neg]
  congr 1
  rw [one_div, Real.log_mul (Real.exp_pos _).ne' (inv_ne_zero hD.ne'), Real.log_exp, Real.log_inv]
  ring

end Law

theorem lossTiled_eq_lossMasked (a b : Fin 4096 → Fin 128 → ℝ) :
    lossTiled (ofReal a) (ofReal b) = lossMasked (ofReal a) (ofReal b) := by
  obtain ⟨z, hz⟩ := reps_real a b
  unfold lossTiled lossMasked
  congr 1
  refine Finset.sum_congr rfl (fun r _ => ?_)
  rw [Law.pos_eq_sim, hz]
  obtain ⟨D, hD, hT, hM⟩ := denom_real z r
  rw [hT, hM, Law.sim_coe]
  exact Law.row_law _ D hD

end Cert.Spec

end
-- ==== Proof.LibFiniteEntry.lean ====
/-
  Finite entries are real numbers.

  On the extended reals the absolute value of x is max(x, -x); it is +infinity exactly when x is one of the two
  infinities. So an entry whose absolute value is strictly below +infinity is a real number. A program tests "every entry
  of x is finite" as  all(|x| < inf):  the comparison entry by entry against a broadcast +infinity, reduced by `and` over
  every axis from the constant true. If the test's one result is true, every entry passed the comparison, and so is real.
-/
import Idealize.ShloMosaic.Lib.ReduceAll
import Idealize.ShloMosaic.Lib.ValueIdx
import Idealize.ShloMosaic.Lib.Pipeline.Value
import Idealize.ShloMosaic.PureOps.Ideal.Laws

noncomputable section

namespace Cert.LibFiniteEntry

open Idealize.ShloMosaic Idealize.ShloMosaic.ValueIdx

/-- The shape with no axes has one index. -/
instance : Subsingleton (⟨0, ![]⟩ : Shape).Idx := ⟨fun a b => funext fun d => d.elim0⟩

/-- An extended real whose absolute value is below +infinity is a real number. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- One "all entries are finite" test that came out true, read at an entry: the entry is a real number. -/
theorem real_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi (cmpf .olt (Host.absf x) (broadcastInDim s ![] hb (constant (F := Ideal) ⟨0, ![]⟩ .f32 0x7F800000#32)))
      init hr hu ix0 = 1#1)
    (i : s.Idx) : ∃ r : ℝ, x i = (r : EReal) := by
  have h1 := Host.reduce_andi_all _ init hr hu ix0 e i
  apply real_of_abs_lt_inf
  have hb' : broadcastInDim s ![] hb (constant (F := Ideal) ⟨0, ![]⟩ .f32 0x7F800000#32) i = Ideal.ofBits .f32 0x7F800000#32 :=
    broadcastInDim_apply _ hb _ i ix0 (fun a => a.elim0)
  rw [← hb']
  exact h1

end Cert.LibFiniteEntry

end
-- ==== Proof.Finite.lean ====
/-
  Under the precondition (every input entry has absolute value below +∞) both input arrays, read as batches, hold
  real numbers.

  The precondition is the conjunction of two tests, one per array: each compares |x| entry by entry with +∞ and
  reduces the comparisons by "and" over both axes. A conjunction that is true has both parts true; a reduction by "and"
  that is true has every entry true; and an extended real with |x| < +∞ is a real number. Choosing the real number entry
  by entry gives the two real arrays.
-/
import proofs.«170189_j19258633355799_1_alg».proof.Proof.Bridge
import proofs.«170189_j19258633355799_1_alg».proof.Proof.LibFiniteEntry
import proofs.«170189_j19258633355799_1_alg».proof.Defs

noncomputable section

namespace Cert.Finite

open Idealize.ShloMosaic Idealize.SL.Sem

/-- Both tests of the precondition came out true, so every entry of either array is a real number. -/
theorem entries_real [Cert.Pre_finite_inputs.Facts]
    (x y : FVec Ideal Cert.Pre_finite_inputs.S4096x128 .f32)
    (h : Cert.Pre_finite_inputs.fn (F := Ideal) x y = (fun _ => 1#1)) :
    (∀ i, ∃ r : ℝ, x i = (r : EReal)) ∧ (∀ i, ∃ r : ℝ, y i = (r : EReal)) := by
  have e := congrFun h ValueIdx.ix0
  dsimp only [Cert.Pre_finite_inputs.fn] at e
  obtain ⟨e0, e1⟩ := IntOp.andi_eq_one.1 e
  exact ⟨fun i => Cert.LibFiniteEntry.real_of_all x _ _ _ _ e0 i,
    fun i => Cert.LibFiniteEntry.real_of_all y _ _ _ _ e1 i⟩

theorem real_inputs [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∃ a b : Fin 4096 → Fin 128 → ℝ,
      Cert.Spec.batchOf (m ((c.tc : Thread Cert.KernelIdeal.nD Cert.KernelIdeal.τ).loc Cert.KernelIdeal.main_arg0)) = Cert.Spec.ofReal a
      ∧ Cert.Spec.batchOf (m ((c.tc : Thread Cert.KernelIdeal.nD Cert.KernelIdeal.τ).loc Cert.KernelIdeal.main_arg1)) = Cert.Spec.ofReal b := by
  obtain ⟨hx, hy⟩ := entries_real _ _ (h c)
  choose a ha using hx
  choose b hb using hy
  exact ⟨fun r d => a (ValueIdx.ix2 r d), fun r d => b (ValueIdx.ix2 r d),
    funext fun r => funext fun d => ha (ValueIdx.ix2 r d),
    funext fun r => funext fun d => hb (ValueIdx.ix2 r d)⟩

end Cert.Finite

end
-- ==== Proof.lean ====
/-
  The five claims. The two batches of 4096 rows are scaled to unit rows; the kernel program stacks them, accumulates
  every row's softmax denominator tile by tile over an 8 × 8 grid — taking the diagonal term back out in the tile
  that holds it — and averages log(denominator) − 2 · (positive-pair similarity); the reference forms all 8192²
  similarities at once, masks the diagonal, and averages −log(exp(positive / (1/2)) / denominator).
  Frames: each program is a chain of segments run from any memory, and no segment writes an argument array.
  Values: on the extended reals the kernel's result is the tile-accumulated form of the loss and the reference's
  the masked form; under the precondition the inputs are real, every denominator is then one positive real number
  in both forms, and log D − 2p = −log(exp(2p) / D).
-/
import proofs.«170189_j19258633355799_1_alg».proof.Defs
import proofs.«170189_j19258633355799_1_alg».proof.Proof.Gen.Kernel
import proofs.«170189_j19258633355799_1_alg».proof.Proof.Gen.KernelIdeal
import proofs.«170189_j19258633355799_1_alg».proof.Proof.Gen.ReferenceIdeal
import proofs.«170189_j19258633355799_1_alg».proof.Proof.Gen.Pre_finite_inputs
import proofs.«170189_j19258633355799_1_alg».proof.Proof.K.Args
import proofs.«170189_j19258633355799_1_alg».proof.Proof.KI.Args
import proofs.«170189_j19258633355799_1_alg».proof.Proof.KI.Value
import proofs.«170189_j19258633355799_1_alg».proof.Proof.RefValue
import proofs.«170189_j19258633355799_1_alg».proof.Proof.SpecLaw
import proofs.«170189_j19258633355799_1_alg».proof.Proof.Finite
import Idealize.ShloMosaic.Adequacy
import Idealize.ShloMosaic.Init

noncomputable section

namespace Cert.Proof

open Idealize.ShloMosaic Idealize.SL.Sem

/-- The word-level kernel program runs to the end, faults nowhere, and leaves its arguments as launched. -/
theorem frame_k : Cert.frame_Kernel := fun m ρ _ => Cert.Kernel.Hand.frame (F := Bits) m ρ

/-- The same of the idealized kernel program. -/
theorem frame_ki : Cert.frame_KernelIdeal := fun m ρ _ => Cert.KernelIdeal.Hand.frame (F := Ideal) m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel program and its idealization. -/
theorem preserves : Cert.preserves_Kernel_KernelIdeal := trivial

/-- From memories agreeing on real-valued arguments both idealized programs end at one loss: the kernel's
    tile-accumulated form, which equals the reference's masked form. -/
theorem algebraic : Cert.algebraic_KernelIdeal_ReferenceIdeal := by
  intro m ρ m' ρ' hpre hagree
  refine ⟨fun c => (fun _ => Cert.Spec.lossTiled (Cert.KernelIdeal.Hand.arg0 m c) (Cert.KernelIdeal.Hand.arg1 m c)), ?_, ?_⟩
  · refine (θ_run Cert.KernelIdeal.defs _ _).mono (fun r h c => ⟨?_, ?_, ?_⟩) (Cert.KernelIdeal.Hand.run_main (F := Ideal) m ρ)
    · exact (h c _ (Cert.KernelIdeal.Hand.mem_uc Cert.KernelIdeal.main_v9 (by decide))).trans (Cert.KernelIdeal.Hand.kernel_value m ρ c)
    · exact (h c _ (Cert.KernelIdeal.Hand.mem_uc Cert.KernelIdeal.main_arg0 (by decide))).trans (Cert.KernelIdeal.Hand.W4_main_arg0 m ρ c)
    · exact (h c _ (Cert.KernelIdeal.Hand.mem_uc Cert.KernelIdeal.main_arg1 (by decide))).trans (Cert.KernelIdeal.Hand.W4_main_arg1 m ρ c)
  · refine (θ_run Cert.ReferenceIdeal.defs _ _).mono (fun r h c => ⟨(h c).1.trans ?_, (h c).2.1, (h c).2.2⟩)
      (Cert.ReferenceIdeal.Value.run (F := Ideal) m' ρ')
    obtain ⟨a, b, ha, hb⟩ := Cert.Finite.real_inputs m hpre c
    refine (Cert.ReferenceIdeal.RefValue.ref_value m' c).trans ?_
    rw [(hagree c).1, (hagree c).2]
    funext _
    show Cert.Spec.lossMasked (Cert.Spec.batchOf _) (Cert.Spec.batchOf _) = Cert.Spec.lossTiled (Cert.Spec.batchOf _) (Cert.Spec.batchOf _)
    rw [ha, hb]
    exact (Cert.Spec.lossTiled_eq_lossMasked a b).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
